-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v152)) (v1 : (c : Dev Cert.KernelIdeal.nD) → Buf (Elt Ideal) ((c.tc : Thread Cert.KernelIdeal.nD Cert.KernelIdeal.τ).loc Cert.KernelIdeal.main_v153)) (v2 : (c : Dev Cert.KernelIdeal.nD) → Buf (Elt Ideal) ((c.tc : Thread Cert.KernelIdeal.nD Cert.KernelIdeal.τ).loc Cert.KernelIdeal.main_v154)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v152) = v0 c
          ∧ r.2.mem ((c.tc : Thread Cert.KernelIdeal.nD Cert.KernelIdeal.τ).loc Cert.KernelIdeal.main_v153) = v1 c
          ∧ r.2.mem ((c.tc : Thread Cert.KernelIdeal.nD Cert.KernelIdeal.τ).loc Cert.KernelIdeal.main_v154) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_v158) = v1 c
          ∧ r.2.mem ((c.tc : Thread Cert.ReferenceIdeal.nD Cert.ReferenceIdeal.τ).loc Cert.ReferenceIdeal.main_v159) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4x2048 : Shape := ⟨4, ![4, 4096, 4, 2048]⟩
abbrev S8192x24 : Shape := ⟨2, ![8192, 24]⟩
abbrev S24 : Shape := ⟨1, ![24]⟩
abbrev S1 : Shape := ⟨1, ![1]⟩
abbrev S_ : Shape := ⟨0, ![]⟩

class Facts : Prop where
  bcast_S_S4x4096x4x2048 : S_.BroadcastsInDim S4x4096x4x2048 (![] : Fin 0 → Fin S4x4096x4x2048.rank)
  reducesTo_S4x4096x4x2048_S_d0_1_2_3 : S4x4096x4x2048.ReducesTo [0, 1, 2, 3] S_
  h_S_ : 0 < S_.numel
  bcast_S_S8192x24 : S_.BroadcastsInDim S8192x24 (![] : Fin 0 → Fin S8192x24.rank)
  reducesTo_S8192x24_S_d0_1 : S8192x24.ReducesTo [0, 1] S_
  bcast_S_S24 : S_.BroadcastsInDim S24 (![] : Fin 0 → Fin S24.rank)
  reducesTo_S24_S_d0 : S24.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_arg5 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S4x4096x4x2048 .f32) (main_arg1 : FVec F S8192x24 .f32) (main_arg2 : FVec F S24 .f32) (main_arg3 : FVec F S1 .f32) (main_arg4 : FVec F S1 .f32) (main_arg5 : FVec F S1 .f32) : IVec S_ 1 :=
  let main_v0 : FVec F S4x4096x4x2048 .f32 := Host.absf main_arg0
  let main_cst : FVec F S_ .f32 := constant S_ .f32 0x7F800000#32
  let main_v1 : FVec F S4x4096x4x2048 .f32 := broadcastInDim S4x4096x4x2048 ![] bcast_S_S4x4096x4x2048 main_cst
  let main_v2 : IVec S4x4096x4x2048 1 := cmpf .olt main_v0 main_v1
  let main_c : IVec S_ 1 := constantI S_ 1 1#1
  let main_v3 : IVec S_ 1 := (fun x v => Host.reduce IntOp.andi x v reducesTo_S4x4096x4x2048_S_d0_1_2_3 h_S_) main_v2 main_c
  let main_v4 : FVec F S8192x24 .f32 := Host.absf main_arg1
  let main_cst_0 : FVec F S_ .f32 := constant S_ .f32 0x7F800000#32
  let main_v5 : FVec F S8192x24 .f32 := broadcastInDim S8192x24 ![] bcast_S_S8192x24 main_cst_0
  let main_v6 : IVec S8192x24 1 := cmpf .olt main_v4 main_v5
  let main_c_1 : IVec S_ 1 := constantI S_ 1 1#1
  let main_v7 : IVec S_ 1 := (fun x v => Host.reduce IntOp.andi x v reducesTo_S8192x24_S_d0_1 h_S_) main_v6 main_c_1
  let main_v8 : IVec S_ 1 := andi main_v3 main_v7
  let main_v9 : FVec F S24 .f32 := Host.absf main_arg2
  let main_cst_2 : FVec F S_ .f32 := constant S_ .f32 0x7F800000#32
  let main_v10 : FVec F S24 .f32 := broadcastInDim S24 ![] bcast_S_S24 main_cst_2
  let main_v11 : IVec S24 1 := cmpf .olt main_v9 main_v10
  let main_c_3 : IVec S_ 1 := constantI S_ 1 1#1
  let main_v12 : IVec S_ 1 := (fun x v => Host.reduce IntOp.andi x v reducesTo_S24_S_d0 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg4 main_arg5 main_v13 main_v16
-- ==== Kernel.lean ====
abbrev S4x4096x4x2048 : Shape := ⟨4, ![4, 4096, 4, 2048]⟩
abbrev S8192x24 : Shape := ⟨2, ![8192, 24]⟩
abbrev S24 : Shape := ⟨1, ![24]⟩
abbrev S1 : Shape := ⟨1, ![1]⟩
abbrev S16384x8192 : Shape := ⟨2, ![16384, 8192]⟩
abbrev S_ : Shape := ⟨0, ![]⟩
abbrev S8192x128 : Shape := ⟨2, ![8192, 128]⟩
abbrev S16384x128 : Shape := ⟨2, ![16384, 128]⟩
abbrev S512x8192 : Shape := ⟨2, ![512, 8192]⟩
abbrev S512x128 : Shape := ⟨2, ![512, 128]⟩
abbrev S512 : Shape := ⟨1, ![512]⟩
abbrev S512x1 : Shape := ⟨2, ![512, 1]⟩
abbrev S16384x24 : Shape := ⟨2, ![16384, 24]⟩
abbrev S16384x4 : Shape := ⟨2, ![16384, 4]⟩
abbrev S1x1 : Shape := ⟨2, ![1, 1]⟩
abbrev S4 : Shape := ⟨1, ![4]⟩
abbrev S1x4 : Shape := ⟨2, ![1, 4]⟩
abbrev S16384x16 : Shape := ⟨2, ![16384, 16]⟩
abbrev S16384x4x4 : Shape := ⟨3, ![16384, 4, 4]⟩
abbrev S1x1x1 : Shape := ⟨3, ![1, 1, 1]⟩
abbrev S16 : Shape := ⟨1, ![16]⟩
abbrev S4x4 : Shape := ⟨2, ![4, 4]⟩
abbrev S1x4x4 : Shape := ⟨3, ![1, 4, 4]⟩
abbrev S16384x4x1 : Shape := ⟨3, ![16384, 4, 1]⟩
abbrev S16384x1x4 : Shape := ⟨3, ![16384, 1, 4]⟩
abbrev S4x4096x4 : Shape := ⟨3, ![4, 4096, 4]⟩
abbrev S4x4096x4x4 : Shape := ⟨4, ![4, 4096, 4, 4]⟩

abbrev nBuf : Space → Nat
  | .hbm => 203
  | .vmem => 5
  | .smem => 0
  | _ => 0

abbrev hbmTy0_0 (i : Nat) : BufTy := match i % 128 with
  | 0 => ⟨S4x4096x4x2048, .f32⟩
  | 1 => ⟨S8192x24, .f32⟩
  | 2 => ⟨S24, .f32⟩
  | 3 => ⟨S1, .f32⟩
  | 4 => ⟨S1, .f32⟩
  | 5 => ⟨S1, .f32⟩
  | 6 => ⟨S16384x8192, .f32⟩
  | 7 => ⟨S_, .bf16⟩
  | 8 => ⟨S8192x128, .bf16⟩
  | 9 => ⟨S8192x24, .bf16⟩
  | 10 => ⟨S_, .i32⟩
  | 11 => ⟨S1, .i32⟩
  | 12 => ⟨S8192x128, .bf16⟩
  | 13 => ⟨S16384x128, .f32⟩
  | 14 => ⟨S16384x24, .f32⟩
  | 15 => ⟨S16384x4, .f32⟩
  | 16 => ⟨S1x1, .f32⟩
  | 17 => ⟨S16384x4, .f32⟩
  | 18 => ⟨S16384x4, .f32⟩
  | 19 => ⟨S4, .f32⟩
  | 20 => ⟨S1x4, .f32⟩
  | 21 => ⟨S16384x4, .f32⟩
  | 22 => ⟨S16384x4, .f32⟩
  | 23 => ⟨S16384x4, .f32⟩
  | 24 => ⟨S16384x4, .f32⟩
  | 25 => ⟨S_, .f32⟩
  | 26 => ⟨S16384x4, .f32⟩
  | 27 => ⟨S16384x4, .f32⟩
  | 28 => ⟨S_, .f32⟩
  | 29 => ⟨S16384x4, .f32⟩
  | 30 => ⟨S16384x4, .f32⟩
  | 31 => ⟨S_, .f32⟩
  | 32 => ⟨S16384x4, .f32⟩
  | 33 => ⟨S16384x4, .f32⟩
  | 34 => ⟨S16384x4, .f32⟩
  | 35 => ⟨S1x1, .f32⟩
  | 36 => ⟨S16384x4, .f32⟩
  | 37 => ⟨S16384x4, .f32⟩
  | 38 => ⟨S4, .f32⟩
  | 39 => ⟨S1x4, .f32⟩
  | 40 => ⟨S16384x4, .f32⟩
  | 41 => ⟨S16384x4, .f32⟩
  | 42 => ⟨S16384x4, .f32⟩
  | 43 => ⟨S16384x4, .f32⟩
  | 44 => ⟨S_, .f32⟩
  | 45 => ⟨S16384x4, .f32⟩
  | 46 => ⟨S16384x4, .f32⟩
  | 47 => ⟨S_, .f32⟩
  | 48 => ⟨S16384x4, .f32⟩
  | 49 => ⟨S16384x4, .f32⟩
  | 50 => ⟨S_, .f32⟩
  | 51 => ⟨S16384x4, .f32⟩
  | 52 => ⟨S16384x4, .f32⟩
  | 53 => ⟨S16384x16, .f32⟩
  | 54 => ⟨S16384x4x4, .f32⟩
  | 55 => ⟨S1x1x1, .f32⟩
  | 56 => ⟨S16384x4x4, .f32⟩
  | 57 => ⟨S16384x4x4, .f32⟩
  | 58 => ⟨S16, .f32⟩
  | 59 => ⟨S4x4, .f32⟩
  | 60 => ⟨S1x4x4, .f32⟩
  | 61 => ⟨S16384x4x4, .f32⟩
  | 62 => ⟨S16384x4x4, .f32⟩
  | 63 => ⟨S_, .f32⟩
  | 64 => ⟨S16384x4, .f32⟩
  | 65 => ⟨S_, .f32⟩
  | 66 => ⟨S16384x4, .f32⟩
  | 67 => ⟨S16384x4, .f32⟩
  | 68 => ⟨S16384x4x1, .f32⟩
  | 69 => ⟨S16384x4x4, .f32⟩
  | 70 => ⟨S16384x4x4, .f32⟩
  | 71 => ⟨S16384x4x4, .f32⟩
  | 72 => ⟨S_, .f32⟩
  | 73 => ⟨S16384x4, .f32⟩
  | 74 => ⟨S16384x4x1, .f32⟩
  | 75 => ⟨S16384x4x4, .f32⟩
  | 76 => ⟨S16384x4x4, .f32⟩
  | 77 => ⟨S_, .f32⟩
  | 78 => ⟨S16384x4x4, .f32⟩
  | 79 => ⟨S16384x4x4, .f32⟩
  | 80 => ⟨S_, .f32⟩
  | 81 => ⟨S16384x4, .f32⟩
  | 82 => ⟨S16384x1x4, .f32⟩
  | 83 => ⟨S_, .f32⟩
  | 84 => ⟨S16384x1x4, .f32⟩
  | 85 => ⟨S16384x1x4, .f32⟩
  | 86 => ⟨S16384x4x4, .f32⟩
  | 87 => ⟨S16384x4x4, .f32⟩
  | 88 => ⟨S_, .f32⟩
  | 89 => ⟨S16384x4, .f32⟩
  | 90 => ⟨S16384x4x1, .f32⟩
  | 91 => ⟨S_, .f32⟩
  | 92 => ⟨S16384x4x1, .f32⟩
  | 93 => ⟨S16384x4x1, .f32⟩
  | 94 => ⟨S16384x4x4, .f32⟩
  | 95 => ⟨S16384x4x4, .f32⟩
  | 96 => ⟨S_, .f32⟩
  | 97 => ⟨S16384x4, .f32⟩
  | 98 => ⟨S16384x1x4, .f32⟩
  | 99 => ⟨S_, .f32⟩
  | 100 => ⟨S16384x1x4, .f32⟩
  | 101 => ⟨S16384x1x4, .f32⟩
  | 102 => ⟨S16384x4x4, .f32⟩
  | 103 => ⟨S16384x4x4, .f32⟩
  | 104 => ⟨S_, .f32⟩
  | 105 => ⟨S16384x4, .f32⟩
  | 106 => ⟨S16384x4x1, .f32⟩
  | 107 => ⟨S_, .f32⟩
  | 108 => ⟨S16384x4x1, .f32⟩
  | 109 => ⟨S16384x4x1, .f32⟩
  | 110 => ⟨S16384x4x4, .f32⟩
  | 111 => ⟨S16384x4x4, .f32⟩
  | 112 => ⟨S_, .f32⟩
  | 113 => ⟨S16384x4, .f32⟩
  | 114 => ⟨S16384x1x4, .f32⟩
  | 115 => ⟨S_, .f32⟩
  | 116 => ⟨S16384x1x4, .f32⟩
  | 117 => ⟨S16384x1x4, .f32⟩
  | 118 => ⟨S16384x4x4, .f32⟩
  | 119 => ⟨S16384x4x4, .f32⟩
  | 120 => ⟨S_, .f32⟩
  | 121 => ⟨S16384x4, .f32⟩
  | 122 => ⟨S16384x4x1, .f32⟩
  | 123 => ⟨S_, .f32⟩
  | 124 => ⟨S16384x4x1, .f32⟩
  | 125 => ⟨S16384x4x1, .f32⟩
  | 126 => ⟨S16384x4x4, .f32⟩
  | 127 => ⟨S16384x4x4, .f32⟩
  | _ => ⟨S4x4096x4x2048, .f32⟩

abbrev hbmTy0_1 (i : Nat) : BufTy := match i % 128 with
  | 0 => ⟨S_, .f32⟩
  | 1 => ⟨S16384x4, .f32⟩
  | 2 => ⟨S16384x1x4, .f32⟩
  | 3 => ⟨S_, .f32⟩
  | 4 => ⟨S16384x1x4, .f32⟩
  | 5 => ⟨S16384x1x4, .f32⟩
  | 6 => ⟨S16384x4x4, .f32⟩
  | 7 => ⟨S16384x4x4, .f32⟩
  | 8 => ⟨S_, .f32⟩
  | 9 => ⟨S16384x4, .f32⟩
  | 10 => ⟨S16384x4x1, .f32⟩
  | 11 => ⟨S_, .f32⟩
  | 12 => ⟨S16384x4x1, .f32⟩
  | 13 => ⟨S16384x4x1, .f32⟩
  | 14 => ⟨S16384x4x4, .f32⟩
  | 15 => ⟨S16384x4x4, .f32⟩
  | 16 => ⟨S_, .f32⟩
  | 17 => ⟨S16384x4, .f32⟩
  | 18 => ⟨S16384x1x4, .f32⟩
  | 19 => ⟨S_, .f32⟩
  | 20 => ⟨S16384x1x4, .f32⟩
  | 21 => ⟨S16384x1x4, .f32⟩
  | 22 => ⟨S16384x4x4, .f32⟩
  | 23 => ⟨S16384x4x4, .f32⟩
  | 24 => ⟨S_, .f32⟩
  | 25 => ⟨S16384x4, .f32⟩
  | 26 => ⟨S16384x4x1, .f32⟩
  | 27 => ⟨S_, .f32⟩
  | 28 => ⟨S16384x4x1, .f32⟩
  | 29 => ⟨S16384x4x1, .f32⟩
  | 30 => ⟨S16384x4x4, .f32⟩
  | 31 => ⟨S16384x4x4, .f32⟩
  | 32 => ⟨S_, .f32⟩
  | 33 => ⟨S16384x4, .f32⟩
  | 34 => ⟨S16384x1x4, .f32⟩
  | 35 => ⟨S_, .f32⟩
  | 36 => ⟨S16384x1x4, .f32⟩
  | 37 => ⟨S16384x1x4, .f32⟩
  | 38 => ⟨S16384x4x4, .f32⟩
  | 39 => ⟨S16384x4x4, .f32⟩
  | 40 => ⟨S_, .f32⟩
  | 41 => ⟨S16384x4, .f32⟩
  | 42 => ⟨S16384x4x1, .f32⟩
  | 43 => ⟨S_, .f32⟩
  | 44 => ⟨S16384x4x1, .f32⟩
  | 45 => ⟨S16384x4x1, .f32⟩
  | 46 => ⟨S16384x4x4, .f32⟩
  | 47 => ⟨S16384x4x4, .f32⟩
  | 48 => ⟨S_, .f32⟩
  | 49 => ⟨S16384x4, .f32⟩
  | 50 => ⟨S16384x1x4, .f32⟩
  | 51 => ⟨S_, .f32⟩
  | 52 => ⟨S16384x1x4, .f32⟩
  | 53 => ⟨S16384x1x4, .f32⟩
  | 54 => ⟨S16384x4x4, .f32⟩
  | 55 => ⟨S16384x4x4, .f32⟩
  | 56 => ⟨S_, .f32⟩
  | 57 => ⟨S16384x4, .f32⟩
  | 58 => ⟨S16384x4x1, .f32⟩
  | 59 => ⟨S_, .f32⟩
  | 60 => ⟨S16384x4x1, .f32⟩
  | 61 => ⟨S16384x4x1, .f32⟩
  | 62 => ⟨S16384x4x4, .f32⟩
  | 63 => ⟨S16384x4x4, .f32⟩
  | 64 => ⟨S_, .f32⟩
  | 65 => ⟨S16384x4, .f32⟩
  | 66 => ⟨S16384x1x4, .f32⟩
  | 67 => ⟨S_, .f32⟩
  | 68 => ⟨S16384x1x4, .f32⟩
  | 69 => ⟨S16384x1x4, .f32⟩
  | 70 => ⟨S16384x4x4, .f32⟩
  | 71 => ⟨S16384x4x4, .f32⟩
  | 72 => ⟨S4x4096x4, .f32⟩
  | 73 => ⟨S4x4096x4, .f32⟩
  | 74 => ⟨S4x4096x4x4, .f32⟩
  | _ => ⟨S4x4096x4x2048, .f32⟩

abbrev hbmTy (i : Nat) : BufTy := match i / 128 with
  | 0 => hbmTy0_0 i
  | 1 => hbmTy0_1 i
  | _ => ⟨S4x4096x4x2048, .f32⟩

abbrev bufTy : (tb : Table) → Fin (tcTables nBuf tb) → BufTy
  | .hbm, ⟨i, _⟩ => hbmTy i
  | .local _ .vmem, ⟨0, _⟩ => ⟨S512x8192, .f32⟩
  | .local _ .vmem, ⟨1, _⟩ => ⟨S512x8192, .f32⟩
  | .local _ .vmem, ⟨2, _⟩ => ⟨S8192x128, .bf16⟩
  | .local _ .vmem, ⟨3, _⟩ => ⟨S512x128, .f32⟩
  | .local _ .vmem, ⟨4, _⟩ => ⟨S512x128, .f32⟩
  | _, _ => ⟨S4x4096x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_6 : Ref sig .tc := ⟨.hbm, 63, rfl⟩
abbrev main_v49 : Ref sig .tc := ⟨.hbm, 64, rfl⟩
abbrev main_cst_7 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_8 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_9 : Ref sig .tc := ⟨.hbm, 77, rfl⟩
abbrev main_v60 : Ref sig .tc := ⟨.hbm, 78, rfl⟩
abbrev main_v61 : Ref sig .tc := ⟨.hbm, 79, rfl⟩
abbrev main_cst_10 : Ref sig .tc := ⟨.hbm, 80, rfl⟩
abbrev main_v62 : Ref sig .tc := ⟨.hbm, 81, rfl⟩
abbrev main_v63 : Ref sig .tc := ⟨.hbm, 82, rfl⟩
abbrev main_cst_11 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_12 : Ref sig .tc := ⟨.hbm, 88, rfl⟩
abbrev main_v68 : Ref sig .tc := ⟨.hbm, 89, rfl⟩
abbrev main_v69 : Ref sig .tc := ⟨.hbm, 90, rfl⟩
abbrev main_cst_13 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_14 : Ref sig .tc := ⟨.hbm, 96, rfl⟩
abbrev main_v74 : Ref sig .tc := ⟨.hbm, 97, rfl⟩
abbrev main_v75 : Ref sig .tc := ⟨.hbm, 98, rfl⟩
abbrev main_cst_15 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_16 : Ref sig .tc := ⟨.hbm, 104, rfl⟩
abbrev main_v80 : Ref sig .tc := ⟨.hbm, 105, rfl⟩
abbrev main_v81 : Ref sig .tc := ⟨.hbm, 106, rfl⟩
abbrev main_cst_17 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_18 : Ref sig .tc := ⟨.hbm, 112, rfl⟩
abbrev main_v86 : Ref sig .tc := ⟨.hbm, 113, rfl⟩
abbrev main_v87 : Ref sig .tc := ⟨.hbm, 114, rfl⟩
abbrev main_cst_19 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_20 : Ref sig .tc := ⟨.hbm, 120, rfl⟩
abbrev main_v92 : Ref sig .tc := ⟨.hbm, 121, rfl⟩
abbrev main_v93 : Ref sig .tc := ⟨.hbm, 122, rfl⟩
abbrev main_cst_21 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst_22 : Ref sig .tc := ⟨.hbm, 128, rfl⟩
abbrev main_v98 : Ref sig .tc := ⟨.hbm, 129, rfl⟩
abbrev main_v99 : Ref sig .tc := ⟨.hbm, 130, rfl⟩
abbrev main_cst_23 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_24 : Ref sig .tc := ⟨.hbm, 136, rfl⟩
abbrev main_v104 : Ref sig .tc := ⟨.hbm, 137, rfl⟩
abbrev main_v105 : Ref sig .tc := ⟨.hbm, 138, rfl⟩
abbrev main_cst_25 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_cst_26 : Ref sig .tc := ⟨.hbm, 144, rfl⟩
abbrev main_v110 : Ref sig .tc := ⟨.hbm, 145, rfl⟩
abbrev main_v111 : Ref sig .tc := ⟨.hbm, 146, rfl⟩
abbrev main_cst_27 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_cst_28 : Ref sig .tc := ⟨.hbm, 152, rfl⟩
abbrev main_v116 : Ref sig .tc := ⟨.hbm, 153, rfl⟩
abbrev main_v117 : Ref sig .tc := ⟨.hbm, 154, rfl⟩
abbrev main_cst_29 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_cst_30 : Ref sig .tc := ⟨.hbm, 160, rfl⟩
abbrev main_v122 : Ref sig .tc := ⟨.hbm, 161, rfl⟩
abbrev main_v123 : Ref sig .tc := ⟨.hbm, 162, rfl⟩
abbrev main_cst_31 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_cst_32 : Ref sig .tc := ⟨.hbm, 168, rfl⟩
abbrev main_v128 : Ref sig .tc := ⟨.hbm, 169, rfl⟩
abbrev main_v129 : Ref sig .tc := ⟨.hbm, 170, rfl⟩
abbrev main_cst_33 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_cst_34 : Ref sig .tc := ⟨.hbm, 176, rfl⟩
abbrev main_v134 : Ref sig .tc := ⟨.hbm, 177, rfl⟩
abbrev main_v135 : Ref sig .tc := ⟨.hbm, 178, rfl⟩
abbrev main_cst_35 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_cst_36 : Ref sig .tc := ⟨.hbm, 184, rfl⟩
abbrev main_v140 : Ref sig .tc := ⟨.hbm, 185, rfl⟩
abbrev main_v141 : Ref sig .tc := ⟨.hbm, 186, rfl⟩
abbrev main_cst_37 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_cst_38 : Ref sig .tc := ⟨.hbm, 192, rfl⟩
abbrev main_v146 : Ref sig .tc := ⟨.hbm, 193, rfl⟩
abbrev main_v147 : Ref sig .tc := ⟨.hbm, 194, rfl⟩
abbrev main_cst_39 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x4096x4x2048_S16384x8192 : S4x4096x4x2048.ShapeCasts S16384x8192
  bcast_S_S8192x128 : S_.BroadcastsInDim S8192x128 (![] : Fin 0 → Fin S8192x128.rank)
  bitsLt_bf16_f32 : FTy.bits .bf16 < FTy.bits .f32
  bcast_S_S1 : S_.BroadcastsInDim S1 (![] : Fin 0 → Fin S1.rank)
  inb_S512x8192_S512x8192_0_0 : ∀ a, (![0, 0] : Fin 2 → Nat) a + S512x8192.size a ≤ S512x8192.size a
  h_S512x8192 : 0 < S512x8192.numel
  shapeCasts_S512x8192_S512x8192 : S512x8192.ShapeCasts S512x8192
  reduces_S512x8192_S512 : S512x8192.Reduces [1] S512
  shapeCasts_S512_S512x1 : S512.ShapeCasts S512x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  broadcasts_S512x1_S512x128 : S512x1.Broadcasts S512x128
  inb_S512x128_S512x128_0_0 : ∀ a, (![0, 0] : Fin 2 → Nat) a + S512x128.size a ≤ S512x128.size a
  h_S512x128 : 0 < S512x128.numel
  slices_S16384x128_S16384x24_0_0 : S16384x128.Slices ![0, 0] S16384x24
  slices_S16384x24_S16384x4_0_0 : S16384x24.Slices ![0, 0] S16384x4
  bcast_S1_S1x1_1 : S1.BroadcastsInDim S1x1 (![1] : Fin 1 → Fin S1x1.rank)
  bcast_S1x1_S16384x4_0_1 : S1x1.BroadcastsInDim S16384x4 (![0, 1] : Fin 2 → Fin S16384x4.rank)
  slices_S24_S4_0 : S24.Slices ![0] S4
  bcast_S4_S1x4_1 : S4.BroadcastsInDim S1x4 (![1] : Fin 1 → Fin S1x4.rank)
  bcast_S1x4_S16384x4_0_1 : S1x4.BroadcastsInDim S16384x4 (![0, 1] : Fin 2 → Fin S16384x4.rank)
  bcast_S_S16384x4 : S_.BroadcastsInDim S16384x4 (![] : Fin 0 → Fin S16384x4.rank)
  slices_S16384x24_S16384x4_0_4 : S16384x24.Slices ![0, 4] S16384x4
  slices_S24_S4_4 : S24.Slices ![4] S4
  slices_S16384x24_S16384x16_0_8 : S16384x24.Slices ![0, 8] S16384x16
  shapeCasts_S16384x16_S16384x4x4 : S16384x16.ShapeCasts S16384x4x4
  bcast_S1_S1x1x1_2 : S1.BroadcastsInDim S1x1x1 (![2] : Fin 1 → Fin S1x1x1.rank)
  bcast_S1x1x1_S16384x4x4_0_1_2 : S1x1x1.BroadcastsInDim S16384x4x4 (![0, 1, 2] : Fin 3 → Fin S16384x4x4.rank)
  slices_S24_S16_8 : S24.Slices ![8] S16
  shapeCasts_S16_S4x4 : S16.ShapeCasts S4x4
  bcast_S4x4_S1x4x4_1_2 : S4x4.BroadcastsInDim S1x4x4 (![1, 2] : Fin 2 → Fin S1x4x4.rank)
  bcast_S1x4x4_S16384x4x4_0_1_2 : S1x4x4.BroadcastsInDim S16384x4x4 (![0, 1, 2] : Fin 3 → Fin S16384x4x4.rank)
  reducesTo_S16384x4x4_S16384x4_d2 : S16384x4x4.ReducesTo [2] S16384x4
  h_S_ : 0 < S_.numel
  bcast_S16384x4_S16384x4x1_0_1 : S16384x4.BroadcastsInDim S16384x4x1 (![0, 1] : Fin 2 → Fin S16384x4x1.rank)
  bcast_S16384x4x1_S16384x4x4_0_1_2 : S16384x4x1.BroadcastsInDim S16384x4x4 (![0, 1, 2] : Fin 3 → Fin S16384x4x4.rank)
  bcast_S_S16384x4x4 : S_.BroadcastsInDim S16384x4x4 (![] : Fin 0 → Fin S16384x4x4.rank)
  reducesTo_S16384x4x4_S16384x4_d1 : S16384x4x4.ReducesTo [1] S16384x4
  bcast_S16384x4_S16384x1x4_0_2 : S16384x4.BroadcastsInDim S16384x1x4 (![0, 2] : Fin 2 → Fin S16384x1x4.rank)
  bcast_S_S16384x1x4 : S_.BroadcastsInDim S16384x1x4 (![] : Fin 0 → Fin S16384x1x4.rank)
  bcast_S16384x1x4_S16384x4x4_0_1_2 : S16384x1x4.BroadcastsInDim S16384x4x4 (![0, 1, 2] : Fin 3 → Fin S16384x4x4.rank)
  bcast_S_S16384x4x1 : S_.BroadcastsInDim S16384x4x1 (![] : Fin 0 → Fin S16384x4x1.rank)
  shapeCasts_S16384x4_S4x4096x4 : S16384x4.ShapeCasts S4x4096x4
  shapeCasts_S16384x4x4_S4x4096x4x4 : S16384x4x4.ShapeCasts S4x4096x4x4
  scatter_S8192x128_S1_S8192x24_01_n_1_0_wf : ScatterDims.WF S8192x128 S1 S8192x24 [0, 1] [] [1] 0
  dot_S512x8192_S8192x128_S512x128_1_0_0_1_n_n_wf : DotDims.WF S512x8192 S8192x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S16384x8192.size a
  hwx0_0 : ∀ i : grid0.Coords, EltTy.bits .f32 = 32 ∨ (Rect.block (s := S16384x8192) S512x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .bf16 = 32 ∨ (Rect.block (s := S8192x128) S8192x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S16384x128.size a
  hwx0_2 : ∀ i : grid0.Coords, EltTy.bits .f32 = 32 ∨ (Rect.block (s := S16384x128) S512x128.size (cc0_transform_2 i) (hinb0_2 i)).WholeWords (EltTy.packing .f32)

variable [Facts₀]

def scatter_S8192x128_S1_S8192x24_01_n_1_0 : ScatterDims S8192x128 S1 S8192x24 where
  updateWindowDims := [0, 1]
  insertedWindowDims := []
  scatterDimsToOperandDims := [1]
  indexVectorDim := 0
  wf := scatter_S8192x128_S1_S8192x24_01_n_1_0_wf
def dot_S512x8192_S8192x128_S512x128_1_0_0_1_n_n : DotDims S512x8192 S8192x128 S512x128 where
  lhsContracting := [1]
  rhsContracting := [0]
  lhsNonContracting := [0]
  rhsNonContracting := [1]
  lhsBatch := []
  rhsBatch := []
  wf := dot_S512x8192_S8192x128_S512x128_1_0_0_1_n_n_wf

abbrev win0_0 : Pipeline.Window sig grid0 :=
  Pipeline.Window.ofSpec (Memref.whole main_v0) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x4x2048 : Shape := ⟨4, ![4, 4096, 4, 2048]⟩
abbrev S8192x24 : Shape := ⟨2, ![8192, 24]⟩
abbrev S24 : Shape := ⟨1, ![24]⟩
abbrev S1 : Shape := ⟨1, ![1]⟩
abbrev S16384x8192 : Shape := ⟨2, ![16384, 8192]⟩
abbrev S_ : Shape := ⟨0, ![]⟩
abbrev S16384 : Shape := ⟨1, ![16384]⟩
abbrev S16384x1 : Shape := ⟨2, ![16384, 1]⟩
abbrev S16384x24 : Shape := ⟨2, ![16384, 24]⟩
abbrev S16384x4 : Shape := ⟨2, ![16384, 4]⟩
abbrev S1x1 : Shape := ⟨2, ![1, 1]⟩
abbrev S4 : Shape := ⟨1, ![4]⟩
abbrev S1x4 : Shape := ⟨2, ![1, 4]⟩
abbrev S16384x16 : Shape := ⟨2, ![16384, 16]⟩
abbrev S16384x4x4 : Shape := ⟨3, ![16384, 4, 4]⟩
abbrev S1x1x1 : Shape := ⟨3, ![1, 1, 1]⟩
abbrev S16 : Shape := ⟨1, ![16]⟩
abbrev S4x4 : Shape := ⟨2, ![4, 4]⟩
abbrev S1x4x4 : Shape := ⟨3, ![1, 4, 4]⟩
abbrev S16384x4x1 : Shape := ⟨3, ![16384, 4, 1]⟩
abbrev S16384x1x4 : Shape := ⟨3, ![16384, 1, 4]⟩
abbrev S4x4096x4 : Shape := ⟨3, ![4, 4096, 4]⟩
abbrev S4x4096x4x4 : Shape := ⟨4, ![4, 4096, 4, 4]⟩

abbrev nBuf : Space → Nat
  | .hbm => 209
  | .vmem => 0
  | .smem => 0
  | _ => 0

abbrev hbmTy0_0 (i : Nat) : BufTy := match i % 128 with
  | 0 => ⟨S4x4096x4x2048, .f32⟩
  | 1 => ⟨S8192x24, .f32⟩
  | 2 => ⟨S24, .f32⟩
  | 3 => ⟨S1, .f32⟩
  | 4 => ⟨S1, .f32⟩
  | 5 => ⟨S1, .f32⟩
  | 6 => ⟨S16384x8192, .f32⟩
  | 7 => ⟨S16384x8192, .f32⟩
  | 8 => ⟨S_, .f32⟩
  | 9 => ⟨S16384, .f32⟩
  | 10 => ⟨S16384x1, .f32⟩
  | 11 => ⟨S_, .f32⟩
  | 12 => ⟨S16384x1, .f32⟩
  | 13 => ⟨S16384x1, .f32⟩
  | 14 => ⟨S_, .f32⟩
  | 15 => ⟨S16384x1, .f32⟩
  | 16 => ⟨S16384x1, .f32⟩
  | 17 => ⟨S16384x1, .f32⟩
  | 18 => ⟨S16384x24, .f32⟩
  | 19 => ⟨S16384x24, .f32⟩
  | 20 => ⟨S16384x24, .f32⟩
  | 21 => ⟨S16384x4, .f32⟩
  | 22 => ⟨S1x1, .f32⟩
  | 23 => ⟨S16384x4, .f32⟩
  | 24 => ⟨S16384x4, .f32⟩
  | 25 => ⟨S4, .f32⟩
  | 26 => ⟨S1x4, .f32⟩
  | 27 => ⟨S16384x4, .f32⟩
  | 28 => ⟨S16384x4, .f32⟩
  | 29 => ⟨S16384x4, .f32⟩
  | 30 => ⟨S16384x4, .f32⟩
  | 31 => ⟨S_, .f32⟩
  | 32 => ⟨S16384x4, .f32⟩
  | 33 => ⟨S16384x4, .f32⟩
  | 34 => ⟨S_, .f32⟩
  | 35 => ⟨S16384x4, .f32⟩
  | 36 => ⟨S16384x4, .f32⟩
  | 37 => ⟨S_, .f32⟩
  | 38 => ⟨S16384x4, .f32⟩
  | 39 => ⟨S16384x4, .f32⟩
  | 40 => ⟨S16384x4, .f32⟩
  | 41 => ⟨S1x1, .f32⟩
  | 42 => ⟨S16384x4, .f32⟩
  | 43 => ⟨S16384x4, .f32⟩
  | 44 => ⟨S4, .f32⟩
  | 45 => ⟨S1x4, .f32⟩
  | 46 => ⟨S16384x4, .f32⟩
  | 47 => ⟨S16384x4, .f32⟩
  | 48 => ⟨S16384x4, .f32⟩
  | 49 => ⟨S16384x4, .f32⟩
  | 50 => ⟨S_, .f32⟩
  | 51 => ⟨S16384x4, .f32⟩
  | 52 => ⟨S16384x4, .f32⟩
  | 53 => ⟨S_, .f32⟩
  | 54 => ⟨S16384x4, .f32⟩
  | 55 => ⟨S16384x4, .f32⟩
  | 56 => ⟨S_, .f32⟩
  | 57 => ⟨S16384x4, .f32⟩
  | 58 => ⟨S16384x4, .f32⟩
  | 59 => ⟨S16384x16, .f32⟩
  | 60 => ⟨S16384x4x4, .f32⟩
  | 61 => ⟨S1x1x1, .f32⟩
  | 62 => ⟨S16384x4x4, .f32⟩
  | 63 => ⟨S16384x4x4, .f32⟩
  | 64 => ⟨S16, .f32⟩
  | 65 => ⟨S4x4, .f32⟩
  | 66 => ⟨S1x4x4, .f32⟩
  | 67 => ⟨S16384x4x4, .f32⟩
  | 68 => ⟨S16384x4x4, .f32⟩
  | 69 => ⟨S_, .f32⟩
  | 70 => ⟨S16384x4, .f32⟩
  | 71 => ⟨S_, .f32⟩
  | 72 => ⟨S16384x4, .f32⟩
  | 73 => ⟨S16384x4, .f32⟩
  | 74 => ⟨S16384x4x1, .f32⟩
  | 75 => ⟨S16384x4x4, .f32⟩
  | 76 => ⟨S16384x4x4, .f32⟩
  | 77 => ⟨S16384x4x4, .f32⟩
  | 78 => ⟨S_, .f32⟩
  | 79 => ⟨S16384x4, .f32⟩
  | 80 => ⟨S16384x4x1, .f32⟩
  | 81 => ⟨S16384x4x4, .f32⟩
  | 82 => ⟨S16384x4x4, .f32⟩
  | 83 => ⟨S_, .f32⟩
  | 84 => ⟨S16384x4x4, .f32⟩
  | 85 => ⟨S16384x4x4, .f32⟩
  | 86 => ⟨S_, .f32⟩
  | 87 => ⟨S16384x4, .f32⟩
  | 88 => ⟨S16384x1x4, .f32⟩
  | 89 => ⟨S_, .f32⟩
  | 90 => ⟨S16384x1x4, .f32⟩
  | 91 => ⟨S16384x1x4, .f32⟩
  | 92 => ⟨S16384x4x4, .f32⟩
  | 93 => ⟨S16384x4x4, .f32⟩
  | 94 => ⟨S_, .f32⟩
  | 95 => ⟨S16384x4, .f32⟩
  | 96 => ⟨S16384x4x1, .f32⟩
  | 97 => ⟨S_, .f32⟩
  | 98 => ⟨S16384x4x1, .f32⟩
  | 99 => ⟨S16384x4x1, .f32⟩
  | 100 => ⟨S16384x4x4, .f32⟩
  | 101 => ⟨S16384x4x4, .f32⟩
  | 102 => ⟨S_, .f32⟩
  | 103 => ⟨S16384x4, .f32⟩
  | 104 => ⟨S16384x1x4, .f32⟩
  | 105 => ⟨S_, .f32⟩
  | 106 => ⟨S16384x1x4, .f32⟩
  | 107 => ⟨S16384x1x4, .f32⟩
  | 108 => ⟨S16384x4x4, .f32⟩
  | 109 => ⟨S16384x4x4, .f32⟩
  | 110 => ⟨S_, .f32⟩
  | 111 => ⟨S16384x4, .f32⟩
  | 112 => ⟨S16384x4x1, .f32⟩
  | 113 => ⟨S_, .f32⟩
  | 114 => ⟨S16384x4x1, .f32⟩
  | 115 => ⟨S16384x4x1, .f32⟩
  | 116 => ⟨S16384x4x4, .f32⟩
  | 117 => ⟨S16384x4x4, .f32⟩
  | 118 => ⟨S_, .f32⟩
  | 119 => ⟨S16384x4, .f32⟩
  | 120 => ⟨S16384x1x4, .f32⟩
  | 121 => ⟨S_, .f32⟩
  | 122 => ⟨S16384x1x4, .f32⟩
  | 123 => ⟨S16384x1x4, .f32⟩
  | 124 => ⟨S16384x4x4, .f32⟩
  | 125 => ⟨S16384x4x4, .f32⟩
  | 126 => ⟨S_, .f32⟩
  | 127 => ⟨S16384x4, .f32⟩
  | _ => ⟨S4x4096x4x2048, .f32⟩

abbrev hbmTy0_1 (i : Nat) : BufTy := match i % 128 with
  | 0 => ⟨S16384x4x1, .f32⟩
  | 1 => ⟨S_, .f32⟩
  | 2 => ⟨S16384x4x1, .f32⟩
  | 3 => ⟨S16384x4x1, .f32⟩
  | 4 => ⟨S16384x4x4, .f32⟩
  | 5 => ⟨S16384x4x4, .f32⟩
  | 6 => ⟨S_, .f32⟩
  | 7 => ⟨S16384x4, .f32⟩
  | 8 => ⟨S16384x1x4, .f32⟩
  | 9 => ⟨S_, .f32⟩
  | 10 => ⟨S16384x1x4, .f32⟩
  | 11 => ⟨S16384x1x4, .f32⟩
  | 12 => ⟨S16384x4x4, .f32⟩
  | 13 => ⟨S16384x4x4, .f32⟩
  | 14 => ⟨S_, .f32⟩
  | 15 => ⟨S16384x4, .f32⟩
  | 16 => ⟨S16384x4x1, .f32⟩
  | 17 => ⟨S_, .f32⟩
  | 18 => ⟨S16384x4x1, .f32⟩
  | 19 => ⟨S16384x4x1, .f32⟩
  | 20 => ⟨S16384x4x4, .f32⟩
  | 21 => ⟨S16384x4x4, .f32⟩
  | 22 => ⟨S_, .f32⟩
  | 23 => ⟨S16384x4, .f32⟩
  | 24 => ⟨S16384x1x4, .f32⟩
  | 25 => ⟨S_, .f32⟩
  | 26 => ⟨S16384x1x4, .f32⟩
  | 27 => ⟨S16384x1x4, .f32⟩
  | 28 => ⟨S16384x4x4, .f32⟩
  | 29 => ⟨S16384x4x4, .f32⟩
  | 30 => ⟨S_, .f32⟩
  | 31 => ⟨S16384x4, .f32⟩
  | 32 => ⟨S16384x4x1, .f32⟩
  | 33 => ⟨S_, .f32⟩
  | 34 => ⟨S16384x4x1, .f32⟩
  | 35 => ⟨S16384x4x1, .f32⟩
  | 36 => ⟨S16384x4x4, .f32⟩
  | 37 => ⟨S16384x4x4, .f32⟩
  | 38 => ⟨S_, .f32⟩
  | 39 => ⟨S16384x4, .f32⟩
  | 40 => ⟨S16384x1x4, .f32⟩
  | 41 => ⟨S_, .f32⟩
  | 42 => ⟨S16384x1x4, .f32⟩
  | 43 => ⟨S16384x1x4, .f32⟩
  | 44 => ⟨S16384x4x4, .f32⟩
  | 45 => ⟨S16384x4x4, .f32⟩
  | 46 => ⟨S_, .f32⟩
  | 47 => ⟨S16384x4, .f32⟩
  | 48 => ⟨S16384x4x1, .f32⟩
  | 49 => ⟨S_, .f32⟩
  | 50 => ⟨S16384x4x1, .f32⟩
  | 51 => ⟨S16384x4x1, .f32⟩
  | 52 => ⟨S16384x4x4, .f32⟩
  | 53 => ⟨S16384x4x4, .f32⟩
  | 54 => ⟨S_, .f32⟩
  | 55 => ⟨S16384x4, .f32⟩
  | 56 => ⟨S16384x1x4, .f32⟩
  | 57 => ⟨S_, .f32⟩
  | 58 => ⟨S16384x1x4, .f32⟩
  | 59 => ⟨S16384x1x4, .f32⟩
  | 60 => ⟨S16384x4x4, .f32⟩
  | 61 => ⟨S16384x4x4, .f32⟩
  | 62 => ⟨S_, .f32⟩
  | 63 => ⟨S16384x4, .f32⟩
  | 64 => ⟨S16384x4x1, .f32⟩
  | 65 => ⟨S_, .f32⟩
  | 66 => ⟨S16384x4x1, .f32⟩
  | 67 => ⟨S16384x4x1, .f32⟩
  | 68 => ⟨S16384x4x4, .f32⟩
  | 69 => ⟨S16384x4x4, .f32⟩
  | 70 => ⟨S_, .f32⟩
  | 71 => ⟨S16384x4, .f32⟩
  | 72 => ⟨S16384x1x4, .f32⟩
  | 73 => ⟨S_, .f32⟩
  | 74 => ⟨S16384x1x4, .f32⟩
  | 75 => ⟨S16384x1x4, .f32⟩
  | 76 => ⟨S16384x4x4, .f32⟩
  | 77 => ⟨S16384x4x4, .f32⟩
  | 78 => ⟨S4x4096x4, .f32⟩
  | 79 => ⟨S4x4096x4, .f32⟩
  | 80 => ⟨S4x4096x4x4, .f32⟩
  | _ => ⟨S4x4096x4x2048, .f32⟩

abbrev hbmTy (i : Nat) : BufTy := match i / 128 with
  | 0 => hbmTy0_0 i
  | 1 => hbmTy0_1 i
  | _ => ⟨S4x4096x4x2048, .f32⟩

abbrev bufTy : (tb : Table) → Fin (tcTables nBuf tb) → BufTy
  | .hbm, ⟨i, _⟩ => hbmTy i
  | _, _ => ⟨S4x4096x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_8 : Ref sig .tc := ⟨.hbm, 69, rfl⟩
abbrev main_v54 : Ref sig .tc := ⟨.hbm, 70, rfl⟩
abbrev main_cst_9 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_10 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_11 : Ref sig .tc := ⟨.hbm, 83, rfl⟩
abbrev main_v65 : Ref sig .tc := ⟨.hbm, 84, rfl⟩
abbrev main_v66 : Ref sig .tc := ⟨.hbm, 85, rfl⟩
abbrev main_cst_12 : Ref sig .tc := ⟨.hbm, 86, rfl⟩
abbrev main_v67 : Ref sig .tc := ⟨.hbm, 87, rfl⟩
abbrev main_v68 : Ref sig .tc := ⟨.hbm, 88, rfl⟩
abbrev main_cst_13 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_14 : Ref sig .tc := ⟨.hbm, 94, rfl⟩
abbrev main_v73 : Ref sig .tc := ⟨.hbm, 95, rfl⟩
abbrev main_v74 : Ref sig .tc := ⟨.hbm, 96, rfl⟩
abbrev main_cst_15 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_16 : Ref sig .tc := ⟨.hbm, 102, rfl⟩
abbrev main_v79 : Ref sig .tc := ⟨.hbm, 103, rfl⟩
abbrev main_v80 : Ref sig .tc := ⟨.hbm, 104, rfl⟩
abbrev main_cst_17 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_18 : Ref sig .tc := ⟨.hbm, 110, rfl⟩
abbrev main_v85 : Ref sig .tc := ⟨.hbm, 111, rfl⟩
abbrev main_v86 : Ref sig .tc := ⟨.hbm, 112, rfl⟩
abbrev main_cst_19 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_20 : Ref sig .tc := ⟨.hbm, 118, rfl⟩
abbrev main_v91 : Ref sig .tc := ⟨.hbm, 119, rfl⟩
abbrev main_v92 : Ref sig .tc := ⟨.hbm, 120, rfl⟩
abbrev main_cst_21 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_22 : Ref sig .tc := ⟨.hbm, 126, rfl⟩
abbrev main_v97 : Ref sig .tc := ⟨.hbm, 127, rfl⟩
abbrev main_v98 : Ref sig .tc := ⟨.hbm, 128, rfl⟩
abbrev main_cst_23 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_24 : Ref sig .tc := ⟨.hbm, 134, rfl⟩
abbrev main_v103 : Ref sig .tc := ⟨.hbm, 135, rfl⟩
abbrev main_v104 : Ref sig .tc := ⟨.hbm, 136, rfl⟩
abbrev main_cst_25 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_26 : Ref sig .tc := ⟨.hbm, 142, rfl⟩
abbrev main_v109 : Ref sig .tc := ⟨.hbm, 143, rfl⟩
abbrev main_v110 : Ref sig .tc := ⟨.hbm, 144, rfl⟩
abbrev main_cst_27 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_cst_28 : Ref sig .tc := ⟨.hbm, 150, rfl⟩
abbrev main_v115 : Ref sig .tc := ⟨.hbm, 151, rfl⟩
abbrev main_v116 : Ref sig .tc := ⟨.hbm, 152, rfl⟩
abbrev main_cst_29 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_cst_30 : Ref sig .tc := ⟨.hbm, 158, rfl⟩
abbrev main_v121 : Ref sig .tc := ⟨.hbm, 159, rfl⟩
abbrev main_v122 : Ref sig .tc := ⟨.hbm, 160, rfl⟩
abbrev main_cst_31 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_cst_32 : Ref sig .tc := ⟨.hbm, 166, rfl⟩
abbrev main_v127 : Ref sig .tc := ⟨.hbm, 167, rfl⟩
abbrev main_v128 : Ref sig .tc := ⟨.hbm, 168, rfl⟩
abbrev main_cst_33 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_cst_34 : Ref sig .tc := ⟨.hbm, 174, rfl⟩
abbrev main_v133 : Ref sig .tc := ⟨.hbm, 175, rfl⟩
abbrev main_v134 : Ref sig .tc := ⟨.hbm, 176, rfl⟩
abbrev main_cst_35 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_cst_36 : Ref sig .tc := ⟨.hbm, 182, rfl⟩
abbrev main_v139 : Ref sig .tc := ⟨.hbm, 183, rfl⟩
abbrev main_v140 : Ref sig .tc := ⟨.hbm, 184, rfl⟩
abbrev main_cst_37 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_cst_38 : Ref sig .tc := ⟨.hbm, 190, rfl⟩
abbrev main_v145 : Ref sig .tc := ⟨.hbm, 191, rfl⟩
abbrev main_v146 : Ref sig .tc := ⟨.hbm, 192, rfl⟩
abbrev main_cst_39 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_cst_40 : Ref sig .tc := ⟨.hbm, 198, rfl⟩
abbrev main_v151 : Ref sig .tc := ⟨.hbm, 199, rfl⟩
abbrev main_v152 : Ref sig .tc := ⟨.hbm, 200, rfl⟩
abbrev main_cst_41 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩

abbrev nD : Nat := 1
abbrev τ : Topo := Topo.v7x

variable {F : FTy → Type} [FloatOps F]

class Facts₀ : Prop where
  shapeCasts_S4x4096x4x2048_S16384x8192 : S4x4096x4x2048.ShapeCasts S16384x8192
  reducesTo_S16384x8192_S16384_d1 : S16384x8192.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x24_0_1 : S16384x1.BroadcastsInDim S16384x24 (![0, 1] : Fin 2 → Fin S16384x24.rank)
  slices_S16384x24_S16384x4_0_0 : S16384x24.Slices ![0, 0] S16384x4
  bcast_S1_S1x1_1 : S1.BroadcastsInDim S1x1 (![1] : Fin 1 → Fin S1x1.rank)
  bcast_S1x1_S16384x4_0_1 : S1x1.BroadcastsInDim S16384x4 (![0, 1] : Fin 2 → Fin S16384x4.rank)
  slices_S24_S4_0 : S24.Slices ![0] S4
  bcast_S4_S1x4_1 : S4.BroadcastsInDim S1x4 (![1] : Fin 1 → Fin S1x4.rank)
  bcast_S1x4_S16384x4_0_1 : S1x4.BroadcastsInDim S16384x4 (![0, 1] : Fin 2 → Fin S16384x4.rank)
  bcast_S_S16384x4 : S_.BroadcastsInDim S16384x4 (![] : Fin 0 → Fin S16384x4.rank)
  slices_S16384x24_S16384x4_0_4 : S16384x24.Slices ![0, 4] S16384x4
  slices_S24_S4_4 : S24.Slices ![4] S4
  slices_S16384x24_S16384x16_0_8 : S16384x24.Slices ![0, 8] S16384x16
  shapeCasts_S16384x16_S16384x4x4 : S16384x16.ShapeCasts S16384x4x4
  bcast_S1_S1x1x1_2 : S1.BroadcastsInDim S1x1x1 (![2] : Fin 1 → Fin S1x1x1.rank)
  bcast_S1x1x1_S16384x4x4_0_1_2 : S1x1x1.BroadcastsInDim S16384x4x4 (![0, 1, 2] : Fin 3 → Fin S16384x4x4.rank)
  slices_S24_S16_8 : S24.Slices ![8] S16
  shapeCasts_S16_S4x4 : S16.ShapeCasts S4x4
  bcast_S4x4_S1x4x4_1_2 : S4x4.BroadcastsInDim S1x4x4 (![1, 2] : Fin 2 → Fin S1x4x4.rank)
  bcast_S1x4x4_S16384x4x4_0_1_2 : S1x4x4.BroadcastsInDim S16384x4x4 (![0, 1, 2] : Fin 3 → Fin S16384x4x4.rank)
  reducesTo_S16384x4x4_S16384x4_d2 : S16384x4x4.ReducesTo [2] S16384x4
  bcast_S16384x4_S16384x4x1_0_1 : S16384x4.BroadcastsInDim S16384x4x1 (![0, 1] : Fin 2 → Fin S16384x4x1.rank)
  bcast_S16384x4x1_S16384x4x4_0_1_2 : S16384x4x1.BroadcastsInDim S16384x4x4 (![0, 1, 2] : Fin 3 → Fin S16384x4x4.rank)
  bcast_S_S16384x4x4 : S_.BroadcastsInDim S16384x4x4 (![] : Fin 0 → Fin S16384x4x4.rank)
  reducesTo_S16384x4x4_S16384x4_d1 : S16384x4x4.ReducesTo [1] S16384x4
  bcast_S16384x4_S16384x1x4_0_2 : S16384x4.BroadcastsInDim S16384x1x4 (![0, 2] : Fin 2 → Fin S16384x1x4.rank)
  bcast_S_S16384x1x4 : S_.BroadcastsInDim S16384x1x4 (![] : Fin 0 → Fin S16384x1x4.rank)
  bcast_S16384x1x4_S16384x4x4_0_1_2 : S16384x1x4.BroadcastsInDim S16384x4x4 (![0, 1, 2] : Fin 3 → Fin S16384x4x4.rank)
  bcast_S_S16384x4x1 : S_.BroadcastsInDim S16384x4x1 (![] : Fin 0 → Fin S16384x4x1.rank)
  shapeCasts_S16384x4_S4x4096x4 : S16384x4.ShapeCasts S4x4096x4
  shapeCasts_S16384x4x4_S4x4096x4x4 : S16384x4x4.ShapeCasts S4x4096x4x4
  dot_S16384x8192_S8192x24_S16384x24_1_0_0_1_n_n_wf : DotDims.WF S16384x8192 S8192x24 S16384x24 [1] [0] [0] [1] [] []

variable [Facts₀]

def dot_S16384x8192_S8192x24_S16384x24_1_0_0_1_n_n : DotDims S16384x8192 S8192x24 S16384x24 where
  lhsContracting := [1]
  rhsContracting := [0]
  lhsNonContracting := [0]
  rhsNonContracting := [1]
  lhsBatch := []
  rhsBatch := []
  wf := dot_S16384x8192_S8192x24_S16384x24_1_0_0_1_n_n_wf

class Facts : Prop extends Facts₀ where

variable [Facts]
-- ==== Proof.Kernel.Region.lean ====
import proofs.«145193_j71416716198105_1_alg».proof.Proof.Gen.Kernel.Launch
import proofs.«145193_j71416716198105_1_alg».proof.Proof.Gen.Kernel.Skeleton
import proofs.«145193_j71416716198105_1_alg».proof.Proof.Gen.Kernel.Points
import Idealize.ShloMosaic.Lib.Pipeline.FrameBody
import Idealize.ShloMosaic.Lib.Pipeline.FrameSuffix

/-!
# The one region of the program, as data

The program is seven host operations (the rows of `x` flattened to `[16384, 8192]`; `φ` rounded and written into the
first 24 columns of a zero `[8192, 128]` array), one region over a grid of 32 points, and a long stretch of host
operations after it.  At point `t` the region hands the body rows `512 t .. 512 t + 511` of the flattened `x` and the
whole padded `φ`, and writes back rows `512 t .. 512 t + 511` of the `[16384, 128]` result.

This module fixes the data every later statement is about: the buffers' contents when the region is entered, a
window's block at a point, what the body leaves in the output window's buffer as a function of the two input blocks,
and the proof data of the pipeline (each input's buffer still at its block after the body, the output's buffer at that
function of them).
-/

noncomputable section

namespace Cert.Kernel.Region

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffer contents when the region is entered: the launch memory after the seven host operations before it. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's three accesses: each is the whole of its buffer. -/
abbrev rX : Rect S512x8192 := Rect.unit (s := S512x8192) ![0, 0] S512x8192.size inb_S512x8192_S512x8192_0_0
abbrev rW : Rect S8192x128 := Rect.unit (s := S8192x128) ![0, 0] S8192x128.size inb_S8192x128_S8192x128_0_0
abbrev rO : Rect S512x128 := Rect.unit (s := S512x128) ![0, 0] S512x128.size inb_S512x128_S512x128_0_0

/-- What the body leaves in the output window's buffer, from the two input blocks: its one store, of the body's
    arithmetic on what it loaded. -/
def outBlock (x : Vec F S512x8192 .f32) (w : Vec F S8192x128 .bf16) : Vec F S512x128 .f32 :=
  View.canon [⟨rO, k0_pay1 (View.ld x rX) (View.ld w rW)⟩]

/-- The pipeline's proof data on core `c`: the arrays as the region finds them; after the body at point `t` each input
    buffer still holds its block and the output buffer holds `outBlock` of the two blocks; the invariant is the scoped
    rest and the generator register, untouched; nothing is owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_o (c : Dev nD) (t : Fin cfg0.N) :
    (dats m 0 c).after 2 t = outBlock (iblk m c 0 t) (iblk m c 1 t) := by dsimp only [dats]

end Cert.Kernel.Region

end
-- ==== Proof.Kernel.Frame.lean ====
import proofs.«145193_j71416716198105_1_alg».proof.Proof.Kernel.Region
import Idealize.ShloMosaic.Lib.Ring
import Idealize.ShloMosaic.Lib.Tactic

/-!
# The frame of the program: it runs, and leaves its six arguments as launched

The program is seven host operations, one region over a grid of 32 points, and 189 host operations after it. This
module proves, at any float instance: every weakly fair execution of @main terminates without a fault, and the six
argument arrays end unchanged. The pieces, in order: the host operations allocate nothing; @main is the region
between the two stretches of host operations; the later operations touch unscoped buffers only and write none of the
pipeline's three arrays, nor any argument; each input window's buffer holds its block at every point (the padded
`φ` is fetched once, its block index never moves); the body, run symbolically, leaves the output buffer at
`outBlock` of the two blocks; hence the pipeline's body obligation, the run, and the frame.

Every fact about the 189 later operations is a `List.Forall` over the literal list, closed uniformly, and turned into
a membership statement at the end.
-/

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations allocate nothing -/

/-- None of the seven host operations before the region allocates a buffer. -/
theorem prefix_allocates_nothing : (hostOps0 : List (HloOp τ sig (Elt F))).Forall fun op => op.fresh = ∅ := by
  simp only [List.Forall]; repeat' constructor

set_option maxHeartbeats 4000000 in
/-- None of the 189 host operations after the region allocates a buffer: stated over the literal list, closed
    uniformly. -/
theorem suffix_allocates_nothing : (hostOps1 : List (HloOp τ sig (Elt F))).Forall fun op => op.fresh = ∅ := by
  simp only [hostOps1, List.Forall]; repeat' constructor

/-! ## @main around the region -/

set_option maxRecDepth 200000 in
/-- @main is the host operations before the region, the region, and the host operations after it: it reduces to the
    region entered at the contents `V`, continued by the later operations. -/
theorem main_around (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_allocates_nothing) main_chain

/-! ## The operations after the region stay off the pipeline's arrays -/

/-- Each later operation touches unscoped TensorCore buffers only; with nothing prefetched these are exactly the
    pipeline's arrays and the buffers that bypass the region. -/
theorem suffix_within : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  rw [List.mem_singleton] at hops
  subst hops
  exact Pipeline.sub_ucRefs op ((List.forall_iff_forall_mem.mp hostOps1_sub) op hop)

/-- They allocate nothing. -/
theorem suffix_fresh : ∀ ops ∈ ([hostOps1] : List (List (HloOp τ sig (Elt F)))), ∀ op ∈ ops, op.fresh = ∅ := by
  intro ops hops op hop
  rw [List.mem_singleton] at hops
  subst hops
  exact (List.forall_iff_forall_mem.mp suffix_allocates_nothing) op hop

set_option maxHeartbeats 4000000 in
/-- No later operation writes `main_v0` (the flattened `x`): each writes its own result buffer, a different reference. -/
theorem suffix_keeps_x : (hostOps1 : List (HloOp τ sig (Elt F))).Forall fun op => Proc.devRef .tc main_v0 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

set_option maxHeartbeats 4000000 in
/-- No later operation writes `main_v4` (the padded `φ`): each writes its own result buffer, a different reference. -/
theorem suffix_keeps_w : (hostOps1 : List (HloOp τ sig (Elt F))).Forall fun op => Proc.devRef .tc main_v4 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

set_option maxHeartbeats 4000000 in
/-- No later operation writes `main_v5` (the region's result): each writes its own result buffer, a different reference. -/
theorem suffix_keeps_o : (hostOps1 : List (HloOp τ sig (Elt F))).Forall fun op => Proc.devRef .tc main_v5 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- So no later operation writes an array of the pipeline: window by window. -/
theorem suffix_keeps_arrays : ∀ ops ∈ ([hostOps1] : List (List (HloOp τ sig (Elt F)))), ∀ op ∈ ops,
    ∀ w, Proc.devRef .tc (Pipeline.arrRef spec0 w) ∉ op.writes := by
  intro ops hops op hop w
  rw [List.mem_singleton] at hops
  subst hops
  fin_cases w
  · exact (List.forall_iff_forall_mem.mp suffix_keeps_x) op hop
  · exact (List.forall_iff_forall_mem.mp suffix_keeps_w) op hop
  · exact (List.forall_iff_forall_mem.mp suffix_keeps_o) op hop

/-! ## The six argument arrays are written by no host operation -/

/-- The operations before the region, as one list. -/
theorem prefix_flat : List.flatten [(hostOps0 : List (HloOp τ sig (Elt F)))] = hostOps0 := List.append_nil _
/-- The operations after the region, as one list. -/
theorem suffix_flat : List.flatten [(hostOps1 : List (HloOp τ sig (Elt F)))] = hostOps1 := List.append_nil _

/-- No operation before the region writes `main_arg0`. -/
theorem prefix_keeps_arg0 : (hostOps0 : List (HloOp τ sig (Elt F))).Forall fun op => Proc.devRef .tc main_arg0 ∉ op.writes := by
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

set_option maxHeartbeats 4000000 in
/-- No operation after the region writes `main_arg0`. -/
theorem suffix_keeps_arg0 : (hostOps1 : List (HloOp τ sig (Elt F))).Forall fun op => Proc.devRef .tc main_arg0 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- The region finds `main_arg0` as launched. -/
theorem V_main_arg0 (c : Dev nD) : V m c main_arg0 = m ((c : Thread nD τ).loc main_arg0) := by
  show StableHlo.after (List.flatten [hostOps0]) (fun b => m (c, b)) (Proc.devRef .tc main_arg0) = _
  rw [prefix_flat]
  exact StableHlo.after_of_forall_not_mem (b := Proc.devRef .tc main_arg0) _ _
    (List.forall_iff_forall_mem.mp prefix_keeps_arg0)

/-- `main_arg0` ends as launched: no array of the pipeline, and written by no operation after the region either. -/
theorem tail_arg0 (c : Dev nD) :
    Pipeline.afterTail₀ cfgs (dats m) 0 (V0 m) [hostOps1] c main_arg0 = m ((c : Thread nD τ).loc main_arg0) := by
  unfold Pipeline.afterTail₀
  rw [suffix_flat, StableHlo.after_of_forall_not_mem (b := Proc.devRef .tc main_arg0) _ _
      (List.forall_iff_forall_mem.mp suffix_keeps_arg0),
    Pipeline.withArrays_of_ne _ c (V0 m c) _ main_arg0 (by exact (by decide : ∀ w, Pipeline.arrRef spec0 w ≠ main_arg0))]
  exact V_main_arg0 m c

/-- No operation before the region writes `main_arg1`. -/
theorem prefix_keeps_arg1 : (hostOps0 : List (HloOp τ sig (Elt F))).Forall fun op => Proc.devRef .tc main_arg1 ∉ op.writes := by
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

set_option maxHeartbeats 4000000 in
/-- No operation after the region writes `main_arg1`. -/
theorem suffix_keeps_arg1 : (hostOps1 : List (HloOp τ sig (Elt F))).Forall fun op => Proc.devRef .tc main_arg1 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- The region finds `main_arg1` as launched. -/
theorem V_main_arg1 (c : Dev nD) : V m c main_arg1 = m ((c : Thread nD τ).loc main_arg1) := by
  show StableHlo.after (List.flatten [hostOps0]) (fun b => m (c, b)) (Proc.devRef .tc main_arg1) = _
  rw [prefix_flat]
  exact StableHlo.after_of_forall_not_mem (b := Proc.devRef .tc main_arg1) _ _
    (List.forall_iff_forall_mem.mp prefix_keeps_arg1)

/-- `main_arg1` ends as launched: no array of the pipeline, and written by no operation after the region either. -/
theorem tail_arg1 (c : Dev nD) :
    Pipeline.afterTail₀ cfgs (dats m) 0 (V0 m) [hostOps1] c main_arg1 = m ((c : Thread nD τ).loc main_arg1) := by
  unfold Pipeline.afterTail₀
  rw [suffix_flat, StableHlo.after_of_forall_not_mem (b := Proc.devRef .tc main_arg1) _ _
      (List.forall_iff_forall_mem.mp suffix_keeps_arg1),
    Pipeline.withArrays_of_ne _ c (V0 m c) _ main_arg1 (by exact (by decide : ∀ w, Pipeline.arrRef spec0 w ≠ main_arg1))]
  exact V_main_arg1 m c

/-- No operation before the region writes `main_arg2`. -/
theorem prefix_keeps_arg2 : (hostOps0 : List (HloOp τ sig (Elt F))).Forall fun op => Proc.devRef .tc main_arg2 ∉ op.writes := by
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

set_option maxHeartbeats 4000000 in
/-- No operation after the region writes `main_arg2`. -/
theorem suffix_keeps_arg2 : (hostOps1 : List (HloOp τ sig (Elt F))).Forall fun op => Proc.devRef .tc main_arg2 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- The region finds `main_arg2` as launched. -/
theorem V_main_arg2 (c : Dev nD) : V m c main_arg2 = m ((c : Thread nD τ).loc main_arg2) := by
  show StableHlo.after (List.flatten [hostOps0]) (fun b => m (c, b)) (Proc.devRef .tc main_arg2) = _
  rw [prefix_flat]
  exact StableHlo.after_of_forall_not_mem (b := Proc.devRef .tc main_arg2) _ _
    (List.forall_iff_forall_mem.mp prefix_keeps_arg2)

/-- `main_arg2` ends as launched: no array of the pipeline, and written by no operation after the region either. -/
theorem tail_arg2 (c : Dev nD) :
    Pipeline.afterTail₀ cfgs (dats m) 0 (V0 m) [hostOps1] c main_arg2 = m ((c : Thread nD τ).loc main_arg2) := by
  unfold Pipeline.afterTail₀
  rw [suffix_flat, StableHlo.after_of_forall_not_mem (b := Proc.devRef .tc main_arg2) _ _
      (List.forall_iff_forall_mem.mp suffix_keeps_arg2),
    Pipeline.withArrays_of_ne _ c (V0 m c) _ main_arg2 (by exact (by decide : ∀ w, Pipeline.arrRef spec0 w ≠ main_arg2))]
  exact V_main_arg2 m c

/-- No operation before the region writes `main_arg3`. -/
theorem prefix_keeps_arg3 : (hostOps0 : List (HloOp τ sig (Elt F))).Forall fun op => Proc.devRef .tc main_arg3 ∉ op.writes := by
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

set_option maxHeartbeats 4000000 in
/-- No operation after the region writes `main_arg3`. -/
theorem suffix_keeps_arg3 : (hostOps1 : List (HloOp τ sig (Elt F))).Forall fun op => Proc.devRef .tc main_arg3 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- The region finds `main_arg3` as launched. -/
theorem V_main_arg3 (c : Dev nD) : V m c main_arg3 = m ((c : Thread nD τ).loc main_arg3) := by
  show StableHlo.after (List.flatten [hostOps0]) (fun b => m (c, b)) (Proc.devRef .tc main_arg3) = _
  rw [prefix_flat]
  exact StableHlo.after_of_forall_not_mem (b := Proc.devRef .tc main_arg3) _ _
    (List.forall_iff_forall_mem.mp prefix_keeps_arg3)

/-- `main_arg3` ends as launched: no array of the pipeline, and written by no operation after the region either. -/
theorem tail_arg3 (c : Dev nD) :
    Pipeline.afterTail₀ cfgs (dats m) 0 (V0 m) [hostOps1] c main_arg3 = m ((c : Thread nD τ).loc main_arg3) := by
  unfold Pipeline.afterTail₀
  rw [suffix_flat, StableHlo.after_of_forall_not_mem (b := Proc.devRef .tc main_arg3) _ _
      (List.forall_iff_forall_mem.mp suffix_keeps_arg3),
    Pipeline.withArrays_of_ne _ c (V0 m c) _ main_arg3 (by exact (by decide : ∀ w, Pipeline.arrRef spec0 w ≠ main_arg3))]
  exact V_main_arg3 m c

/-- No operation before the region writes `main_arg4`. -/
theorem prefix_keeps_arg4 : (hostOps0 : List (HloOp τ sig (Elt F))).Forall fun op => Proc.devRef .tc main_arg4 ∉ op.writes := by
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

set_option maxHeartbeats 4000000 in
/-- No operation after the region writes `main_arg4`. -/
theorem suffix_keeps_arg4 : (hostOps1 : List (HloOp τ sig (Elt F))).Forall fun op => Proc.devRef .tc main_arg4 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- The region finds `main_arg4` as launched. -/
theorem V_main_arg4 (c : Dev nD) : V m c main_arg4 = m ((c : Thread nD τ).loc main_arg4) := by
  show StableHlo.after (List.flatten [hostOps0]) (fun b => m (c, b)) (Proc.devRef .tc main_arg4) = _
  rw [prefix_flat]
  exact StableHlo.after_of_forall_not_mem (b := Proc.devRef .tc main_arg4) _ _
    (List.forall_iff_forall_mem.mp prefix_keeps_arg4)

/-- `main_arg4` ends as launched: no array of the pipeline, and written by no operation after the region either. -/
theorem tail_arg4 (c : Dev nD) :
    Pipeline.afterTail₀ cfgs (dats m) 0 (V0 m) [hostOps1] c main_arg4 = m ((c : Thread nD τ).loc main_arg4) := by
  unfold Pipeline.afterTail₀
  rw [suffix_flat, StableHlo.after_of_forall_not_mem (b := Proc.devRef .tc main_arg4) _ _
      (List.forall_iff_forall_mem.mp suffix_keeps_arg4),
    Pipeline.withArrays_of_ne _ c (V0 m c) _ main_arg4 (by exact (by decide : ∀ w, Pipeline.arrRef spec0 w ≠ main_arg4))]
  exact V_main_arg4 m c

/-- No operation before the region writes `main_arg5`. -/
theorem prefix_keeps_arg5 : (hostOps0 : List (HloOp τ sig (Elt F))).Forall fun op => Proc.devRef .tc main_arg5 ∉ op.writes := by
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

set_option maxHeartbeats 4000000 in
/-- No operation after the region writes `main_arg5`. -/
theorem suffix_keeps_arg5 : (hostOps1 : List (HloOp τ sig (Elt F))).Forall fun op => Proc.devRef .tc main_arg5 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- The region finds `main_arg5` as launched. -/
theorem V_main_arg5 (c : Dev nD) : V m c main_arg5 = m ((c : Thread nD τ).loc main_arg5) := by
  show StableHlo.after (List.flatten [hostOps0]) (fun b => m (c, b)) (Proc.devRef .tc main_arg5) = _
  rw [prefix_flat]
  exact StableHlo.after_of_forall_not_mem (b := Proc.devRef .tc main_arg5) _ _
    (List.forall_iff_forall_mem.mp prefix_keeps_arg5)

/-- `main_arg5` ends as launched: no array of the pipeline, and written by no operation after the region either. -/
theorem tail_arg5 (c : Dev nD) :
    Pipeline.afterTail₀ cfgs (dats m) 0 (V0 m) [hostOps1] c main_arg5 = m ((c : Thread nD τ).loc main_arg5) := by
  unfold Pipeline.afterTail₀
  rw [suffix_flat, StableHlo.after_of_forall_not_mem (b := Proc.devRef .tc main_arg5) _ _
      (List.forall_iff_forall_mem.mp suffix_keeps_arg5),
    Pipeline.withArrays_of_ne _ c (V0 m c) _ main_arg5 (by exact (by decide : ∀ w, Pipeline.arrRef spec0 w ≠ main_arg5))]
  exact V_main_arg5 m c

/-! ## The input windows' buffers at a point -/

/-- The buffer of the rows of `x` holds its block at every point: the window is fetched at every point. -/
theorem before_x (c : Dev nD) (t : Fin cfg0.N) (d) : (dats m 0 c).before 0 t d = iblk m c 0 t :=
  ((dats m 0 c).before_in_eq_fetched 0 rfl (fun _ => rfl) (fun _ _ _ => rfl)
    (fun t => by rw [after_x]; unfold Dat.blockOf iblk; rw [A_eq]; try rfl) t d).trans
    (by unfold Dat.fetched Dat.blockOf iblk; rw [A_eq]; try rfl)

/-- The buffer of the padded `φ` holds its block at every point, although it is fetched at the first point only: its
    block index is the same at every point, and the body leaves the block in place. -/
theorem before_w (c : Dev nD) (t : Fin cfg0.N) (d) : (dats m 0 c).before 1 t d = iblk m c 1 t :=
  ((dats m 0 c).before_in_eq_fetched 1 rfl (fun _ => rfl) (fun _ _ _ => rfl)
    (fun t => by rw [after_w]; unfold Dat.blockOf iblk; rw [A_eq]; try rfl) t d).trans
    (by unfold Dat.fetched Dat.blockOf iblk; rw [A_eq]; try rfl)

/-! ## The body's triple -/

/-- The body's one store is through the whole output buffer, so it covers it. -/
theorem out_covered (p : Vec F S512x128 .f32) (y : S512x128.Idx) :
    ∃ pc ∈ ([⟨rO, p⟩] : List (View.Piece (Elt F) S512x128 .f32)), y ∈ pc.1.set :=
  View.cover_of_tiled [⟨rO, p⟩] S512x128.size (by rfl) y

set_option maxHeartbeats 1000000 in
/-- The body on three whole buffers — the two inputs reading `x` and `w`, the output at any contents (the body loads
    it once before its store, a value it never uses) — runs to the continuation with the inputs as they were and the
    output reading `outBlock x w`: two whole-buffer loads, the dead load, and the one whole-buffer store of the body's
    arithmetic on what the first two read. -/
theorem body_triple (c : Dev nD) (E : Set ℕ) (i : grid0.Coords)
    (arg1 : Memref sig .tc .vmem S512x8192 .f32) (harg1 : arg1.IsWhole)
    (arg2 : Memref sig .tc .vmem S8192x128 .bf16) (harg2 : arg2.IsWhole)
    (arg3 : Memref sig .tc .vmem S512x128 .f32) (harg3 : arg3.IsWhole)
    (x : Vec F S512x8192 .f32) (w : Vec F S8192x128 .bf16) (K : PUnit → sProp 𝕄) :
    iprop(owns (c : Thread nD τ) arg1 fullShare x ∗ owns (c : Thread nD τ) arg2 fullShare w
        ∗ (∃ d, owns (c : Thread nD τ) arg3 fullShare d)
        ∗ (iprop(owns (c : Thread nD τ) arg1 fullShare x ∗ owns (c : Thread nD τ) arg2 fullShare w
            ∗ owns (c : Thread nD τ) arg3 fullShare (outBlock x w)) -∗ K ⟨⟩))
      ⊢ wp frame (wpE (defs₀ (F := F)) Variants.none c none) E (cc0__rmsnorm_matmul_kernel i arg1 harg1 arg2 harg2 arg3 harg3) K := by
  simp only [cc0__rmsnorm_matmul_kernel_eq_skeleton]; unfold cc0__rmsnorm_matmul_kernel_skel
  unfold owns
  iintro ⟨⟨%fx, %hfx, Hx⟩, ⟨%fw, %hfw, Hw⟩, ⟨%d, %fo, -, Ho⟩, Hk⟩
  subst hfx
  subst hfw
  sl_exec
  sl_step
  iapply Hk
  isplitl [Hx]
  · iexists fx; isplitr; · ipureintro; rfl
    iexact Hx
  isplitl [Hw]
  · iexists fw; isplitr; · ipureintro; rfl
    iexact Hw
  iexists _; isplitr
  swap; · iexact Ho
  ipureintro
  exact View.read_writes_eq_canon _ _ _ (out_covered _)

/-! ## The body obligation -/

/-- What the body is handed at point `t`: the invariant, the core's dues, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the two input buffers hold their blocks, the output buffer holds something, so the body's
    triple applies; the invariant and the core's dues pass through unread. -/
theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w]
  rw [show (dats m 0 c).Φ t.succ = (dats m 0 c).Φ t.castSucc from rfl,
    show (dats m 0 c).owesAt () t.succ = (dats m 0 c).owesAt () t.castSucc from rfl,
    after_x, after_w, after_o]
  iintro ⟨HΦ, Hd, ⟨%d0, Hx⟩, ⟨%d1, Hw⟩, ⟨%d2, Ho⟩⟩
  iapply (body_triple c Set.univ (grid0.coords t) _ _ _ _ _ _ (iblk m c 0 t) (iblk m c 1 t) _)
  isplitl [Hx]; · iexact Hx
  isplitl [Hw]; · iexact Hw
  isplitl [Ho]; · iexists _; iexact Ho
  iintro ⟨Hx, Hw, Ho⟩
  isplitl [HΦ]; · iexact HΦ
  isplitl [Hd]; · iexact Hd
  isplitl [Hx]; · iexact Hx
  isplitl [Hw]; · iexact Hw
  iexact Ho

/-- The pipeline's body obligation, at every point. -/
theorem body_obligation (c : Dev nD) : BodyObligation (dats (F := F) m 0 c) (defs₀ (F := F)) Variants.none () Set.univ := fun t => by
  rw [bigSep_W0, bigSep_W0]
  exact body_at_point m c t

/-! ## The run and the frame -/

set_option maxRecDepth 200000 in
set_option backward.isDefEq.respectTransparency.types false in
/-- From any memory with zero counters, every weakly fair execution of @main terminates without a fault, each array of
    the pipeline ending at what the proof data compute and every other unscoped buffer as the operations after the
    region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := suffix_within) (hfresh := suffix_fresh) (hkeep := suffix_keeps_arrays)
    (hmain := main_around m Variants.none) (hA := A_eq m) (hΦ := fun _ _ => rfl)

/-- THE FRAME: every weakly fair execution of @main terminates without a fault, and the six argument arrays end as
    launched — none is an array of the pipeline, and no host operation writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (tail_arg0 m c),
     ((h c).2 main_arg1 (Pipeline.mem_restRefs_of main_arg1 (by decide) (by decide))).trans (tail_arg1 m c),
     ((h c).2 main_arg2 (Pipeline.mem_restRefs_of main_arg2 (by decide) (by decide))).trans (tail_arg2 m c),
     ((h c).2 main_arg3 (Pipeline.mem_restRefs_of main_arg3 (by decide) (by decide))).trans (tail_arg3 m c),
     ((h c).2 main_arg4 (Pipeline.mem_restRefs_of main_arg4 (by decide) (by decide))).trans (tail_arg4 m c),
     ((h c).2 main_arg5 (Pipeline.mem_restRefs_of main_arg5 (by decide) (by decide))).trans (tail_arg5 m c)⟩)
    (run_main m ρ)

end Cert.Kernel.Region

end
-- ==== Proof.KernelIdeal.Region.lean ====
import proofs.«145193_j71416716198105_1_alg».proof.Proof.Gen.KernelIdeal.Launch
import proofs.«145193_j71416716198105_1_alg».proof.Proof.Gen.KernelIdeal.Skeleton
import proofs.«145193_j71416716198105_1_alg».proof.Proof.Gen.KernelIdeal.Points
import Idealize.ShloMosaic.Lib.Pipeline.FrameBody
import Idealize.ShloMosaic.Lib.Pipeline.FrameSuffix

/-!
# The one region of the program, as data

The program is seven host operations (the rows of `x` flattened to `[16384, 8192]`; `φ` rounded and written into the
first 24 columns of a zero `[8192, 128]` array), one region over a grid of 32 points, and a long stretch of host
operations after it.  At point `t` the region hands the body rows `512 t .. 512 t + 511` of the flattened `x` and the
whole padded `φ`, and writes back rows `512 t .. 512 t + 511` of the `[16384, 128]` result.

This module fixes the data every later statement is about: the buffers' contents when the region is entered, a
window's block at a point, what the body leaves in the output window's buffer as a function of the two input blocks,
and the proof data of the pipeline (each input's buffer still at its block after the body, the output's buffer at that
function of them).
-/

noncomputable section

namespace Cert.KernelIdeal.Region

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffer contents when the region is entered: the launch memory after the seven host operations before it. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's three accesses: each is the whole of its buffer. -/
abbrev rX : Rect S512x8192 := Rect.unit (s := S512x8192) ![0, 0] S512x8192.size inb_S512x8192_S512x8192_0_0
abbrev rW : Rect S8192x128 := Rect.unit (s := S8192x128) ![0, 0] S8192x128.size inb_S8192x128_S8192x128_0_0
abbrev rO : Rect S512x128 := Rect.unit (s := S512x128) ![0, 0] S512x128.size inb_S512x128_S512x128_0_0

/-- What the body leaves in the output window's buffer, from the two input blocks: its one store, of the body's
    arithmetic on what it loaded. -/
def outBlock (x : Vec F S512x8192 .f32) (w : Vec F S8192x128 .bf16) : Vec F S512x128 .f32 :=
  View.canon [⟨rO, k0_pay1 (View.ld x rX) (View.ld w rW)⟩]

/-- The pipeline's proof data on core `c`: the arrays as the region finds them; after the body at point `t` each input
    buffer still holds its block and the output buffer holds `outBlock` of the two blocks; the invariant is the scoped
    rest and the generator register, untouched; nothing is owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_o (c : Dev nD) (t : Fin cfg0.N) :
    (dats m 0 c).after 2 t = outBlock (iblk m c 0 t) (iblk m c 1 t) := by dsimp only [dats]

end Cert.KernelIdeal.Region

end
-- ==== Proof.KernelIdeal.Frame.lean ====
import proofs.«145193_j71416716198105_1_alg».proof.Proof.KernelIdeal.Region
import Idealize.ShloMosaic.Lib.Ring
import Idealize.ShloMosaic.Lib.Tactic

/-!
# The frame of the program: it runs, and leaves its six arguments as launched

The program is seven host operations, one region over a grid of 32 points, and 189 host operations after it. This
module proves, at any float instance: every weakly fair execution of @main terminates without a fault, and the six
argument arrays end unchanged. The pieces, in order: the host operations allocate nothing; @main is the region
between the two stretches of host operations; the later operations touch unscoped buffers only and write none of the
pipeline's three arrays, nor any argument; each input window's buffer holds its block at every point (the padded
`φ` is fetched once, its block index never moves); the body, run symbolically, leaves the output buffer at
`outBlock` of the two blocks; hence the pipeline's body obligation, the run, and the frame.

Every fact about the 189 later operations is a `List.Forall` over the literal list, closed uniformly, and turned into
a membership statement at the end.
-/

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations allocate nothing -/

/-- None of the seven host operations before the region allocates a buffer. -/
theorem prefix_allocates_nothing : (hostOps0 : List (HloOp τ sig (Elt F))).Forall fun op => op.fresh = ∅ := by
  simp only [List.Forall]; repeat' constructor

set_option maxHeartbeats 4000000 in
/-- None of the 189 host operations after the region allocates a buffer: stated over the literal list, closed
    uniformly. -/
theorem suffix_allocates_nothing : (hostOps1 : List (HloOp τ sig (Elt F))).Forall fun op => op.fresh = ∅ := by
  simp only [hostOps1, List.Forall]; repeat' constructor

/-! ## @main around the region -/

set_option maxRecDepth 200000 in
/-- @main is the host operations before the region, the region, and the host operations after it: it reduces to the
    region entered at the contents `V`, continued by the later operations. -/
theorem main_around (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_allocates_nothing) main_chain

/-! ## The operations after the region stay off the pipeline's arrays -/

/-- Each later operation touches unscoped TensorCore buffers only; with nothing prefetched these are exactly the
    pipeline's arrays and the buffers that bypass the region. -/
theorem suffix_within : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  rw [List.mem_singleton] at hops
  subst hops
  exact Pipeline.sub_ucRefs op ((List.forall_iff_forall_mem.mp hostOps1_sub) op hop)

/-- They allocate nothing. -/
theorem suffix_fresh : ∀ ops ∈ ([hostOps1] : List (List (HloOp τ sig (Elt F)))), ∀ op ∈ ops, op.fresh = ∅ := by
  intro ops hops op hop
  rw [List.mem_singleton] at hops
  subst hops
  exact (List.forall_iff_forall_mem.mp suffix_allocates_nothing) op hop

set_option maxHeartbeats 4000000 in
/-- No later operation writes `main_v0` (the flattened `x`): each writes its own result buffer, a different reference. -/
theorem suffix_keeps_x : (hostOps1 : List (HloOp τ sig (Elt F))).Forall fun op => Proc.devRef .tc main_v0 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

set_option maxHeartbeats 4000000 in
/-- No later operation writes `main_v4` (the padded `φ`): each writes its own result buffer, a different reference. -/
theorem suffix_keeps_w : (hostOps1 : List (HloOp τ sig (Elt F))).Forall fun op => Proc.devRef .tc main_v4 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

set_option maxHeartbeats 4000000 in
/-- No later operation writes `main_v5` (the region's result): each writes its own result buffer, a different reference. -/
theorem suffix_keeps_o : (hostOps1 : List (HloOp τ sig (Elt F))).Forall fun op => Proc.devRef .tc main_v5 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- So no later operation writes an array of the pipeline: window by window. -/
theorem suffix_keeps_arrays : ∀ ops ∈ ([hostOps1] : List (List (HloOp τ sig (Elt F)))), ∀ op ∈ ops,
    ∀ w, Proc.devRef .tc (Pipeline.arrRef spec0 w) ∉ op.writes := by
  intro ops hops op hop w
  rw [List.mem_singleton] at hops
  subst hops
  fin_cases w
  · exact (List.forall_iff_forall_mem.mp suffix_keeps_x) op hop
  · exact (List.forall_iff_forall_mem.mp suffix_keeps_w) op hop
  · exact (List.forall_iff_forall_mem.mp suffix_keeps_o) op hop

/-! ## The six argument arrays are written by no host operation -/

/-- The operations before the region, as one list. -/
theorem prefix_flat : List.flatten [(hostOps0 : List (HloOp τ sig (Elt F)))] = hostOps0 := List.append_nil _
/-- The operations after the region, as one list. -/
theorem suffix_flat : List.flatten [(hostOps1 : List (HloOp τ sig (Elt F)))] = hostOps1 := List.append_nil _

/-- No operation before the region writes `main_arg0`. -/
theorem prefix_keeps_arg0 : (hostOps0 : List (HloOp τ sig (Elt F))).Forall fun op => Proc.devRef .tc main_arg0 ∉ op.writes := by
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

set_option maxHeartbeats 4000000 in
/-- No operation after the region writes `main_arg0`. -/
theorem suffix_keeps_arg0 : (hostOps1 : List (HloOp τ sig (Elt F))).Forall fun op => Proc.devRef .tc main_arg0 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- The region finds `main_arg0` as launched. -/
theorem V_main_arg0 (c : Dev nD) : V m c main_arg0 = m ((c : Thread nD τ).loc main_arg0) := by
  show StableHlo.after (List.flatten [hostOps0]) (fun b => m (c, b)) (Proc.devRef .tc main_arg0) = _
  rw [prefix_flat]
  exact StableHlo.after_of_forall_not_mem (b := Proc.devRef .tc main_arg0) _ _
    (List.forall_iff_forall_mem.mp prefix_keeps_arg0)

/-- `main_arg0` ends as launched: no array of the pipeline, and written by no operation after the region either. -/
theorem tail_arg0 (c : Dev nD) :
    Pipeline.afterTail₀ cfgs (dats m) 0 (V0 m) [hostOps1] c main_arg0 = m ((c : Thread nD τ).loc main_arg0) := by
  unfold Pipeline.afterTail₀
  rw [suffix_flat, StableHlo.after_of_forall_not_mem (b := Proc.devRef .tc main_arg0) _ _
      (List.forall_iff_forall_mem.mp suffix_keeps_arg0),
    Pipeline.withArrays_of_ne _ c (V0 m c) _ main_arg0 (by exact (by decide : ∀ w, Pipeline.arrRef spec0 w ≠ main_arg0))]
  exact V_main_arg0 m c

/-- No operation before the region writes `main_arg1`. -/
theorem prefix_keeps_arg1 : (hostOps0 : List (HloOp τ sig (Elt F))).Forall fun op => Proc.devRef .tc main_arg1 ∉ op.writes := by
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

set_option maxHeartbeats 4000000 in
/-- No operation after the region writes `main_arg1`. -/
theorem suffix_keeps_arg1 : (hostOps1 : List (HloOp τ sig (Elt F))).Forall fun op => Proc.devRef .tc main_arg1 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- The region finds `main_arg1` as launched. -/
theorem V_main_arg1 (c : Dev nD) : V m c main_arg1 = m ((c : Thread nD τ).loc main_arg1) := by
  show StableHlo.after (List.flatten [hostOps0]) (fun b => m (c, b)) (Proc.devRef .tc main_arg1) = _
  rw [prefix_flat]
  exact StableHlo.after_of_forall_not_mem (b := Proc.devRef .tc main_arg1) _ _
    (List.forall_iff_forall_mem.mp prefix_keeps_arg1)

/-- `main_arg1` ends as launched: no array of the pipeline, and written by no operation after the region either. -/
theorem tail_arg1 (c : Dev nD) :
    Pipeline.afterTail₀ cfgs (dats m) 0 (V0 m) [hostOps1] c main_arg1 = m ((c : Thread nD τ).loc main_arg1) := by
  unfold Pipeline.afterTail₀
  rw [suffix_flat, StableHlo.after_of_forall_not_mem (b := Proc.devRef .tc main_arg1) _ _
      (List.forall_iff_forall_mem.mp suffix_keeps_arg1),
    Pipeline.withArrays_of_ne _ c (V0 m c) _ main_arg1 (by exact (by decide : ∀ w, Pipeline.arrRef spec0 w ≠ main_arg1))]
  exact V_main_arg1 m c

/-- No operation before the region writes `main_arg2`. -/
theorem prefix_keeps_arg2 : (hostOps0 : List (HloOp τ sig (Elt F))).Forall fun op => Proc.devRef .tc main_arg2 ∉ op.writes := by
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

set_option maxHeartbeats 4000000 in
/-- No operation after the region writes `main_arg2`. -/
theorem suffix_keeps_arg2 : (hostOps1 : List (HloOp τ sig (Elt F))).Forall fun op => Proc.devRef .tc main_arg2 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- The region finds `main_arg2` as launched. -/
theorem V_main_arg2 (c : Dev nD) : V m c main_arg2 = m ((c : Thread nD τ).loc main_arg2) := by
  show StableHlo.after (List.flatten [hostOps0]) (fun b => m (c, b)) (Proc.devRef .tc main_arg2) = _
  rw [prefix_flat]
  exact StableHlo.after_of_forall_not_mem (b := Proc.devRef .tc main_arg2) _ _
    (List.forall_iff_forall_mem.mp prefix_keeps_arg2)

/-- `main_arg2` ends as launched: no array of the pipeline, and written by no operation after the region either. -/
theorem tail_arg2 (c : Dev nD) :
    Pipeline.afterTail₀ cfgs (dats m) 0 (V0 m) [hostOps1] c main_arg2 = m ((c : Thread nD τ).loc main_arg2) := by
  unfold Pipeline.afterTail₀
  rw [suffix_flat, StableHlo.after_of_forall_not_mem (b := Proc.devRef .tc main_arg2) _ _
      (List.forall_iff_forall_mem.mp suffix_keeps_arg2),
    Pipeline.withArrays_of_ne _ c (V0 m c) _ main_arg2 (by exact (by decide : ∀ w, Pipeline.arrRef spec0 w ≠ main_arg2))]
  exact V_main_arg2 m c

/-- No operation before the region writes `main_arg3`. -/
theorem prefix_keeps_arg3 : (hostOps0 : List (HloOp τ sig (Elt F))).Forall fun op => Proc.devRef .tc main_arg3 ∉ op.writes := by
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

set_option maxHeartbeats 4000000 in
/-- No operation after the region writes `main_arg3`. -/
theorem suffix_keeps_arg3 : (hostOps1 : List (HloOp τ sig (Elt F))).Forall fun op => Proc.devRef .tc main_arg3 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- The region finds `main_arg3` as launched. -/
theorem V_main_arg3 (c : Dev nD) : V m c main_arg3 = m ((c : Thread nD τ).loc main_arg3) := by
  show StableHlo.after (List.flatten [hostOps0]) (fun b => m (c, b)) (Proc.devRef .tc main_arg3) = _
  rw [prefix_flat]
  exact StableHlo.after_of_forall_not_mem (b := Proc.devRef .tc main_arg3) _ _
    (List.forall_iff_forall_mem.mp prefix_keeps_arg3)

/-- `main_arg3` ends as launched: no array of the pipeline, and written by no operation after the region either. -/
theorem tail_arg3 (c : Dev nD) :
    Pipeline.afterTail₀ cfgs (dats m) 0 (V0 m) [hostOps1] c main_arg3 = m ((c : Thread nD τ).loc main_arg3) := by
  unfold Pipeline.afterTail₀
  rw [suffix_flat, StableHlo.after_of_forall_not_mem (b := Proc.devRef .tc main_arg3) _ _
      (List.forall_iff_forall_mem.mp suffix_keeps_arg3),
    Pipeline.withArrays_of_ne _ c (V0 m c) _ main_arg3 (by exact (by decide : ∀ w, Pipeline.arrRef spec0 w ≠ main_arg3))]
  exact V_main_arg3 m c

/-- No operation before the region writes `main_arg4`. -/
theorem prefix_keeps_arg4 : (hostOps0 : List (HloOp τ sig (Elt F))).Forall fun op => Proc.devRef .tc main_arg4 ∉ op.writes := by
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

set_option maxHeartbeats 4000000 in
/-- No operation after the region writes `main_arg4`. -/
theorem suffix_keeps_arg4 : (hostOps1 : List (HloOp τ sig (Elt F))).Forall fun op => Proc.devRef .tc main_arg4 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- The region finds `main_arg4` as launched. -/
theorem V_main_arg4 (c : Dev nD) : V m c main_arg4 = m ((c : Thread nD τ).loc main_arg4) := by
  show StableHlo.after (List.flatten [hostOps0]) (fun b => m (c, b)) (Proc.devRef .tc main_arg4) = _
  rw [prefix_flat]
  exact StableHlo.after_of_forall_not_mem (b := Proc.devRef .tc main_arg4) _ _
    (List.forall_iff_forall_mem.mp prefix_keeps_arg4)

/-- `main_arg4` ends as launched: no array of the pipeline, and written by no operation after the region either. -/
theorem tail_arg4 (c : Dev nD) :
    Pipeline.afterTail₀ cfgs (dats m) 0 (V0 m) [hostOps1] c main_arg4 = m ((c : Thread nD τ).loc main_arg4) := by
  unfold Pipeline.afterTail₀
  rw [suffix_flat, StableHlo.after_of_forall_not_mem (b := Proc.devRef .tc main_arg4) _ _
      (List.forall_iff_forall_mem.mp suffix_keeps_arg4),
    Pipeline.withArrays_of_ne _ c (V0 m c) _ main_arg4 (by exact (by decide : ∀ w, Pipeline.arrRef spec0 w ≠ main_arg4))]
  exact V_main_arg4 m c

/-- No operation before the region writes `main_arg5`. -/
theorem prefix_keeps_arg5 : (hostOps0 : List (HloOp τ sig (Elt F))).Forall fun op => Proc.devRef .tc main_arg5 ∉ op.writes := by
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

set_option maxHeartbeats 4000000 in
/-- No operation after the region writes `main_arg5`. -/
theorem suffix_keeps_arg5 : (hostOps1 : List (HloOp τ sig (Elt F))).Forall fun op => Proc.devRef .tc main_arg5 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- The region finds `main_arg5` as launched. -/
theorem V_main_arg5 (c : Dev nD) : V m c main_arg5 = m ((c : Thread nD τ).loc main_arg5) := by
  show StableHlo.after (List.flatten [hostOps0]) (fun b => m (c, b)) (Proc.devRef .tc main_arg5) = _
  rw [prefix_flat]
  exact StableHlo.after_of_forall_not_mem (b := Proc.devRef .tc main_arg5) _ _
    (List.forall_iff_forall_mem.mp prefix_keeps_arg5)

/-- `main_arg5` ends as launched: no array of the pipeline, and written by no operation after the region either. -/
theorem tail_arg5 (c : Dev nD) :
    Pipeline.afterTail₀ cfgs (dats m) 0 (V0 m) [hostOps1] c main_arg5 = m ((c : Thread nD τ).loc main_arg5) := by
  unfold Pipeline.afterTail₀
  rw [suffix_flat, StableHlo.after_of_forall_not_mem (b := Proc.devRef .tc main_arg5) _ _
      (List.forall_iff_forall_mem.mp suffix_keeps_arg5),
    Pipeline.withArrays_of_ne _ c (V0 m c) _ main_arg5 (by exact (by decide : ∀ w, Pipeline.arrRef spec0 w ≠ main_arg5))]
  exact V_main_arg5 m c

/-! ## The input windows' buffers at a point -/

/-- The buffer of the rows of `x` holds its block at every point: the window is fetched at every point. -/
theorem before_x (c : Dev nD) (t : Fin cfg0.N) (d) : (dats m 0 c).before 0 t d = iblk m c 0 t :=
  ((dats m 0 c).before_in_eq_fetched 0 rfl (fun _ => rfl) (fun _ _ _ => rfl)
    (fun t => by rw [after_x]; unfold Dat.blockOf iblk; rw [A_eq]; try rfl) t d).trans
    (by unfold Dat.fetched Dat.blockOf iblk; rw [A_eq]; try rfl)

/-- The buffer of the padded `φ` holds its block at every point, although it is fetched at the first point only: its
    block index is the same at every point, and the body leaves the block in place. -/
theorem before_w (c : Dev nD) (t : Fin cfg0.N) (d) : (dats m 0 c).before 1 t d = iblk m c 1 t :=
  ((dats m 0 c).before_in_eq_fetched 1 rfl (fun _ => rfl) (fun _ _ _ => rfl)
    (fun t => by rw [after_w]; unfold Dat.blockOf iblk; rw [A_eq]; try rfl) t d).trans
    (by unfold Dat.fetched Dat.blockOf iblk; rw [A_eq]; try rfl)

/-! ## The body's triple -/

/-- The body's one store is through the whole output buffer, so it covers it. -/
theorem out_covered (p : Vec F S512x128 .f32) (y : S512x128.Idx) :
    ∃ pc ∈ ([⟨rO, p⟩] : List (View.Piece (Elt F) S512x128 .f32)), y ∈ pc.1.set :=
  View.cover_of_tiled [⟨rO, p⟩] S512x128.size (by rfl) y

set_option maxHeartbeats 1000000 in
/-- The body on three whole buffers — the two inputs reading `x` and `w`, the output at any contents (the body loads
    it once before its store, a value it never uses) — runs to the continuation with the inputs as they were and the
    output reading `outBlock x w`: two whole-buffer loads, the dead load, and the one whole-buffer store of the body's
    arithmetic on what the first two read. -/
theorem body_triple (c : Dev nD) (E : Set ℕ) (i : grid0.Coords)
    (arg1 : Memref sig .tc .vmem S512x8192 .f32) (harg1 : arg1.IsWhole)
    (arg2 : Memref sig .tc .vmem S8192x128 .bf16) (harg2 : arg2.IsWhole)
    (arg3 : Memref sig .tc .vmem S512x128 .f32) (harg3 : arg3.IsWhole)
    (x : Vec F S512x8192 .f32) (w : Vec F S8192x128 .bf16) (K : PUnit → sProp 𝕄) :
    iprop(owns (c : Thread nD τ) arg1 fullShare x ∗ owns (c : Thread nD τ) arg2 fullShare w
        ∗ (∃ d, owns (c : Thread nD τ) arg3 fullShare d)
        ∗ (iprop(owns (c : Thread nD τ) arg1 fullShare x ∗ owns (c : Thread nD τ) arg2 fullShare w
            ∗ owns (c : Thread nD τ) arg3 fullShare (outBlock x w)) -∗ K ⟨⟩))
      ⊢ wp frame (wpE (defs₀ (F := F)) Variants.none c none) E (cc0__rmsnorm_matmul_kernel i arg1 harg1 arg2 harg2 arg3 harg3) K := by
  simp only [cc0__rmsnorm_matmul_kernel_eq_skeleton]; unfold cc0__rmsnorm_matmul_kernel_skel
  unfold owns
  iintro ⟨⟨%fx, %hfx, Hx⟩, ⟨%fw, %hfw, Hw⟩, ⟨%d, %fo, -, Ho⟩, Hk⟩
  subst hfx
  subst hfw
  sl_exec
  sl_step
  iapply Hk
  isplitl [Hx]
  · iexists fx; isplitr; · ipureintro; rfl
    iexact Hx
  isplitl [Hw]
  · iexists fw; isplitr; · ipureintro; rfl
    iexact Hw
  iexists _; isplitr
  swap; · iexact Ho
  ipureintro
  exact View.read_writes_eq_canon _ _ _ (out_covered _)

/-! ## The body obligation -/

/-- What the body is handed at point `t`: the invariant, the core's dues, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the two input buffers hold their blocks, the output buffer holds something, so the body's
    triple applies; the invariant and the core's dues pass through unread. -/
theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w]
  rw [show (dats m 0 c).Φ t.succ = (dats m 0 c).Φ t.castSucc from rfl,
    show (dats m 0 c).owesAt () t.succ = (dats m 0 c).owesAt () t.castSucc from rfl,
    after_x, after_w, after_o]
  iintro ⟨HΦ, Hd, ⟨%d0, Hx⟩, ⟨%d1, Hw⟩, ⟨%d2, Ho⟩⟩
  iapply (body_triple c Set.univ (grid0.coords t) _ _ _ _ _ _ (iblk m c 0 t) (iblk m c 1 t) _)
  isplitl [Hx]; · iexact Hx
  isplitl [Hw]; · iexact Hw
  isplitl [Ho]; · iexists _; iexact Ho
  iintro ⟨Hx, Hw, Ho⟩
  isplitl [HΦ]; · iexact HΦ
  isplitl [Hd]; · iexact Hd
  isplitl [Hx]; · iexact Hx
  isplitl [Hw]; · iexact Hw
  iexact Ho

/-- The pipeline's body obligation, at every point. -/
theorem body_obligation (c : Dev nD) : BodyObligation (dats (F := F) m 0 c) (defs₀ (F := F)) Variants.none () Set.univ := fun t => by
  rw [bigSep_W0, bigSep_W0]
  exact body_at_point m c t

/-! ## The run and the frame -/

set_option maxRecDepth 200000 in
set_option backward.isDefEq.respectTransparency.types false in
/-- From any memory with zero counters, every weakly fair execution of @main terminates without a fault, each array of
    the pipeline ending at what the proof data compute and every other unscoped buffer as the operations after the
    region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := suffix_within) (hfresh := suffix_fresh) (hkeep := suffix_keeps_arrays)
    (hmain := main_around m Variants.none) (hA := A_eq m) (hΦ := fun _ _ => rfl)

/-- THE FRAME: every weakly fair execution of @main terminates without a fault, and the six argument arrays end as
    launched — none is an array of the pipeline, and no host operation writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (tail_arg0 m c),
     ((h c).2 main_arg1 (Pipeline.mem_restRefs_of main_arg1 (by decide) (by decide))).trans (tail_arg1 m c),
     ((h c).2 main_arg2 (Pipeline.mem_restRefs_of main_arg2 (by decide) (by decide))).trans (tail_arg2 m c),
     ((h c).2 main_arg3 (Pipeline.mem_restRefs_of main_arg3 (by decide) (by decide))).trans (tail_arg3 m c),
     ((h c).2 main_arg4 (Pipeline.mem_restRefs_of main_arg4 (by decide) (by decide))).trans (tail_arg4 m c),
     ((h c).2 main_arg5 (Pipeline.mem_restRefs_of main_arg5 (by decide) (by decide))).trans (tail_arg5 m c)⟩)
    (run_main m ρ)

end Cert.KernelIdeal.Region

end
-- ==== Proof.Gates.lean ====
import proofs.«145193_j71416716198105_1_alg».proof.Proof.Gen.KernelIdeal
import Idealize.ShloMosaic.PureOps.Ideal

/-!
# The gates computed from the mixed rows

Every row `n` of the mixed array `mix : [16384, 24]` is cut into three pieces: columns `0..3` feed the first gate,
columns `4..7` the second, and columns `8..23`, read as a `4 × 4` matrix, the mixing matrix.

* first gate:  `1 / (1 + exp (-(mix[n, j] * a + b[j]))) + 0.01`
* second gate: `1 / (1 + exp (-(mix[n, 4 + j] * a + b[4 + j]))) * 2`
* mixing matrix: the logits `L[n, i, j] = mix[n, 8 + 4 i + j] * a + b[8 + 4 i + j]`; a softmax along `j` written as
  `exp (L - max_j L) / Σ_j exp (L - max_j L)`, plus `ε`; then one normalisation of the columns,
  `X[n, i, j] / (Σ_i X[n, i, j] + ε)`, followed by seven rounds of a row normalisation `X / (Σ_j X + ε)` and a column
  normalisation.

Both programs compute these gates with the same operations, so each stage is stated here once, as a function of the
array it starts from, at any float instance.  Every later statement about either program is an equation between
applications of these functions: a stage is never opened again, which matters because each normalisation uses its
argument twice and a fully written out term would double fifteen times.
-/

noncomputable section

namespace Cert.KernelIdeal.Gates

open Cert.KernelIdeal Cert.KernelIdeal.Gen Idealize.ShloMosaic

variable {F : FTy → Type} [FloatOps F]

/-- The first gate: the logistic function of `mix[:, 0:4] * a + b[0:4]`, plus `0.01`, as a `[4, 4096, 4]` array. -/
def gatePre (mix : FVec F S16384x24 .f32) (a : FVec F S1 .f32) (b : FVec F S24 .f32) : FVec F S4x4096x4 .f32 :=
  shapeCast _ (addf (Host.divf (broadcastInDim S16384x4 ![] bcast_S_S16384x4 (constant S_ .f32 0x3F800000#32)) (addf (broadcastInDim S16384x4 ![] bcast_S_S16384x4 (constant S_ .f32 0x3F800000#32)) (Host.exp (Host.negf (addf (mulf (extractStridedSlice S16384x4 ![0, 0] mix slices_S16384x24_S16384x4_0_0) (broadcastInDim S16384x4 ![0, 1] bcast_S1x1_S16384x4_0_1 (broadcastInDim S1x1 ![1] bcast_S1_S1x1_1 a))) (broadcastInDim S16384x4 ![0, 1] bcast_S1x4_S16384x4_0_1 (broadcastInDim S1x4 ![1] bcast_S4_S1x4_1 (extractStridedSlice S4 ![0] b slices_S24_S4_0)))))))) (broadcastInDim S16384x4 ![] bcast_S_S16384x4 (constant S_ .f32 0x3C23D70A#32))) shapeCasts_S16384x4_S4x4096x4

/-- The second gate: the logistic function of `mix[:, 4:8] * a + b[4:8]`, times `2`, as a `[4, 4096, 4]` array. -/
def gatePost (mix : FVec F S16384x24 .f32) (a : FVec F S1 .f32) (b : FVec F S24 .f32) : FVec F S4x4096x4 .f32 :=
  shapeCast _ (mulf (Host.divf (broadcastInDim S16384x4 ![] bcast_S_S16384x4 (constant S_ .f32 0x3F800000#32)) (addf (broadcastInDim S16384x4 ![] bcast_S_S16384x4 (constant S_ .f32 0x3F800000#32)) (Host.exp (Host.negf (addf (mulf (extractStridedSlice S16384x4 ![0, 4] mix slices_S16384x24_S16384x4_0_4) (broadcastInDim S16384x4 ![0, 1] bcast_S1x1_S16384x4_0_1 (broadcastInDim S1x1 ![1] bcast_S1_S1x1_1 a))) (broadcastInDim S16384x4 ![0, 1] bcast_S1x4_S16384x4_0_1 (broadcastInDim S1x4 ![1] bcast_S4_S1x4_1 (extractStridedSlice S4 ![4] b slices_S24_S4_4)))))))) (broadcastInDim S16384x4 ![] bcast_S_S16384x4 (constant S_ .f32 0x40000000#32))) shapeCasts_S16384x4_S4x4096x4

/-- The logits of the mixing matrix: `mix[:, 8:24]` read as `[16384, 4, 4]`, times `a`, plus `b[8:24]` read as `[4, 4]`. -/
def logits (mix : FVec F S16384x24 .f32) (a : FVec F S1 .f32) (b : FVec F S24 .f32) : FVec F S16384x4x4 .f32 :=
  addf (mulf (shapeCast _ (extractStridedSlice S16384x16 ![0, 8] mix slices_S16384x24_S16384x16_0_8) shapeCasts_S16384x16_S16384x4x4) (broadcastInDim S16384x4x4 ![0, 1, 2] bcast_S1x1x1_S16384x4x4_0_1_2 (broadcastInDim S1x1x1 ![2] bcast_S1_S1x1x1_2 a))) (broadcastInDim S16384x4x4 ![0, 1, 2] bcast_S1x4x4_S16384x4x4_0_1_2 (broadcastInDim S1x4x4 ![1, 2] bcast_S4x4_S1x4x4_1_2 (shapeCast _ (extractStridedSlice S16 ![8] b slices_S24_S16_8) shapeCasts_S16_S4x4)))

/-- `exp (x - max_j x)`, the maximum along the last axis (and at least `-∞`). -/
def expShift (x : FVec F S16384x4x4 .f32) : FVec F S16384x4x4 .f32 :=
  Host.exp (subf x (broadcastInDim S16384x4x4 ![0, 1, 2] bcast_S16384x4x1_S16384x4x4_0_1_2 (broadcastInDim S16384x4x1 ![0, 1] bcast_S16384x4_S16384x4x1_0_1 (maximumf (broadcastInDim S16384x4 ![] bcast_S_S16384x4 (constant S_ .f32 0xFF800000#32)) (Host.reduce FloatOps.maximumf x (constant S_ .f32 0xFF800000#32) reducesTo_S16384x4x4_S16384x4_d2 h_S_)))))

/-- `e / Σ_j e + ε`: with `e = expShift L` the softmax of `L` along the last axis, plus `ε`. -/
def softEps (e : FVec F S16384x4x4 .f32) : FVec F S16384x4x4 .f32 :=
  addf (Host.divf e (broadcastInDim S16384x4x4 ![0, 1, 2] bcast_S16384x4x1_S16384x4x4_0_1_2 (broadcastInDim S16384x4x1 ![0, 1] bcast_S16384x4_S16384x4x1_0_1 (Host.reduceAdd e (constant S_ .f32 0x00000000#32) reducesTo_S16384x4x4_S16384x4_d2 h_S_)))) (broadcastInDim S16384x4x4 ![] bcast_S_S16384x4x4 (constant S_ .f32 0x358637BD#32))

/-- One column normalisation: `x[n, i, j] / (Σ_i x[n, i, j] + ε)`. -/
def colStep (x : FVec F S16384x4x4 .f32) : FVec F S16384x4x4 .f32 :=
  Host.divf x (broadcastInDim S16384x4x4 ![0, 1, 2] bcast_S16384x1x4_S16384x4x4_0_1_2 (addf (broadcastInDim S16384x1x4 ![0, 2] bcast_S16384x4_S16384x1x4_0_2 (Host.reduceAdd x (constant S_ .f32 0x00000000#32) reducesTo_S16384x4x4_S16384x4_d1 h_S_)) (broadcastInDim S16384x1x4 ![] bcast_S_S16384x1x4 (constant S_ .f32 0x358637BD#32))))

/-- One row normalisation: `x[n, i, j] / (Σ_j x[n, i, j] + ε)`. -/
def rowStep (x : FVec F S16384x4x4 .f32) : FVec F S16384x4x4 .f32 :=
  Host.divf x (broadcastInDim S16384x4x4 ![0, 1, 2] bcast_S16384x4x1_S16384x4x4_0_1_2 (addf (broadcastInDim S16384x4x1 ![0, 1] bcast_S16384x4_S16384x4x1_0_1 (Host.reduceAdd x (constant S_ .f32 0x00000000#32) reducesTo_S16384x4x4_S16384x4_d2 h_S_)) (broadcastInDim S16384x4x1 ![] bcast_S_S16384x4x1 (constant S_ .f32 0x358637BD#32))))

/-- One round: a row normalisation, then a column normalisation. -/
def round (x : FVec F S16384x4x4 .f32) : FVec F S16384x4x4 .f32 := colStep (rowStep x)

/-- The mixing matrix from its logits: softmax plus `ε`, a column normalisation, seven rounds. -/
def mixing (l : FVec F S16384x4x4 .f32) : FVec F S16384x4x4 .f32 :=
  round (round (round (round (round (round (round (colStep (softEps (expShift l)))))))))

/-- The mixing matrix as a `[4, 4096, 4, 4]` array. -/
def mixingOut (l : FVec F S16384x4x4 .f32) : FVec F S4x4096x4x4 .f32 :=
  shapeCast _ (mixing l) shapeCasts_S16384x4x4_S4x4096x4x4

/-- Columns `0..23` of the padded `[16384, 128]` product: the mixed rows. -/
def mixOf (p : FVec F S16384x128 .f32) : FVec F S16384x24 .f32 :=
  extractStridedSlice S16384x24 ![0, 0] p slices_S16384x128_S16384x24_0_0

end Cert.KernelIdeal.Gates

end
-- ==== Proof.KernelIdeal.TailRun.lean ====
import proofs.«145193_j71416716198105_1_alg».proof.Proof.Gates
import proofs.«145193_j71416716198105_1_alg».proof.Proof.Gen.KernelIdeal.Launch
import Idealize.ShloMosaic.Lib.StableHlo.Run
import Idealize.ShloMosaic.Lib.Pipeline.Frame

/-!
# The host operations after the product, read back as functions

After the padded product `p : [16384, 128]` the program runs 189 host operations: it cuts the mixed rows
`mix = p[:, 0:24]` out of the product and computes from them the two gates and the mixing matrix
(`Cert.KernelIdeal.Gates`). This module reads that list back: run from ANY contents `W` of the device's buffers, the
three result buffers end holding the stage functions of `Gates` applied to `mix` and to the arguments' contents in `W`.

Every normalisation step uses its argument twice, so the composed term of the mixing matrix would double at each of
its fifteen steps. The list is therefore cut at the stage boundaries into twelve stretches. The contents after each
stretch are a definition (`val1 … val12`), and what a stretch leaves in the one buffer the next stretch reads is stated
as a stage function APPLIED to what the stretch before left — never as a written out term. Inside a stretch the fold is
computed operation by operation; the earlier stretches' results are rewritten to stage applications first, and only then
is one definition unfolded on each side.

A buffer a stretch does not write keeps its contents through it: this carries the product's cut and the arguments to
the stretches that read them, and the two gates, computed first, to the final reshapes.
-/

set_option Elab.async false

noncomputable section

namespace Cert.KernelIdeal.TailRun

open Cert.KernelIdeal Cert.KernelIdeal.Gen Cert.KernelIdeal.Gates Idealize.ShloMosaic Idealize.ShloMosaic.TcCoe Idealize.SL.Sem Idealize.ShloMosaic.StableHlo

variable {F : FTy → Type} [FloatOps F]

/-! ## The stretches

The operations of `hostOps1`, in order, cut at the stage boundaries. -/

set_option maxHeartbeats 4000000 in
/-- The cut of the mixed rows out of the product (columns `0..23`) and the first gate: 20 operations. -/
abbrev ops_gate1 : List (HloOp τ sig (Elt F)) :=
  [ StableHlo.unary main_v5 main_v6 ((extractStridedSlice S16384x24 ![0, 0] · slices_S16384x128_S16384x24_0_0) : (⟨S16384x128, .f32⟩ : BufTy).Contents (Elt F) → (⟨S16384x24, .f32⟩ : BufTy).Contents (Elt F)),
    StableHlo.unary main_v6 main_v7 ((extractStridedSlice S16384x4 ![0, 0] · slices_S16384x24_S16384x4_0_0) : (⟨S16384x24, .f32⟩ : BufTy).Contents (Elt F) → (⟨S16384x4, .f32⟩ : BufTy).Contents (Elt F)),
    StableHlo.unary main_arg3 main_v8 (broadcastInDim S1x1 ![1] bcast_S1_S1x1_1 : (⟨S1, .f32⟩ : BufTy).Contents (Elt F) → (⟨S1x1, .f32⟩ : BufTy).Contents (Elt F)),
    StableHlo.unary main_v8 main_v9 (broadcastInDim S16384x4 ![0, 1] bcast_S1x1_S16384x4_0_1 : (⟨S1x1, .f32⟩ : BufTy).Contents (Elt F) → (⟨S16384x4, .f32⟩ : BufTy).Contents (Elt F)),
    StableHlo.binary main_v7 main_v9 main_v10 (mulf : (⟨S16384x4, .f32⟩ : BufTy).Contents (Elt F) → (⟨S16384x4, .f32⟩ : BufTy).Contents (Elt F) → (⟨S16384x4, .f32⟩ : BufTy).Contents (Elt F)),
    StableHlo.unary main_arg2 main_v11 ((extractStridedSlice S4 ![0] · slices_S24_S4_0) : (⟨S24, .f32⟩ : BufTy).Contents (Elt F) → (⟨S4, .f32⟩ : BufTy).Contents (Elt F)),
    StableHlo.unary main_v11 main_v12 (broadcastInDim S1x4 ![1] bcast_S4_S1x4_1 : (⟨S4, .f32⟩ : BufTy).Contents (Elt F) → (⟨S1x4, .f32⟩ : BufTy).Contents (Elt F)),
    StableHlo.unary main_v12 main_v13 (broadcastInDim S16384x4 ![0, 1] bcast_S1x4_S16384x4_0_1 : (⟨S1x4, .f32⟩ : BufTy).Contents (Elt F) → (⟨S16384x4, .f32⟩ : BufTy).Contents (Elt F)),
    StableHlo.binary main_v10 main_v13 main_v14 (addf : (⟨S16384x4, .f32⟩ : BufTy).Contents (Elt F) → (⟨S16384x4, .f32⟩ : BufTy).Contents (Elt F) → (⟨S16384x4, .f32⟩ : BufTy).Contents (Elt F)),
    StableHlo.unary main_v14 main_v15 (Host.negf : (⟨S16384x4, .f32⟩ : BufTy).Contents (Elt F) → (⟨S16384x4, .f32⟩ : BufTy).Contents (Elt F)),
    StableHlo.unary main_v15 main_v16 (Host.exp : (⟨S16384x4, .f32⟩ : BufTy).Contents (Elt F) → (⟨S16384x4, .f32⟩ : BufTy).Contents (Elt F)),
    StableHlo.nullary main_cst_0 (constant S_ .f32 0x3F800000#32),
    StableHlo.unary main_cst_0 main_v17 (broadcastInDim S16384x4 ![] bcast_S_S16384x4 : (⟨S_, .f32⟩ : BufTy).Contents (Elt F) → (⟨S16384x4, .f32⟩ : BufTy).Contents (Elt F)),
    StableHlo.binary main_v17 main_v16 main_v18 (addf : (⟨S16384x4, .f32⟩ : BufTy).Contents (Elt F) → (⟨S16384x4, .f32⟩ : BufTy).Contents (Elt F) → (⟨S16384x4, .f32⟩ : BufTy).Contents (Elt F)),
    StableHlo.nullary main_cst_1 (constant S_ .f32 0x3F800000#32),
    StableHlo.unary main_cst_1 main_v19 (broadcastInDim S16384x4 ![] bcast_S_S16384x4 : (⟨S_, .f32⟩ : BufTy).Contents (Elt F) → (⟨S16384x4, .f32⟩ : BufTy).Contents (Elt F)),
    StableHlo.binary main_v19 main_v18 main_v20 (Host.divf : (⟨S16384x4, .f32⟩ : BufTy).Contents (Elt F) → (⟨S16384x4, .f32⟩ : BufTy).Contents (Elt F) → (⟨S16384x4, .f32⟩ : BufTy).Contents (Elt F)),
    StableHlo.nullary main_cst_2 (constant S_ .f32 0x3C23D70A#32),
    StableHlo.unary main_cst_2 main_v21 (broadcastInDim S16384x4 ![] bcast_S_S16384x4 : (⟨S_, .f32⟩ : BufTy).Contents (Elt F) → (⟨S16384x4, .f32⟩ : BufTy).Contents (Elt F)),
    StableHlo.binary main_v20 main_v21 main_v22 (addf : (⟨S16384x4, .f32⟩ : BufTy).Contents (Elt F) → (⟨S16384x4, .f32⟩ : BufTy).Contents (Elt F) → (⟨S16384x4, .f32⟩ : BufTy).Contents (Elt F)) ]

set_option maxHeartbeats 4000000 in
/-- The second gate: 19 operations. -/
abbrev ops_gate2 : List (HloOp τ sig (Elt F)) :=
  [ StableHlo.unary main_v6 main_v23 ((extractStridedSlice S16384x4 ![0, 4] · slices_S16384x24_S16384x4_0_4) : (⟨S16384x24, .f32⟩ : BufTy).Contents (Elt F) → (⟨S16384x4, .f32⟩ : BufTy).Contents (Elt F)),
    StableHlo.unary main_arg4 main_v24 (broadcastInDim S1x1 ![1] bcast_S1_S1x1_1 : (⟨S1, .f32⟩ : BufTy).Contents (Elt F) → (⟨S1x1, .f32⟩ : BufTy).Contents (Elt F)),
    StableHlo.unary main_v24 main_v25 (broadcastInDim S16384x4 ![0, 1] bcast_S1x1_S16384x4_0_1 : (⟨S1x1, .f32⟩ : BufTy).Contents (Elt F) → (⟨S16384x4, .f32⟩ : BufTy).Contents (Elt F)),
    StableHlo.binary main_v23 main_v25 main_v26 (mulf : (⟨S16384x4, .f32⟩ : BufTy).Contents (Elt F) → (⟨S16384x4, .f32⟩ : BufTy).Contents (Elt F) → (⟨S16384x4, .f32⟩ : BufTy).Contents (Elt F)),
    StableHlo.unary main_arg2 main_v27 ((extractStridedSlice S4 ![4] · slices_S24_S4_4) : (⟨S24, .f32⟩ : BufTy).Contents (Elt F) → (⟨S4, .f32⟩ : BufTy).Contents (Elt F)),
    StableHlo.unary main_v27 main_v28 (broadcastInDim S1x4 ![1] bcast_S4_S1x4_1 : (⟨S4, .f32⟩ : BufTy).Contents (Elt F) → (⟨S1x4, .f32⟩ : BufTy).Contents (Elt F)),
    StableHlo.unary main_v28 main_v29 (broadcastInDim S16384x4 ![0, 1] bcast_S1x4_S16384x4_0_1 : (⟨S1x4, .f32⟩ : BufTy).Contents (Elt F) → (⟨S16384x4, .f32⟩ : BufTy).Contents (Elt F)),
    StableHlo.binary main_v26 main_v29 main_v30 (addf : (⟨S16384x4, .f32⟩ : BufTy).Contents (Elt F) → (⟨S16384x4, .f32⟩ : BufTy).Contents (Elt F) → (⟨S16384x4, .f32⟩ : BufTy).Contents (Elt F)),
    StableHlo.unary main_v30 main_v31 (Host.negf : (⟨S16384x4, .f32⟩ : BufTy).Contents (Elt F) → (⟨S16384x4, .f32⟩ : BufTy).Contents (Elt F)),
    StableHlo.unary main_v31 main_v32 (Host.exp : (⟨S16384x4, .f32⟩ : BufTy).Contents (Elt F) → (⟨S16384x4, .f32⟩ : BufTy).Contents (Elt F)),
    StableHlo.nullary main_cst_3 (constant S_ .f32 0x3F800000#32),
    StableHlo.unary main_cst_3 main_v33 (broadcastInDim S16384x4 ![] bcast_S_S16384x4 : (⟨S_, .f32⟩ : BufTy).Contents (Elt F) → (⟨S16384x4, .f32⟩ : BufTy).Contents (Elt F)),
    StableHlo.binary main_v33 main_v32 main_v34 (addf : (⟨S16384x4, .f32⟩ : BufTy).Contents (Elt F) → (⟨S16384x4, .f32⟩ : BufTy).Contents (Elt F) → (⟨S16384x4, .f32⟩ : BufTy).Contents (Elt F)),
    StableHlo.nullary main_cst_4 (constant S_ .f32 0x3F800000#32),
    StableHlo.unary main_cst_4 main_v35 (broadcastInDim S16384x4 ![] bcast_S_S16384x4 : (⟨S_, .f32⟩ : BufTy).Contents (Elt F) → (⟨S16384x4, .f32⟩ : BufTy).Contents (Elt F)),
    StableHlo.binary main_v35 main_v34 main_v36 (Host.divf : (⟨S16384x4, .f32⟩ : BufTy).Contents (Elt F) → (⟨S16384x4, .f32⟩ : BufTy).Contents (Elt F) → (⟨S16384x4, .f32⟩ : BufTy).Contents (Elt F)),
    StableHlo.nullary main_cst_5 (constant S_ .f32 0x40000000#32),
    StableHlo.unary main_cst_5 main_v37 (broadcastInDim S16384x4 ![] bcast_S_S16384x4 : (⟨S_, .f32⟩ : BufTy).Contents (Elt F) → (⟨S16384x4, .f32⟩ : BufTy).Contents (Elt F)),
    StableHlo.binary main_v36 main_v37 main_v38 (mulf : (⟨S16384x4, .f32⟩ : BufTy).Contents (Elt F) → (⟨S16384x4, .f32⟩ : BufTy).Contents (Elt F) → (⟨S16384x4, .f32⟩ : BufTy).Contents (Elt F)) ]

set_option maxHeartbeats 4000000 in
/-- The logits of the mixing matrix: 10 operations. -/
abbrev ops_logits : List (HloOp τ sig (Elt F)) :=
  [ StableHlo.unary main_v6 main_v39 ((extractStridedSlice S16384x16 ![0, 8] · slices_S16384x24_S16384x16_0_8) : (⟨S16384x24, .f32⟩ : BufTy).Contents (Elt F) → (⟨S16384x16, .f32⟩ : BufTy).Contents (Elt F)),
    StableHlo.reshape main_v39 main_v40 rfl shapeCasts_S16384x16_S16384x4x4,
    StableHlo.unary main_arg5 main_v41 (broadcastInDim S1x1x1 ![2] bcast_S1_S1x1x1_2 : (⟨S1, .f32⟩ : BufTy).Contents (Elt F) → (⟨S1x1x1, .f32⟩ : BufTy).Contents (Elt F)),
    StableHlo.unary main_v41 main_v42 (broadcastInDim S16384x4x4 ![0, 1, 2] bcast_S1x1x1_S16384x4x4_0_1_2 : (⟨S1x1x1, .f32⟩ : BufTy).Contents (Elt F) → (⟨S16384x4x4, .f32⟩ : BufTy).Contents (Elt F)),
    StableHlo.binary main_v40 main_v42 main_v43 (mulf : (⟨S16384x4x4, .f32⟩ : BufTy).Contents (Elt F) → (⟨S16384x4x4, .f32⟩ : BufTy).Contents (Elt F) → (⟨S16384x4x4, .f32⟩ : BufTy).Contents (Elt F)),
    StableHlo.unary main_arg2 main_v44 ((extractStridedSlice S16 ![8] · slices_S24_S16_8) : (⟨S24, .f32⟩ : BufTy).Contents (Elt F) → (⟨S16, .f32⟩ : BufTy).Contents (Elt F)),
    StableHlo.reshape main_v44 main_v45 rfl shapeCasts_S16_S4x4,
    StableHlo.unary main_v45 main_v46 (broadcastInDim S1x4x4 ![1, 2] bcast_S4x4_S1x4x4_1_2 : (⟨S4x4, .f32⟩ : BufTy).Contents (Elt F) → (⟨S1x4x4, .f32⟩ : BufTy).Contents (Elt F)),
    StableHlo.unary main_v46 main_v47 (broadcastInDim S16384x4x4 ![0, 1, 2] bcast_S1x4x4_S16384x4x4_0_1_2 : (⟨S1x4x4, .f32⟩ : BufTy).Contents (Elt F) → (⟨S16384x4x4, .f32⟩ : BufTy).Contents (Elt F)),
    StableHlo.binary main_v43 main_v47 main_v48 (addf : (⟨S16384x4x4, .f32⟩ : BufTy).Contents (Elt F) → (⟨S16384x4x4, .f32⟩ : BufTy).Contents (Elt F) → (⟨S16384x4x4, .f32⟩ : BufTy).Contents (Elt F)) ]

set_option maxHeartbeats 4000000 in
/-- `exp (L - max_j L)`, the softmax plus `ε`, and the first column step: 25 operations. -/
abbrev ops_soft : List (HloOp τ sig (Elt F)) :=
  [ StableHlo.nullary main_cst_6 (constant S_ .f32 0xFF800000#32),
    StableHlo.binary main_v48 main_cst_6 main_v49 ((fun x v => Host.reduce FloatOps.maximumf x v reducesTo_S16384x4x4_S16384x4_d2 h_S_) : (⟨S16384x4x4, .f32⟩ : BufTy).Contents (Elt F) → (⟨S_, .f32⟩ : BufTy).Contents (Elt F) → (⟨S16384x4, .f32⟩ : BufTy).Contents (Elt F)),
    StableHlo.nullary main_cst_7 (constant S_ .f32 0xFF800000#32),
    StableHlo.unary main_cst_7 main_v50 (broadcastInDim S16384x4 ![] bcast_S_S16384x4 : (⟨S_, .f32⟩ : BufTy).Contents (Elt F) → (⟨S16384x4, .f32⟩ : BufTy).Contents (Elt F)),
    StableHlo.binary main_v50 main_v49 main_v51 (maximumf : (⟨S16384x4, .f32⟩ : BufTy).Contents (Elt F) → (⟨S16384x4, .f32⟩ : BufTy).Contents (Elt F) → (⟨S16384x4, .f32⟩ : BufTy).Contents (Elt F)),
    StableHlo.unary main_v51 main_v52 (broadcastInDim S16384x4x1 ![0, 1] bcast_S16384x4_S16384x4x1_0_1 : (⟨S16384x4, .f32⟩ : BufTy).Contents (Elt F) → (⟨S16384x4x1, .f32⟩ : BufTy).Contents (Elt F)),
    StableHlo.unary main_v52 main_v53 (broadcastInDim S16384x4x4 ![0, 1, 2] bcast_S16384x4x1_S16384x4x4_0_1_2 : (⟨S16384x4x1, .f32⟩ : BufTy).Contents (Elt F) → (⟨S16384x4x4, .f32⟩ : BufTy).Contents (Elt F)),
    StableHlo.binary main_v48 main_v53 main_v54 (subf : (⟨S16384x4x4, .f32⟩ : BufTy).Contents (Elt F) → (⟨S16384x4x4, .f32⟩ : BufTy).Contents (Elt F) → (⟨S16384x4x4, .f32⟩ : BufTy).Contents (Elt F)),
    StableHlo.unary main_v54 main_v55 (Host.exp : (⟨S16384x4x4, .f32⟩ : BufTy).Contents (Elt F) → (⟨S16384x4x4, .f32⟩ : BufTy).Contents (Elt F)),
    StableHlo.nullary main_cst_8 (constant S_ .f32 0x00000000#32),
    StableHlo.binary main_v55 main_cst_8 main_v56 ((fun x v => Host.reduceAdd x v reducesTo_S16384x4x4_S16384x4_d2 h_S_) : (⟨S16384x4x4, .f32⟩ : BufTy).Contents (Elt F) → (⟨S_, .f32⟩ : BufTy).Contents (Elt F) → (⟨S16384x4, .f32⟩ : BufTy).Contents (Elt F)),
    StableHlo.unary main_v56 main_v57 (broadcastInDim S16384x4x1 ![0, 1] bcast_S16384x4_S16384x4x1_0_1 : (⟨S16384x4, .f32⟩ : BufTy).Contents (Elt F) → (⟨S16384x4x1, .f32⟩ : BufTy).Contents (Elt F)),
    StableHlo.unary main_v57 main_v58 (broadcastInDim S16384x4x4 ![0, 1, 2] bcast_S16384x4x1_S16384x4x4_0_1_2 : (⟨S16384x4x1, .f32⟩ : BufTy).Contents (Elt F) → (⟨S16384x4x4, .f32⟩ : BufTy).Contents (Elt F)),
    StableHlo.binary main_v55 main_v58 main_v59 (Host.divf : (⟨S16384x4x4, .f32⟩ : BufTy).Contents (Elt F) → (⟨S16384x4x4, .f32⟩ : BufTy).Contents (Elt F) → (⟨S16384x4x4, .f32⟩ : BufTy).Contents (Elt F)),
    StableHlo.nullary main_cst_9 (constant S_ .f32 0x358637BD#32),
    StableHlo.unary main_cst_9 main_v60 (broadcastInDim S16384x4x4 ![] bcast_S_S16384x4x4 : (⟨S_, .f32⟩ : BufTy).Contents (Elt F) → (⟨S16384x4x4, .f32⟩ : BufTy).Contents (Elt F)),
    StableHlo.binary main_v59 main_v60 main_v61 (addf : (⟨S16384x4x4, .f32⟩ : BufTy).Contents (Elt F) → (⟨S16384x4x4, .f32⟩ : BufTy).Contents (Elt F) → (⟨S16384x4x4, .f32⟩ : BufTy).Contents (Elt F)),
    StableHlo.nullary main_cst_10 (constant S_ .f32 0x00000000#32),
    StableHlo.binary main_v61 main_cst_10 main_v62 ((fun x v => Host.reduceAdd x v reducesTo_S16384x4x4_S16384x4_d1 h_S_) : (⟨S16384x4x4, .f32⟩ : BufTy).Contents (Elt F) → (⟨S_, .f32⟩ : BufTy).Contents (Elt F) → (⟨S16384x4, .f32⟩ : BufTy).Contents (Elt F)),
    StableHlo.unary main_v62 main_v63 (broadcastInDim S16384x1x4 ![0, 2] bcast_S16384x4_S16384x1x4_0_2 : (⟨S16384x4, .f32⟩ : BufTy).Contents (Elt F) → (⟨S16384x1x4, .f32⟩ : BufTy).Contents (Elt F)),
    StableHlo.nullary main_cst_11 (constant S_ .f32 0x358637BD#32),
    StableHlo.unary main_cst_11 main_v64 (broadcastInDim S16384x1x4 ![] bcast_S_S16384x1x4 : (⟨S_, .f32⟩ : BufTy).Contents (Elt F) → (⟨S16384x1x4, .f32⟩ : BufTy).Contents (Elt F)),
    StableHlo.binary main_v63 main_v64 main_v65 (addf : (⟨S16384x1x4, .f32⟩ : BufTy).Contents (Elt F) → (⟨S16384x1x4, .f32⟩ : BufTy).Contents (Elt F) → (⟨S16384x1x4, .f32⟩ : BufTy).Contents (Elt F)),
    StableHlo.unary main_v65 main_v66 (broadcastInDim S16384x4x4 ![0, 1, 2] bcast_S16384x1x4_S16384x4x4_0_1_2 : (⟨S16384x1x4, .f32⟩ : BufTy).Contents (Elt F) → (⟨S16384x4x4, .f32⟩ : BufTy).Contents (Elt F)),
    StableHlo.binary main_v61 main_v66 main_v67 (Host.divf : (⟨S16384x4x4, .f32⟩ : BufTy).Contents (Elt F) → (⟨S16384x4x4, .f32⟩ : BufTy).Contents (Elt F) → (⟨S16384x4x4, .f32⟩ : BufTy).Contents (Elt F)) ]

set_option maxHeartbeats 4000000 in
/-- Round 1 of 7: a row step, then a column step (16 operations). -/
abbrev ops_round1 : List (HloOp τ sig (Elt F)) :=
  [ StableHlo.nullary main_cst_12 (constant S_ .f32 0x00000000#32),
    StableHlo.binary main_v67 main_cst_12 main_v68 ((fun x v => Host.reduceAdd x v reducesTo_S16384x4x4_S16384x4_d2 h_S_) : (⟨S16384x4x4, .f32⟩ : BufTy).Contents (Elt F) → (⟨S_, .f32⟩ : BufTy).Contents (Elt F) → (⟨S16384x4, .f32⟩ : BufTy).Contents (Elt F)),
    StableHlo.unary main_v68 main_v69 (broadcastInDim S16384x4x1 ![0, 1] bcast_S16384x4_S16384x4x1_0_1 : (⟨S16384x4, .f32⟩ : BufTy).Contents (Elt F) → (⟨S16384x4x1, .f32⟩ : BufTy).Contents (Elt F)),
    StableHlo.nullary main_cst_13 (constant S_ .f32 0x358637BD#32),
    StableHlo.unary main_cst_13 main_v70 (broadcastInDim S16384x4x1 ![] bcast_S_S16384x4x1 : (⟨S_, .f32⟩ : BufTy).Contents (Elt F) → (⟨S16384x4x1, .f32⟩ : BufTy).Contents (Elt F)),
    StableHlo.binary main_v69 main_v70 main_v71 (addf : (⟨S16384x4x1, .f32⟩ : BufTy).Contents (Elt F) → (⟨S16384x4x1, .f32⟩ : BufTy).Contents (Elt F) → (⟨S16384x4x1, .f32⟩ : BufTy).Contents (Elt F)),
    StableHlo.unary main_v71 main_v72 (broadcastInDim S16384x4x4 ![0, 1, 2] bcast_S16384x4x1_S16384x4x4_0_1_2 : (⟨S16384x4x1, .f32⟩ : BufTy).Contents (Elt F) → (⟨S16384x4x4, .f32⟩ : BufTy).Contents (Elt F)),
    StableHlo.binary main_v67 main_v72 main_v73 (Host.divf : (⟨S16384x4x4, .f32⟩ : BufTy).Contents (Elt F) → (⟨S16384x4x4, .f32⟩ : BufTy).Contents (Elt F) → (⟨S16384x4x4, .f32⟩ : BufTy).Contents (Elt F)),
    StableHlo.nullary main_cst_14 (constant S_ .f32 0x00000000#32),
    StableHlo.binary main_v73 main_cst_14 main_v74 ((fun x v => Host.reduceAdd x v reducesTo_S16384x4x4_S16384x4_d1 h_S_) : (⟨S16384x4x4, .f32⟩ : BufTy).Contents (Elt F) → (⟨S_, .f32⟩ : BufTy).Contents (Elt F) → (⟨S16384x4, .f32⟩ : BufTy).Contents (Elt F)),
    StableHlo.unary main_v74 main_v75 (broadcastInDim S16384x1x4 ![0, 2] bcast_S16384x4_S16384x1x4_0_2 : (⟨S16384x4, .f32⟩ : BufTy).Contents (Elt F) → (⟨S16384x1x4, .f32⟩ : BufTy).Contents (Elt F)),
    StableHlo.nullary main_cst_15 (constant S_ .f32 0x358637BD#32),
    StableHlo.unary main_cst_15 main_v76 (broadcastInDim S16384x1x4 ![] bcast_S_S16384x1x4 : (⟨S_, .f32⟩ : BufTy).Contents (Elt F) → (⟨S16384x1x4, .f32⟩ : BufTy).Contents (Elt F)),
    StableHlo.binary main_v75 main_v76 main_v77 (addf : (⟨S16384x1x4, .f32⟩ : BufTy).Contents (Elt F) → (⟨S16384x1x4, .f32⟩ : BufTy).Contents (Elt F) → (⟨S16384x1x4, .f32⟩ : BufTy).Contents (Elt F)),
    StableHlo.unary main_v77 main_v78 (broadcastInDim S16384x4x4 ![0, 1, 2] bcast_S16384x1x4_S16384x4x4_0_1_2 : (⟨S16384x1x4, .f32⟩ : BufTy).Contents (Elt F) → (⟨S16384x4x4, .f32⟩ : BufTy).Contents (Elt F)),
    StableHlo.binary main_v73 main_v78 main_v79 (Host.divf : (⟨S16384x4x4, .f32⟩ : BufTy).Contents (Elt F) → (⟨S16384x4x4, .f32⟩ : BufTy).Contents (Elt F) → (⟨S16384x4x4, .f32⟩ : BufTy).Contents (Elt F)) ]

set_option maxHeartbeats 4000000 in
/-- Round 2 of 7: a row step, then a column step (16 operations). -/
abbrev ops_round2 : List (HloOp τ sig (Elt F)) :=
  [ StableHlo.nullary main_cst_16 (constant S_ .f32 0x00000000#32),
    StableHlo.binary main_v79 main_cst_16 main_v80 ((fun x v => Host.reduceAdd x v reducesTo_S16384x4x4_S16384x4_d2 h_S_) : (⟨S16384x4x4, .f32⟩ : BufTy).Contents (Elt F) → (⟨S_, .f32⟩ : BufTy).Contents (Elt F) → (⟨S16384x4, .f32⟩ : BufTy).Contents (Elt F)),
    StableHlo.unary main_v80 main_v81 (broadcastInDim S16384x4x1 ![0, 1] bcast_S16384x4_S16384x4x1_0_1 : (⟨S16384x4, .f32⟩ : BufTy).Contents (Elt F) → (⟨S16384x4x1, .f32⟩ : BufTy).Contents (Elt F)),
    StableHlo.nullary main_cst_17 (constant S_ .f32 0x358637BD#32),
    StableHlo.unary main_cst_17 main_v82 (broadcastInDim S16384x4x1 ![] bcast_S_S16384x4x1 : (⟨S_, .f32⟩ : BufTy).Contents (Elt F) → (⟨S16384x4x1, .f32⟩ : BufTy).Contents (Elt F)),
    StableHlo.binary main_v81 main_v82 main_v83 (addf : (⟨S16384x4x1, .f32⟩ : BufTy).Contents (Elt F) → (⟨S16384x4x1, .f32⟩ : BufTy).Contents (Elt F) → (⟨S16384x4x1, .f32⟩ : BufTy).Contents (Elt F)),
    StableHlo.unary main_v83 main_v84 (broadcastInDim S16384x4x4 ![0, 1, 2] bcast_S16384x4x1_S16384x4x4_0_1_2 : (⟨S16384x4x1, .f32⟩ : BufTy).Contents (Elt F) → (⟨S16384x4x4, .f32⟩ : BufTy).Contents (Elt F)),
    StableHlo.binary main_v79 main_v84 main_v85 (Host.divf : (⟨S16384x4x4, .f32⟩ : BufTy).Contents (Elt F) → (⟨S16384x4x4, .f32⟩ : BufTy).Contents (Elt F) → (⟨S16384x4x4, .f32⟩ : BufTy).Contents (Elt F)),
    StableHlo.nullary main_cst_18 (constant S_ .f32 0x00000000#32),
    StableHlo.binary main_v85 main_cst_18 main_v86 ((fun x v => Host.reduceAdd x v reducesTo_S16384x4x4_S16384x4_d1 h_S_) : (⟨S16384x4x4, .f32⟩ : BufTy).Contents (Elt F) → (⟨S_, .f32⟩ : BufTy).Contents (Elt F) → (⟨S16384x4, .f32⟩ : BufTy).Contents (Elt F)),
    StableHlo.unary main_v86 main_v87 (broadcastInDim S16384x1x4 ![0, 2] bcast_S16384x4_S16384x1x4_0_2 : (⟨S16384x4, .f32⟩ : BufTy).Contents (Elt F) → (⟨S16384x1x4, .f32⟩ : BufTy).Contents (Elt F)),
    StableHlo.nullary main_cst_19 (constant S_ .f32 0x358637BD#32),
    StableHlo.unary main_cst_19 main_v88 (broadcastInDim S16384x1x4 ![] bcast_S_S16384x1x4 : (⟨S_, .f32⟩ : BufTy).Contents (Elt F) → (⟨S16384x1x4, .f32⟩ : BufTy).Contents (Elt F)),
    StableHlo.binary main_v87 main_v88 main_v89 (addf : (⟨S16384x1x4, .f32⟩ : BufTy).Contents (Elt F) → (⟨S16384x1x4, .f32⟩ : BufTy).Contents (Elt F) → (⟨S16384x1x4, .f32⟩ : BufTy).Contents (Elt F)),
    StableHlo.unary main_v89 main_v90 (broadcastInDim S16384x4x4 ![0, 1, 2] bcast_S16384x1x4_S16384x4x4_0_1_2 : (⟨S16384x1x4, .f32⟩ : BufTy).Contents (Elt F) → (⟨S16384x4x4, .f32⟩ : BufTy).Contents (Elt F)),
    StableHlo.binary main_v85 main_v90 main_v91 (Host.divf : (⟨S16384x4x4, .f32⟩ : BufTy).Contents (Elt F) → (⟨S16384x4x4, .f32⟩ : BufTy).Contents (Elt F) → (⟨S16384x4x4, .f32⟩ : BufTy).Contents (Elt F)) ]

set_option maxHeartbeats 4000000 in
/-- Round 3 of 7: a row step, then a column step (16 operations). -/
abbrev ops_round3 : List (HloOp τ sig (Elt F)) :=
  [ StableHlo.nullary main_cst_20 (constant S_ .f32 0x00000000#32),
    StableHlo.binary main_v91 main_cst_20 main_v92 ((fun x v => Host.reduceAdd x v reducesTo_S16384x4x4_S16384x4_d2 h_S_) : (⟨S16384x4x4, .f32⟩ : BufTy).Contents (Elt F) → (⟨S_, .f32⟩ : BufTy).Contents (Elt F) → (⟨S16384x4, .f32⟩ : BufTy).Contents (Elt F)),
    StableHlo.unary main_v92 main_v93 (broadcastInDim S16384x4x1 ![0, 1] bcast_S16384x4_S16384x4x1_0_1 : (⟨S16384x4, .f32⟩ : BufTy).Contents (Elt F) → (⟨S16384x4x1, .f32⟩ : BufTy).Contents (Elt F)),
    StableHlo.nullary main_cst_21 (constant S_ .f32 0x358637BD#32),
    StableHlo.unary main_cst_21 main_v94 (broadcastInDim S16384x4x1 ![] bcast_S_S16384x4x1 : (⟨S_, .f32⟩ : BufTy).Contents (Elt F) → (⟨S16384x4x1, .f32⟩ : BufTy).Contents (Elt F)),
    StableHlo.binary main_v93 main_v94 main_v95 (addf : (⟨S16384x4x1, .f32⟩ : BufTy).Contents (Elt F) → (⟨S16384x4x1, .f32⟩ : BufTy).Contents (Elt F) → (⟨S16384x4x1, .f32⟩ : BufTy).Contents (Elt F)),
    StableHlo.unary main_v95 main_v96 (broadcastInDim S16384x4x4 ![0, 1, 2] bcast_S16384x4x1_S16384x4x4_0_1_2 : (⟨S16384x4x1, .f32⟩ : BufTy).Contents (Elt F) → (⟨S16384x4x4, .f32⟩ : BufTy).Contents (Elt F)),
    StableHlo.binary main_v91 main_v96 main_v97 (Host.divf : (⟨S16384x4x4, .f32⟩ : BufTy).Contents (Elt F) → (⟨S16384x4x4, .f32⟩ : BufTy).Contents (Elt F) → (⟨S16384x4x4, .f32⟩ : BufTy).Contents (Elt F)),
    StableHlo.nullary main_cst_22 (constant S_ .f32 0x00000000#32),
    StableHlo.binary main_v97 main_cst_22 main_v98 ((fun x v => Host.reduceAdd x v reducesTo_S16384x4x4_S16384x4_d1 h_S_) : (⟨S16384x4x4, .f32⟩ : BufTy).Contents (Elt F) → (⟨S_, .f32⟩ : BufTy).Contents (Elt F) → (⟨S16384x4, .f32⟩ : BufTy).Contents (Elt F)),
    StableHlo.unary main_v98 main_v99 (broadcastInDim S16384x1x4 ![0, 2] bcast_S16384x4_S16384x1x4_0_2 : (⟨S16384x4, .f32⟩ : BufTy).Contents (Elt F) → (⟨S16384x1x4, .f32⟩ : BufTy).Contents (Elt F)),
    StableHlo.nullary main_cst_23 (constant S_ .f32 0x358637BD#32),
    StableHlo.unary main_cst_23 main_v100 (broadcastInDim S16384x1x4 ![] bcast_S_S16384x1x4 : (⟨S_, .f32⟩ : BufTy).Contents (Elt F) → (⟨S16384x1x4, .f32⟩ : BufTy).Contents (Elt F)),
    StableHlo.binary main_v99 main_v100 main_v101 (addf : (⟨S16384x1x4, .f32⟩ : BufTy).Contents (Elt F) → (⟨S16384x1x4, .f32⟩ : BufTy).Contents (Elt F) → (⟨S16384x1x4, .f32⟩ : BufTy).Contents (Elt F)),
    StableHlo.unary main_v101 main_v102 (broadcastInDim S16384x4x4 ![0, 1, 2] bcast_S16384x1x4_S16384x4x4_0_1_2 : (⟨S16384x1x4, .f32⟩ : BufTy).Contents (Elt F) → (⟨S16384x4x4, .f32⟩ : BufTy).Contents (Elt F)),
    StableHlo.binary main_v97 main_v102 main_v103 (Host.divf : (⟨S16384x4x4, .f32⟩ : BufTy).Contents (Elt F) → (⟨S16384x4x4, .f32⟩ : BufTy).Contents (Elt F) → (⟨S16384x4x4, .f32⟩ : BufTy).Contents (Elt F)) ]

set_option maxHeartbeats 4000000 in
/-- Round 4 of 7: a row step, then a column step (16 operations). -/
abbrev ops_round4 : List (HloOp τ sig (Elt F)) :=
  [ StableHlo.nullary main_cst_24 (constant S_ .f32 0x00000000#32),
    StableHlo.binary main_v103 main_cst_24 main_v104 ((fun x v => Host.reduceAdd x v reducesTo_S16384x4x4_S16384x4_d2 h_S_) : (⟨S16384x4x4, .f32⟩ : BufTy).Contents (Elt F) → (⟨S_, .f32⟩ : BufTy).Contents (Elt F) → (⟨S16384x4, .f32⟩ : BufTy).Contents (Elt F)),
    StableHlo.unary main_v104 main_v105 (broadcastInDim S16384x4x1 ![0, 1] bcast_S16384x4_S16384x4x1_0_1 : (⟨S16384x4, .f32⟩ : BufTy).Contents (Elt F) → (⟨S16384x4x1, .f32⟩ : BufTy).Contents (Elt F)),
    StableHlo.nullary main_cst_25 (constant S_ .f32 0x358637BD#32),
    StableHlo.unary main_cst_25 main_v106 (broadcastInDim S16384x4x1 ![] bcast_S_S16384x4x1 : (⟨S_, .f32⟩ : BufTy).Contents (Elt F) → (⟨S16384x4x1, .f32⟩ : BufTy).Contents (Elt F)),
    StableHlo.binary main_v105 main_v106 main_v107 (addf : (⟨S16384x4x1, .f32⟩ : BufTy).Contents (Elt F) → (⟨S16384x4x1, .f32⟩ : BufTy).Contents (Elt F) → (⟨S16384x4x1, .f32⟩ : BufTy).Contents (Elt F)),
    StableHlo.unary main_v107 main_v108 (broadcastInDim S16384x4x4 ![0, 1, 2] bcast_S16384x4x1_S16384x4x4_0_1_2 : (⟨S16384x4x1, .f32⟩ : BufTy).Contents (Elt F) → (⟨S16384x4x4, .f32⟩ : BufTy).Contents (Elt F)),
    StableHlo.binary main_v103 main_v108 main_v109 (Host.divf : (⟨S16384x4x4, .f32⟩ : BufTy).Contents (Elt F) → (⟨S16384x4x4, .f32⟩ : BufTy).Contents (Elt F) → (⟨S16384x4x4, .f32⟩ : BufTy).Contents (Elt F)),
    StableHlo.nullary main_cst_26 (constant S_ .f32 0x00000000#32),
    StableHlo.binary main_v109 main_cst_26 main_v110 ((fun x v => Host.reduceAdd x v reducesTo_S16384x4x4_S16384x4_d1 h_S_) : (⟨S16384x4x4, .f32⟩ : BufTy).Contents (Elt F) → (⟨S_, .f32⟩ : BufTy).Contents (Elt F) → (⟨S16384x4, .f32⟩ : BufTy).Contents (Elt F)),
    StableHlo.unary main_v110 main_v111 (broadcastInDim S16384x1x4 ![0, 2] bcast_S16384x4_S16384x1x4_0_2 : (⟨S16384x4, .f32⟩ : BufTy).Contents (Elt F) → (⟨S16384x1x4, .f32⟩ : BufTy).Contents (Elt F)),
    StableHlo.nullary main_cst_27 (constant S_ .f32 0x358637BD#32),
    StableHlo.unary main_cst_27 main_v112 (broadcastInDim S16384x1x4 ![] bcast_S_S16384x1x4 : (⟨S_, .f32⟩ : BufTy).Contents (Elt F) → (⟨S16384x1x4, .f32⟩ : BufTy).Contents (Elt F)),
    StableHlo.binary main_v111 main_v112 main_v113 (addf : (⟨S16384x1x4, .f32⟩ : BufTy).Contents (Elt F) → (⟨S16384x1x4, .f32⟩ : BufTy).Contents (Elt F) → (⟨S16384x1x4, .f32⟩ : BufTy).Contents (Elt F)),
    StableHlo.unary main_v113 main_v114 (broadcastInDim S16384x4x4 ![0, 1, 2] bcast_S16384x1x4_S16384x4x4_0_1_2 : (⟨S16384x1x4, .f32⟩ : BufTy).Contents (Elt F) → (⟨S16384x4x4, .f32⟩ : BufTy).Contents (Elt F)),
    StableHlo.binary main_v109 main_v114 main_v115 (Host.divf : (⟨S16384x4x4, .f32⟩ : BufTy).Contents (Elt F) → (⟨S16384x4x4, .f32⟩ : BufTy).Contents (Elt F) → (⟨S16384x4x4, .f32⟩ : BufTy).Contents (Elt F)) ]

set_option maxHeartbeats 4000000 in
/-- Round 5 of 7: a row step, then a column step (16 operations). -/
abbrev ops_round5 : List (HloOp τ sig (Elt F)) :=
  [ StableHlo.nullary main_cst_28 (constant S_ .f32 0x00000000#32),
    StableHlo.binary main_v115 main_cst_28 main_v116 ((fun x v => Host.reduceAdd x v reducesTo_S16384x4x4_S16384x4_d2 h_S_) : (⟨S16384x4x4, .f32⟩ : BufTy).Contents (Elt F) → (⟨S_, .f32⟩ : BufTy).Contents (Elt F) → (⟨S16384x4, .f32⟩ : BufTy).Contents (Elt F)),
    StableHlo.unary main_v116 main_v117 (broadcastInDim S16384x4x1 ![0, 1] bcast_S16384x4_S16384x4x1_0_1 : (⟨S16384x4, .f32⟩ : BufTy).Contents (Elt F) → (⟨S16384x4x1, .f32⟩ : BufTy).Contents (Elt F)),
    StableHlo.nullary main_cst_29 (constant S_ .f32 0x358637BD#32),
    StableHlo.unary main_cst_29 main_v118 (broadcastInDim S16384x4x1 ![] bcast_S_S16384x4x1 : (⟨S_, .f32⟩ : BufTy).Contents (Elt F) → (⟨S16384x4x1, .f32⟩ : BufTy).Contents (Elt F)),
    StableHlo.binary main_v117 main_v118 main_v119 (addf : (⟨S16384x4x1, .f32⟩ : BufTy).Contents (Elt F) → (⟨S16384x4x1, .f32⟩ : BufTy).Contents (Elt F) → (⟨S16384x4x1, .f32⟩ : BufTy).Contents (Elt F)),
    StableHlo.unary main_v119 main_v120 (broadcastInDim S16384x4x4 ![0, 1, 2] bcast_S16384x4x1_S16384x4x4_0_1_2 : (⟨S16384x4x1, .f32⟩ : BufTy).Contents (Elt F) → (⟨S16384x4x4, .f32⟩ : BufTy).Contents (Elt F)),
    StableHlo.binary main_v115 main_v120 main_v121 (Host.divf : (⟨S16384x4x4, .f32⟩ : BufTy).Contents (Elt F) → (⟨S16384x4x4, .f32⟩ : BufTy).Contents (Elt F) → (⟨S16384x4x4, .f32⟩ : BufTy).Contents (Elt F)),
    StableHlo.nullary main_cst_30 (constant S_ .f32 0x00000000#32),
    StableHlo.binary main_v121 main_cst_30 main_v122 ((fun x v => Host.reduceAdd x v reducesTo_S16384x4x4_S16384x4_d1 h_S_) : (⟨S16384x4x4, .f32⟩ : BufTy).Contents (Elt F) → (⟨S_, .f32⟩ : BufTy).Contents (Elt F) → (⟨S16384x4, .f32⟩ : BufTy).Contents (Elt F)),
    StableHlo.unary main_v122 main_v123 (broadcastInDim S16384x1x4 ![0, 2] bcast_S16384x4_S16384x1x4_0_2 : (⟨S16384x4, .f32⟩ : BufTy).Contents (Elt F) → (⟨S16384x1x4, .f32⟩ : BufTy).Contents (Elt F)),
    StableHlo.nullary main_cst_31 (constant S_ .f32 0x358637BD#32),
    StableHlo.unary main_cst_31 main_v124 (broadcastInDim S16384x1x4 ![] bcast_S_S16384x1x4 : (⟨S_, .f32⟩ : BufTy).Contents (Elt F) → (⟨S16384x1x4, .f32⟩ : BufTy).Contents (Elt F)),
    StableHlo.binary main_v123 main_v124 main_v125 (addf : (⟨S16384x1x4, .f32⟩ : BufTy).Contents (Elt F) → (⟨S16384x1x4, .f32⟩ : BufTy).Contents (Elt F) → (⟨S16384x1x4, .f32⟩ : BufTy).Contents (Elt F)),
    StableHlo.unary main_v125 main_v126 (broadcastInDim S16384x4x4 ![0, 1, 2] bcast_S16384x1x4_S16384x4x4_0_1_2 : (⟨S16384x1x4, .f32⟩ : BufTy).Contents (Elt F) → (⟨S16384x4x4, .f32⟩ : BufTy).Contents (Elt F)),
    StableHlo.binary main_v121 main_v126 main_v127 (Host.divf : (⟨S16384x4x4, .f32⟩ : BufTy).Contents (Elt F) → (⟨S16384x4x4, .f32⟩ : BufTy).Contents (Elt F) → (⟨S16384x4x4, .f32⟩ : BufTy).Contents (Elt F)) ]

set_option maxHeartbeats 4000000 in
/-- Round 6 of 7: a row step, then a column step (16 operations). -/
abbrev ops_round6 : List (HloOp τ sig (Elt F)) :=
  [ StableHlo.nullary main_cst_32 (constant S_ .f32 0x00000000#32),
    StableHlo.binary main_v127 main_cst_32 main_v128 ((fun x v => Host.reduceAdd x v reducesTo_S16384x4x4_S16384x4_d2 h_S_) : (⟨S16384x4x4, .f32⟩ : BufTy).Contents (Elt F) → (⟨S_, .f32⟩ : BufTy).Contents (Elt F) → (⟨S16384x4, .f32⟩ : BufTy).Contents (Elt F)),
    StableHlo.unary main_v128 main_v129 (broadcastInDim S16384x4x1 ![0, 1] bcast_S16384x4_S16384x4x1_0_1 : (⟨S16384x4, .f32⟩ : BufTy).Contents (Elt F) → (⟨S16384x4x1, .f32⟩ : BufTy).Contents (Elt F)),
    StableHlo.nullary main_cst_33 (constant S_ .f32 0x358637BD#32),
    StableHlo.unary main_cst_33 main_v130 (broadcastInDim S16384x4x1 ![] bcast_S_S16384x4x1 : (⟨S_, .f32⟩ : BufTy).Contents (Elt F) → (⟨S16384x4x1, .f32⟩ : BufTy).Contents (Elt F)),
    StableHlo.binary main_v129 main_v130 main_v131 (addf : (⟨S16384x4x1, .f32⟩ : BufTy).Contents (Elt F) → (⟨S16384x4x1, .f32⟩ : BufTy).Contents (Elt F) → (⟨S16384x4x1, .f32⟩ : BufTy).Contents (Elt F)),
    StableHlo.unary main_v131 main_v132 (broadcastInDim S16384x4x4 ![0, 1, 2] bcast_S16384x4x1_S16384x4x4_0_1_2 : (⟨S16384x4x1, .f32⟩ : BufTy).Contents (Elt F) → (⟨S16384x4x4, .f32⟩ : BufTy).Contents (Elt F)),
    StableHlo.binary main_v127 main_v132 main_v133 (Host.divf : (⟨S16384x4x4, .f32⟩ : BufTy).Contents (Elt F) → (⟨S16384x4x4, .f32⟩ : BufTy).Contents (Elt F) → (⟨S16384x4x4, .f32⟩ : BufTy).Contents (Elt F)),
    StableHlo.nullary main_cst_34 (constant S_ .f32 0x00000000#32),
    StableHlo.binary main_v133 main_cst_34 main_v134 ((fun x v => Host.reduceAdd x v reducesTo_S16384x4x4_S16384x4_d1 h_S_) : (⟨S16384x4x4, .f32⟩ : BufTy).Contents (Elt F) → (⟨S_, .f32⟩ : BufTy).Contents (Elt F) → (⟨S16384x4, .f32⟩ : BufTy).Contents (Elt F)),
    StableHlo.unary main_v134 main_v135 (broadcastInDim S16384x1x4 ![0, 2] bcast_S16384x4_S16384x1x4_0_2 : (⟨S16384x4, .f32⟩ : BufTy).Contents (Elt F) → (⟨S16384x1x4, .f32⟩ : BufTy).Contents (Elt F)),
    StableHlo.nullary main_cst_35 (constant S_ .f32 0x358637BD#32),
    StableHlo.unary main_cst_35 main_v136 (broadcastInDim S16384x1x4 ![] bcast_S_S16384x1x4 : (⟨S_, .f32⟩ : BufTy).Contents (Elt F) → (⟨S16384x1x4, .f32⟩ : BufTy).Contents (Elt F)),
    StableHlo.binary main_v135 main_v136 main_v137 (addf : (⟨S16384x1x4, .f32⟩ : BufTy).Contents (Elt F) → (⟨S16384x1x4, .f32⟩ : BufTy).Contents (Elt F) → (⟨S16384x1x4, .f32⟩ : BufTy).Contents (Elt F)),
    StableHlo.unary main_v137 main_v138 (broadcastInDim S16384x4x4 ![0, 1, 2] bcast_S16384x1x4_S16384x4x4_0_1_2 : (⟨S16384x1x4, .f32⟩ : BufTy).Contents (Elt F) → (⟨S16384x4x4, .f32⟩ : BufTy).Contents (Elt F)),
    StableHlo.binary main_v133 main_v138 main_v139 (Host.divf : (⟨S16384x4x4, .f32⟩ : BufTy).Contents (Elt F) → (⟨S16384x4x4, .f32⟩ : BufTy).Contents (Elt F) → (⟨S16384x4x4, .f32⟩ : BufTy).Contents (Elt F)) ]

set_option maxHeartbeats 4000000 in
/-- Round 7 of 7: a row step, then a column step (16 operations). -/
abbrev ops_round7 : List (HloOp τ sig (Elt F)) :=
  [ StableHlo.nullary main_cst_36 (constant S_ .f32 0x00000000#32),
    StableHlo.binary main_v139 main_cst_36 main_v140 ((fun x v => Host.reduceAdd x v reducesTo_S16384x4x4_S16384x4_d2 h_S_) : (⟨S16384x4x4, .f32⟩ : BufTy).Contents (Elt F) → (⟨S_, .f32⟩ : BufTy).Contents (Elt F) → (⟨S16384x4, .f32⟩ : BufTy).Contents (Elt F)),
    StableHlo.unary main_v140 main_v141 (broadcastInDim S16384x4x1 ![0, 1] bcast_S16384x4_S16384x4x1_0_1 : (⟨S16384x4, .f32⟩ : BufTy).Contents (Elt F) → (⟨S16384x4x1, .f32⟩ : BufTy).Contents (Elt F)),
    StableHlo.nullary main_cst_37 (constant S_ .f32 0x358637BD#32),
    StableHlo.unary main_cst_37 main_v142 (broadcastInDim S16384x4x1 ![] bcast_S_S16384x4x1 : (⟨S_, .f32⟩ : BufTy).Contents (Elt F) → (⟨S16384x4x1, .f32⟩ : BufTy).Contents (Elt F)),
    StableHlo.binary main_v141 main_v142 main_v143 (addf : (⟨S16384x4x1, .f32⟩ : BufTy).Contents (Elt F) → (⟨S16384x4x1, .f32⟩ : BufTy).Contents (Elt F) → (⟨S16384x4x1, .f32⟩ : BufTy).Contents (Elt F)),
    StableHlo.unary main_v143 main_v144 (broadcastInDim S16384x4x4 ![0, 1, 2] bcast_S16384x4x1_S16384x4x4_0_1_2 : (⟨S16384x4x1, .f32⟩ : BufTy).Contents (Elt F) → (⟨S16384x4x4, .f32⟩ : BufTy).Contents (Elt F)),
    StableHlo.binary main_v139 main_v144 main_v145 (Host.divf : (⟨S16384x4x4, .f32⟩ : BufTy).Contents (Elt F) → (⟨S16384x4x4, .f32⟩ : BufTy).Contents (Elt F) → (⟨S16384x4x4, .f32⟩ : BufTy).Contents (Elt F)),
    StableHlo.nullary main_cst_38 (constant S_ .f32 0x00000000#32),
    StableHlo.binary main_v145 main_cst_38 main_v146 ((fun x v => Host.reduceAdd x v reducesTo_S16384x4x4_S16384x4_d1 h_S_) : (⟨S16384x4x4, .f32⟩ : BufTy).Contents (Elt F) → (⟨S_, .f32⟩ : BufTy).Contents (Elt F) → (⟨S16384x4, .f32⟩ : BufTy).Contents (Elt F)),
    StableHlo.unary main_v146 main_v147 (broadcastInDim S16384x1x4 ![0, 2] bcast_S16384x4_S16384x1x4_0_2 : (⟨S16384x4, .f32⟩ : BufTy).Contents (Elt F) → (⟨S16384x1x4, .f32⟩ : BufTy).Contents (Elt F)),
    StableHlo.nullary main_cst_39 (constant S_ .f32 0x358637BD#32),
    StableHlo.unary main_cst_39 main_v148 (broadcastInDim S16384x1x4 ![] bcast_S_S16384x1x4 : (⟨S_, .f32⟩ : BufTy).Contents (Elt F) → (⟨S16384x1x4, .f32⟩ : BufTy).Contents (Elt F)),
    StableHlo.binary main_v147 main_v148 main_v149 (addf : (⟨S16384x1x4, .f32⟩ : BufTy).Contents (Elt F) → (⟨S16384x1x4, .f32⟩ : BufTy).Contents (Elt F) → (⟨S16384x1x4, .f32⟩ : BufTy).Contents (Elt F)),
    StableHlo.unary main_v149 main_v150 (broadcastInDim S16384x4x4 ![0, 1, 2] bcast_S16384x1x4_S16384x4x4_0_1_2 : (⟨S16384x1x4, .f32⟩ : BufTy).Contents (Elt F) → (⟨S16384x4x4, .f32⟩ : BufTy).Contents (Elt F)),
    StableHlo.binary main_v145 main_v150 main_v151 (Host.divf : (⟨S16384x4x4, .f32⟩ : BufTy).Contents (Elt F) → (⟨S16384x4x4, .f32⟩ : BufTy).Contents (Elt F) → (⟨S16384x4x4, .f32⟩ : BufTy).Contents (Elt F)) ]

set_option maxHeartbeats 4000000 in
/-- The three results: the two gates as `[4, 4096, 4]` arrays and the mixing matrix as a `[4, 4096, 4, 4]` array. -/
abbrev ops_out : List (HloOp τ sig (Elt F)) :=
  [ StableHlo.reshape main_v22 main_v152 rfl shapeCasts_S16384x4_S4x4096x4,
    StableHlo.reshape main_v38 main_v153 rfl shapeCasts_S16384x4_S4x4096x4,
    StableHlo.reshape main_v151 main_v154 rfl shapeCasts_S16384x4x4_S4x4096x4x4 ]

set_option maxRecDepth 16384 in
set_option maxHeartbeats 4000000 in
/-- The program's list is the twelve stretches in a row. -/
theorem hostOps1_eq : (hostOps1 : List (HloOp τ sig (Elt F)))
    = ops_gate1 ++ (ops_gate2 ++ (ops_logits ++ (ops_soft ++ (ops_round1 ++ (ops_round2 ++ (ops_round3 ++ (ops_round4 ++ (ops_round5 ++ (ops_round6 ++ (ops_round7 ++ ops_out)))))))))) := rfl

/-! ## The gates before their reshape, and the matrix the rounds start from -/

/-- The first gate as a `[16384, 4]` array: the logistic function of `mix[:, 0:4] * a + b[0:4]`, plus `0.01`. -/
def gate1Core (mix : FVec F S16384x24 .f32) (a : FVec F S1 .f32) (b : FVec F S24 .f32) : FVec F S16384x4 .f32 :=
  addf (Host.divf (broadcastInDim S16384x4 ![] bcast_S_S16384x4 (constant S_ .f32 0x3F800000#32)) (addf (broadcastInDim S16384x4 ![] bcast_S_S16384x4 (constant S_ .f32 0x3F800000#32)) (Host.exp (Host.negf (addf (mulf (extractStridedSlice S16384x4 ![0, 0] mix slices_S16384x24_S16384x4_0_0) (broadcastInDim S16384x4 ![0, 1] bcast_S1x1_S16384x4_0_1 (broadcastInDim S1x1 ![1] bcast_S1_S1x1_1 a))) (broadcastInDim S16384x4 ![0, 1] bcast_S1x4_S16384x4_0_1 (broadcastInDim S1x4 ![1] bcast_S4_S1x4_1 (extractStridedSlice S4 ![0] b slices_S24_S4_0)))))))) (broadcastInDim S16384x4 ![] bcast_S_S16384x4 (constant S_ .f32 0x3C23D70A#32))

/-- The second gate as a `[16384, 4]` array: the logistic function of `mix[:, 4:8] * a + b[4:8]`, times `2`. -/
def gate2Core (mix : FVec F S16384x24 .f32) (a : FVec F S1 .f32) (b : FVec F S24 .f32) : FVec F S16384x4 .f32 :=
  mulf (Host.divf (broadcastInDim S16384x4 ![] bcast_S_S16384x4 (constant S_ .f32 0x3F800000#32)) (addf (broadcastInDim S16384x4 ![] bcast_S_S16384x4 (constant S_ .f32 0x3F800000#32)) (Host.exp (Host.negf (addf (mulf (extractStridedSlice S16384x4 ![0, 4] mix slices_S16384x24_S16384x4_0_4) (broadcastInDim S16384x4 ![0, 1] bcast_S1x1_S16384x4_0_1 (broadcastInDim S1x1 ![1] bcast_S1_S1x1_1 a))) (broadcastInDim S16384x4 ![0, 1] bcast_S1x4_S16384x4_0_1 (broadcastInDim S1x4 ![1] bcast_S4_S1x4_1 (extractStridedSlice S4 ![4] b slices_S24_S4_4)))))))) (broadcastInDim S16384x4 ![] bcast_S_S16384x4 (constant S_ .f32 0x40000000#32))

/-- The matrix the seven rounds start from: the softmax of the logits plus `ε`, after one column step. -/
def start (W : Valuation τ sig (Elt F)) : FVec F S16384x4x4 .f32 :=
  colStep (softEps (expShift (logits (mixOf (W (Proc.devRef .tc main_v5))) (W (Proc.devRef .tc main_arg5)) (W (Proc.devRef .tc main_arg2)))))

/-! ## The contents after each stretch -/

/-- After the cut and the first gate. -/
def val1 (W : Valuation τ sig (Elt F)) : Valuation τ sig (Elt F) := after ops_gate1 W
/-- After the second gate. -/
def val2 (W : Valuation τ sig (Elt F)) : Valuation τ sig (Elt F) := after ops_gate2 (val1 W)
/-- After the logits. -/
def val3 (W : Valuation τ sig (Elt F)) : Valuation τ sig (Elt F) := after ops_logits (val2 W)
/-- After the softmax and the first column step. -/
def val4 (W : Valuation τ sig (Elt F)) : Valuation τ sig (Elt F) := after ops_soft (val3 W)
/-- After round 1. -/
def val5 (W : Valuation τ sig (Elt F)) : Valuation τ sig (Elt F) := after ops_round1 (val4 W)
/-- After round 2. -/
def val6 (W : Valuation τ sig (Elt F)) : Valuation τ sig (Elt F) := after ops_round2 (val5 W)
/-- After round 3. -/
def val7 (W : Valuation τ sig (Elt F)) : Valuation τ sig (Elt F) := after ops_round3 (val6 W)
/-- After round 4. -/
def val8 (W : Valuation τ sig (Elt F)) : Valuation τ sig (Elt F) := after ops_round4 (val7 W)
/-- After round 5. -/
def val9 (W : Valuation τ sig (Elt F)) : Valuation τ sig (Elt F) := after ops_round5 (val8 W)
/-- After round 6. -/
def val10 (W : Valuation τ sig (Elt F)) : Valuation τ sig (Elt F) := after ops_round6 (val9 W)
/-- After round 7. -/
def val11 (W : Valuation τ sig (Elt F)) : Valuation τ sig (Elt F) := after ops_round7 (val10 W)
/-- After the three reshapes: the end of the list. -/
def val12 (W : Valuation τ sig (Elt F)) : Valuation τ sig (Elt F) := after ops_out (val11 W)

/-- The fold over the whole list is the twelve folds in a row. -/
theorem after_hostOps1 (W : Valuation τ sig (Elt F)) : after hostOps1 W = val12 W := by
  rw [hostOps1_eq]
  simp only [after_append]
  rfl

/-! ## The cut and the first gate -/

set_option maxRecDepth 8192 in
set_option maxHeartbeats 2000000 in
theorem val1_arg2 (W : Valuation τ sig (Elt F)) : val1 W (no_index (Proc.devRef .tc main_arg2)) = W (Proc.devRef .tc main_arg2) := by
  unfold val1
  simp only [ops_gate1]
  after_results_simp

set_option maxRecDepth 8192 in
set_option maxHeartbeats 2000000 in
theorem val1_arg4 (W : Valuation τ sig (Elt F)) : val1 W (no_index (Proc.devRef .tc main_arg4)) = W (Proc.devRef .tc main_arg4) := by
  unfold val1
  simp only [ops_gate1]
  after_results_simp

set_option maxRecDepth 8192 in
set_option maxHeartbeats 2000000 in
theorem val1_arg5 (W : Valuation τ sig (Elt F)) : val1 W (no_index (Proc.devRef .tc main_arg5)) = W (Proc.devRef .tc main_arg5) := by
  unfold val1
  simp only [ops_gate1]
  after_results_simp

set_option maxRecDepth 8192 in
set_option maxHeartbeats 2000000 in
/-- The mixed rows: columns `0..23` of the product. -/
theorem val1_v6 (W : Valuation τ sig (Elt F)) : val1 W (no_index (Proc.devRef .tc main_v6)) = mixOf (W (Proc.devRef .tc main_v5)) := by
  unfold val1
  simp only [ops_gate1]
  after_results_simp
  all_goals rfl

set_option maxRecDepth 8192 in
set_option maxHeartbeats 2000000 in
/-- The first gate, before its reshape. -/
theorem val1_v22 (W : Valuation τ sig (Elt F)) : val1 W (no_index (Proc.devRef .tc main_v22)) = gate1Core (mixOf (W (Proc.devRef .tc main_v5))) (W (Proc.devRef .tc main_arg3)) (W (Proc.devRef .tc main_arg2)) := by
  unfold val1
  simp only [ops_gate1]
  after_results_simp
  all_goals rfl

/-! ## The second gate -/

set_option maxRecDepth 8192 in
set_option maxHeartbeats 2000000 in
theorem val2_arg2 (W : Valuation τ sig (Elt F)) : val2 W (no_index (Proc.devRef .tc main_arg2)) = W (Proc.devRef .tc main_arg2) := by
  unfold val2
  simp only [ops_gate2]
  after_results_simp
  exact val1_arg2 W

set_option maxRecDepth 8192 in
set_option maxHeartbeats 2000000 in
theorem val2_arg5 (W : Valuation τ sig (Elt F)) : val2 W (no_index (Proc.devRef .tc main_arg5)) = W (Proc.devRef .tc main_arg5) := by
  unfold val2
  simp only [ops_gate2]
  after_results_simp
  exact val1_arg5 W

set_option maxRecDepth 8192 in
set_option maxHeartbeats 2000000 in
theorem val2_v6 (W : Valuation τ sig (Elt F)) : val2 W (no_index (Proc.devRef .tc main_v6)) = mixOf (W (Proc.devRef .tc main_v5)) := by
  unfold val2
  simp only [ops_gate2]
  after_results_simp
  exact val1_v6 W

set_option maxRecDepth 8192 in
set_option maxHeartbeats 2000000 in
theorem val2_v22 (W : Valuation τ sig (Elt F)) : val2 W (no_index (Proc.devRef .tc main_v22)) = gate1Core (mixOf (W (Proc.devRef .tc main_v5))) (W (Proc.devRef .tc main_arg3)) (W (Proc.devRef .tc main_arg2)) := by
  unfold val2
  simp only [ops_gate2]
  after_results_simp
  exact val1_v22 W

set_option maxRecDepth 8192 in
set_option maxHeartbeats 2000000 in
/-- The second gate, before its reshape. -/
theorem val2_v38 (W : Valuation τ sig (Elt F)) : val2 W (no_index (Proc.devRef .tc main_v38)) = gate2Core (mixOf (W (Proc.devRef .tc main_v5))) (W (Proc.devRef .tc main_arg4)) (W (Proc.devRef .tc main_arg2)) := by
  unfold val2
  simp only [ops_gate2]
  after_results_simp
  simp only [val1_v6, val1_arg4, val1_arg2] <;> rfl

/-! ## The logits -/

set_option maxRecDepth 8192 in
set_option maxHeartbeats 2000000 in
theorem val3_v22 (W : Valuation τ sig (Elt F)) : val3 W (no_index (Proc.devRef .tc main_v22)) = gate1Core (mixOf (W (Proc.devRef .tc main_v5))) (W (Proc.devRef .tc main_arg3)) (W (Proc.devRef .tc main_arg2)) := by
  unfold val3
  simp only [ops_logits]
  after_results_simp
  exact val2_v22 W

set_option maxRecDepth 8192 in
set_option maxHeartbeats 2000000 in
theorem val3_v38 (W : Valuation τ sig (Elt F)) : val3 W (no_index (Proc.devRef .tc main_v38)) = gate2Core (mixOf (W (Proc.devRef .tc main_v5))) (W (Proc.devRef .tc main_arg4)) (W (Proc.devRef .tc main_arg2)) := by
  unfold val3
  simp only [ops_logits]
  after_results_simp
  exact val2_v38 W

set_option maxRecDepth 8192 in
set_option maxHeartbeats 2000000 in
/-- The logits of the mixing matrix. -/
theorem val3_v48 (W : Valuation τ sig (Elt F)) : val3 W (no_index (Proc.devRef .tc main_v48)) = logits (mixOf (W (Proc.devRef .tc main_v5))) (W (Proc.devRef .tc main_arg5)) (W (Proc.devRef .tc main_arg2)) := by
  unfold val3
  simp only [ops_logits]
  after_results_simp
  simp only [val2_v6, val2_arg5, val2_arg2] <;> rfl

/-! ## The softmax and the first column step -/

set_option maxRecDepth 8192 in
set_option maxHeartbeats 2000000 in
theorem val4_v22 (W : Valuation τ sig (Elt F)) : val4 W (no_index (Proc.devRef .tc main_v22)) = gate1Core (mixOf (W (Proc.devRef .tc main_v5))) (W (Proc.devRef .tc main_arg3)) (W (Proc.devRef .tc main_arg2)) := by
  unfold val4
  simp only [ops_soft]
  after_results_simp
  exact val3_v22 W

set_option maxRecDepth 8192 in
set_option maxHeartbeats 2000000 in
theorem val4_v38 (W : Valuation τ sig (Elt F)) : val4 W (no_index (Proc.devRef .tc main_v38)) = gate2Core (mixOf (W (Proc.devRef .tc main_v5))) (W (Proc.devRef .tc main_arg4)) (W (Proc.devRef .tc main_arg2)) := by
  unfold val4
  simp only [ops_soft]
  after_results_simp
  exact val3_v38 W

set_option maxRecDepth 8192 in
set_option maxHeartbeats 2000000 in
/-- Three stages in one stretch: `exp (L - max_j L)`, the softmax plus `ε`, one column step. -/
theorem val4_v67 (W : Valuation τ sig (Elt F)) : val4 W (no_index (Proc.devRef .tc main_v67)) = start W := by
  unfold val4
  simp only [ops_soft]
  after_results_simp
  simp only [val3_v48] <;> rfl

/-! ## The seven rounds

Each round reads the matrix the stretch before left and leaves `round` of it: the same computation seven times. -/

set_option maxRecDepth 8192 in
set_option maxHeartbeats 2000000 in
theorem val5_v22 (W : Valuation τ sig (Elt F)) : val5 W (no_index (Proc.devRef .tc main_v22)) = gate1Core (mixOf (W (Proc.devRef .tc main_v5))) (W (Proc.devRef .tc main_arg3)) (W (Proc.devRef .tc main_arg2)) := by
  unfold val5
  simp only [ops_round1]
  after_results_simp
  exact val4_v22 W

set_option maxRecDepth 8192 in
set_option maxHeartbeats 2000000 in
theorem val5_v38 (W : Valuation τ sig (Elt F)) : val5 W (no_index (Proc.devRef .tc main_v38)) = gate2Core (mixOf (W (Proc.devRef .tc main_v5))) (W (Proc.devRef .tc main_arg4)) (W (Proc.devRef .tc main_arg2)) := by
  unfold val5
  simp only [ops_round1]
  after_results_simp
  exact val4_v38 W

set_option maxRecDepth 8192 in
set_option maxHeartbeats 2000000 in
/-- The matrix after round 1. -/
theorem val5_v79 (W : Valuation τ sig (Elt F)) : val5 W (no_index (Proc.devRef .tc main_v79)) = Gates.round (start W) := by
  unfold val5
  simp only [ops_round1]
  after_results_simp
  simp only [val4_v67] <;> rfl

set_option maxRecDepth 8192 in
set_option maxHeartbeats 2000000 in
theorem val6_v22 (W : Valuation τ sig (Elt F)) : val6 W (no_index (Proc.devRef .tc main_v22)) = gate1Core (mixOf (W (Proc.devRef .tc main_v5))) (W (Proc.devRef .tc main_arg3)) (W (Proc.devRef .tc main_arg2)) := by
  unfold val6
  simp only [ops_round2]
  after_results_simp
  exact val5_v22 W

set_option maxRecDepth 8192 in
set_option maxHeartbeats 2000000 in
theorem val6_v38 (W : Valuation τ sig (Elt F)) : val6 W (no_index (Proc.devRef .tc main_v38)) = gate2Core (mixOf (W (Proc.devRef .tc main_v5))) (W (Proc.devRef .tc main_arg4)) (W (Proc.devRef .tc main_arg2)) := by
  unfold val6
  simp only [ops_round2]
  after_results_simp
  exact val5_v38 W

set_option maxRecDepth 8192 in
set_option maxHeartbeats 2000000 in
/-- The matrix after round 2. -/
theorem val6_v91 (W : Valuation τ sig (Elt F)) : val6 W (no_index (Proc.devRef .tc main_v91)) = Gates.round (Gates.round (start W)) := by
  unfold val6
  simp only [ops_round2]
  after_results_simp
  simp only [val5_v79] <;> rfl

set_option maxRecDepth 8192 in
set_option maxHeartbeats 2000000 in
theorem val7_v22 (W : Valuation τ sig (Elt F)) : val7 W (no_index (Proc.devRef .tc main_v22)) = gate1Core (mixOf (W (Proc.devRef .tc main_v5))) (W (Proc.devRef .tc main_arg3)) (W (Proc.devRef .tc main_arg2)) := by
  unfold val7
  simp only [ops_round3]
  after_results_simp
  exact val6_v22 W

set_option maxRecDepth 8192 in
set_option maxHeartbeats 2000000 in
theorem val7_v38 (W : Valuation τ sig (Elt F)) : val7 W (no_index (Proc.devRef .tc main_v38)) = gate2Core (mixOf (W (Proc.devRef .tc main_v5))) (W (Proc.devRef .tc main_arg4)) (W (Proc.devRef .tc main_arg2)) := by
  unfold val7
  simp only [ops_round3]
  after_results_simp
  exact val6_v38 W

set_option maxRecDepth 8192 in
set_option maxHeartbeats 2000000 in
/-- The matrix after round 3. -/
theorem val7_v103 (W : Valuation τ sig (Elt F)) : val7 W (no_index (Proc.devRef .tc main_v103)) = Gates.round (Gates.round (Gates.round (start W))) := by
  unfold val7
  simp only [ops_round3]
  after_results_simp
  simp only [val6_v91] <;> rfl

set_option maxRecDepth 8192 in
set_option maxHeartbeats 2000000 in
theorem val8_v22 (W : Valuation τ sig (Elt F)) : val8 W (no_index (Proc.devRef .tc main_v22)) = gate1Core (mixOf (W (Proc.devRef .tc main_v5))) (W (Proc.devRef .tc main_arg3)) (W (Proc.devRef .tc main_arg2)) := by
  unfold val8
  simp only [ops_round4]
  after_results_simp
  exact val7_v22 W

set_option maxRecDepth 8192 in
set_option maxHeartbeats 2000000 in
theorem val8_v38 (W : Valuation τ sig (Elt F)) : val8 W (no_index (Proc.devRef .tc main_v38)) = gate2Core (mixOf (W (Proc.devRef .tc main_v5))) (W (Proc.devRef .tc main_arg4)) (W (Proc.devRef .tc main_arg2)) := by
  unfold val8
  simp only [ops_round4]
  after_results_simp
  exact val7_v38 W

set_option maxRecDepth 8192 in
set_option maxHeartbeats 2000000 in
/-- The matrix after round 4. -/
theorem val8_v115 (W : Valuation τ sig (Elt F)) : val8 W (no_index (Proc.devRef .tc main_v115)) = Gates.round (Gates.round (Gates.round (Gates.round (start W)))) := by
  unfold val8
  simp only [ops_round4]
  after_results_simp
  simp only [val7_v103] <;> rfl

set_option maxRecDepth 8192 in
set_option maxHeartbeats 2000000 in
theorem val9_v22 (W : Valuation τ sig (Elt F)) : val9 W (no_index (Proc.devRef .tc main_v22)) = gate1Core (mixOf (W (Proc.devRef .tc main_v5))) (W (Proc.devRef .tc main_arg3)) (W (Proc.devRef .tc main_arg2)) := by
  unfold val9
  simp only [ops_round5]
  after_results_simp
  exact val8_v22 W

set_option maxRecDepth 8192 in
set_option maxHeartbeats 2000000 in
theorem val9_v38 (W : Valuation τ sig (Elt F)) : val9 W (no_index (Proc.devRef .tc main_v38)) = gate2Core (mixOf (W (Proc.devRef .tc main_v5))) (W (Proc.devRef .tc main_arg4)) (W (Proc.devRef .tc main_arg2)) := by
  unfold val9
  simp only [ops_round5]
  after_results_simp
  exact val8_v38 W

set_option maxRecDepth 8192 in
set_option maxHeartbeats 2000000 in
/-- The matrix after round 5. -/
theorem val9_v127 (W : Valuation τ sig (Elt F)) : val9 W (no_index (Proc.devRef .tc main_v127)) = Gates.round (Gates.round (Gates.round (Gates.round (Gates.round (start W))))) := by
  unfold val9
  simp only [ops_round5]
  after_results_simp
  simp only [val8_v115] <;> rfl

set_option maxRecDepth 8192 in
set_option maxHeartbeats 2000000 in
theorem val10_v22 (W : Valuation τ sig (Elt F)) : val10 W (no_index (Proc.devRef .tc main_v22)) = gate1Core (mixOf (W (Proc.devRef .tc main_v5))) (W (Proc.devRef .tc main_arg3)) (W (Proc.devRef .tc main_arg2)) := by
  unfold val10
  simp only [ops_round6]
  after_results_simp
  exact val9_v22 W

set_option maxRecDepth 8192 in
set_option maxHeartbeats 2000000 in
theorem val10_v38 (W : Valuation τ sig (Elt F)) : val10 W (no_index (Proc.devRef .tc main_v38)) = gate2Core (mixOf (W (Proc.devRef .tc main_v5))) (W (Proc.devRef .tc main_arg4)) (W (Proc.devRef .tc main_arg2)) := by
  unfold val10
  simp only [ops_round6]
  after_results_simp
  exact val9_v38 W

set_option maxRecDepth 8192 in
set_option maxHeartbeats 2000000 in
/-- The matrix after round 6. -/
theorem val10_v139 (W : Valuation τ sig (Elt F)) : val10 W (no_index (Proc.devRef .tc main_v139)) = Gates.round (Gates.round (Gates.round (Gates.round (Gates.round (Gates.round (start W)))))) := by
  unfold val10
  simp only [ops_round6]
  after_results_simp
  simp only [val9_v127] <;> rfl

set_option maxRecDepth 8192 in
set_option maxHeartbeats 2000000 in
theorem val11_v22 (W : Valuation τ sig (Elt F)) : val11 W (no_index (Proc.devRef .tc main_v22)) = gate1Core (mixOf (W (Proc.devRef .tc main_v5))) (W (Proc.devRef .tc main_arg3)) (W (Proc.devRef .tc main_arg2)) := by
  unfold val11
  simp only [ops_round7]
  after_results_simp
  exact val10_v22 W

set_option maxRecDepth 8192 in
set_option maxHeartbeats 2000000 in
theorem val11_v38 (W : Valuation τ sig (Elt F)) : val11 W (no_index (Proc.devRef .tc main_v38)) = gate2Core (mixOf (W (Proc.devRef .tc main_v5))) (W (Proc.devRef .tc main_arg4)) (W (Proc.devRef .tc main_arg2)) := by
  unfold val11
  simp only [ops_round7]
  after_results_simp
  exact val10_v38 W

set_option maxRecDepth 8192 in
set_option maxHeartbeats 2000000 in
/-- The matrix after round 7. -/
theorem val11_v151 (W : Valuation τ sig (Elt F)) : val11 W (no_index (Proc.devRef .tc main_v151)) = Gates.round (Gates.round (Gates.round (Gates.round (Gates.round (Gates.round (Gates.round (start W))))))) := by
  unfold val11
  simp only [ops_round7]
  after_results_simp
  simp only [val10_v139] <;> rfl

/-! ## The three results -/

set_option maxRecDepth 8192 in
set_option maxHeartbeats 2000000 in
/-- The first gate as a `[4, 4096, 4]` array. -/
theorem val12_v152 (W : Valuation τ sig (Elt F)) : val12 W (no_index (Proc.devRef .tc main_v152)) = gatePre (mixOf (W (Proc.devRef .tc main_v5))) (W (Proc.devRef .tc main_arg3)) (W (Proc.devRef .tc main_arg2)) := by
  unfold val12
  simp only [ops_out]
  after_results_simp
  simp only [val11_v22] <;> rfl

set_option maxRecDepth 8192 in
set_option maxHeartbeats 2000000 in
/-- The second gate as a `[4, 4096, 4]` array. -/
theorem val12_v153 (W : Valuation τ sig (Elt F)) : val12 W (no_index (Proc.devRef .tc main_v153)) = gatePost (mixOf (W (Proc.devRef .tc main_v5))) (W (Proc.devRef .tc main_arg4)) (W (Proc.devRef .tc main_arg2)) := by
  unfold val12
  simp only [ops_out]
  after_results_simp
  simp only [val11_v38] <;> rfl

set_option maxRecDepth 8192 in
set_option maxHeartbeats 2000000 in
/-- The mixing matrix as a `[4, 4096, 4, 4]` array: seven rounds from `start` are `mixing` of the logits. -/
theorem val12_v154 (W : Valuation τ sig (Elt F)) : val12 W (no_index (Proc.devRef .tc main_v154)) = mixingOut (logits (mixOf (W (Proc.devRef .tc main_v5))) (W (Proc.devRef .tc main_arg5)) (W (Proc.devRef .tc main_arg2))) := by
  unfold val12
  simp only [ops_out]
  after_results_simp
  simp only [val11_v151] <;> rfl

/-! ## The list read back

Run from any contents `W`, the three result buffers hold the gates and the mixing matrix of the mixed rows
`mixOf (W main_v5)` and of the arguments' contents in `W`. -/

theorem tail_pre (W : Valuation τ sig (Elt F)) :
    after hostOps1 W (Proc.devRef .tc main_v152) = gatePre (mixOf (W (Proc.devRef .tc main_v5))) (W (Proc.devRef .tc main_arg3)) (W (Proc.devRef .tc main_arg2)) := by
  rw [after_hostOps1]
  exact val12_v152 W

theorem tail_post (W : Valuation τ sig (Elt F)) :
    after hostOps1 W (Proc.devRef .tc main_v153) = gatePost (mixOf (W (Proc.devRef .tc main_v5))) (W (Proc.devRef .tc main_arg4)) (W (Proc.devRef .tc main_arg2)) := by
  rw [after_hostOps1]
  exact val12_v153 W

theorem tail_mixing (W : Valuation τ sig (Elt F)) :
    after hostOps1 W (Proc.devRef .tc main_v154) = mixingOut (logits (mixOf (W (Proc.devRef .tc main_v5))) (W (Proc.devRef .tc main_arg5)) (W (Proc.devRef .tc main_arg2))) := by
  rw [after_hostOps1]
  exact val12_v154 W

end Cert.KernelIdeal.TailRun

end
-- ==== Proof.LibDot.lean ====
/-
  A rows-by-columns product read at an index.

  For dimension numbers that contract the left operand's second axis with the right operand's first (the plain
  `M × K` by `K × N` product), the sum over the contraction index that both the kernel's matrix unit and the
  host's `dot_general` denote on the extended reals is the familiar `Σ_k l (a, k) · r (k, b)`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : ℕ}

/-- The contraction sum of a plain product at output index `(a, b)` is the sum over `k : Fin K` of
    `l (a, k) · r (k, b)`. The dimension numbers are given by their six lists, as a printed record states them. -/
theorem sum_eq (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  obtain ⟨lc, rc, ln, rn, lb, rb, wf⟩ := D
  dsimp only at h1 h2 h3 h4 h5 h6
  subst h1 h2 h3 h4 h5 h6
  have hr : (DotDims.mk (sl := ⟨2, ![M, K]⟩) (sr := ⟨2, ![K, N]⟩) (so := ⟨2, ![M, N]⟩) [1] [0] [0] [1] [] [] wf).contr.rank = 1 := rfl
  have hs : (DotDims.mk (sl := ⟨2, ![M, K]⟩) (sr := ⟨2, ![K, N]⟩) (so := ⟨2, ![M, N]⟩) [1] [0] [0] [1] [] [] wf).contr.size ⟨0, by omega⟩ = K := rfl
  rw [← Equiv.sum_comp (contrEquiv1 _ K hr hs).symm]
  refine Finset.sum_congr rfl fun k _ => ?_
  have el : (DotDims.mk (sl := ⟨2, ![M, K]⟩) (sr := ⟨2, ![K, N]⟩) (so := ⟨2, ![M, N]⟩) [1] [0] [0] [1] [] [] wf).lhsIdx (ix2 a b) ((contrEquiv1 _ K hr hs).symm k) = ix2 a k := by
    funext d
    match d with
    | ⟨0, _⟩ => rfl
    | ⟨1, _⟩ =>
      refine Fin.ext ?_
      exact (DotDims.lhsIdx_val_of_single _ (cl := 1) rfl (ix2 a b) _).trans (contrEquiv1_symm_val _ K hr hs k)
  have er : (DotDims.mk (sl := ⟨2, ![M, K]⟩) (sr := ⟨2, ![K, N]⟩) (so := ⟨2, ![M, N]⟩) [1] [0] [0] [1] [] [] wf).rhsIdx (ix2 a b) ((contrEquiv1 _ K hr hs).symm k) = ix2 k b := by
    funext d
    match d with
    | ⟨0, _⟩ =>
      refine Fin.ext ?_
      exact (DotDims.rhsIdx_val_of_single _ (cr := 0) rfl (ix2 a b) _).trans (contrEquiv1_symm_val _ K hr hs k)
    | ⟨1, _⟩ => rfl
  rw [el, er]

end Idealize.ShloMosaic.PlainDot

end
-- ==== Proof.LibColumn.lean ====
/-
  Layout operations of "keepdims" row statistics, read at an index given by coordinates.

  A row statistic of an `[a, b]` array (a sum, a mean, a variance along the second axis) lives in an `[a]` array,
  is given a unit column axis, `[a, 1]`, and is spread back over the row, `[a, b]`; a per-feature parameter `[b]` is
  given a unit row axis `[1, b]` and spread over the rows. Each of these steps, in a kernel's vector spelling
  (`shapeCast`, `broadcastTo`) and in the host's (`broadcastInDim` with explicit axes), reads at `(p, c)` the
  operand at the evident coordinates. The lemmas are stated over indices built by `ix1` / `ix2` at every extent, so
  they apply to a printed operation by unification.
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[a] → [a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's `[a, 1] → [a, b]` along axes (0, 1) reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[b] → [1, b]` along axis 1 reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- The host's `[1, b] → [a, b]` along axes (0, 1) reads, at `(p, c)`, the one row at `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's spread of a rank-0 value over any shape reads, everywhere, that value. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun ax => ax.elim0

end Cert.LibColumn
-- ==== Proof.LibAxisReduce.lean ====
/-
  Reductions over ONE axis of a rank-2 or rank-3 array of extended reals, read at coordinates, generic in the extents:
  the sum over the last or the middle axis of a rank-3 array, the sum over the second axis of a rank-2 array, and the
  maximum over the second axis of a rank-2 array as the fold of `max` from `-∞`. Each is the library's one-axis
  reading with the reduced index written by coordinates: the reduced index of an axis-`a` reduction with `k` put back
  has `k` at axis `a` and the kept coordinates in order around it. The word `0xFF800000` is `-∞`, the bottom of the
  extended reals.
-/
import Idealize.ShloMosaic.PureOps.Ideal.Laws
import Idealize.ShloMosaic.PureOps.Reduce
import Idealize.ShloMosaic.Lib.ValueIdx
import Idealize.ShloMosaic.Lib.Pipeline.Value

noncomputable section

namespace Cert.LibAxisReduce

open Idealize.ShloMosaic Idealize.ShloMosaic.ValueIdx

/-! ## The reduced index with the reduced coordinate put back -/

/-- Reducing the last axis of an `[a, b, n]` array: the reduced index `(p, l)` with `k` put back is `(p, l, k)`. -/
theorem lift_last {a b n : ℕ} (h : (⟨3, ![a, b, n]⟩ : Shape).Reduces [2] ⟨2, ![a, b]⟩) (p : Fin a) (l : Fin b)
    (k : Fin ((⟨3, ![a, b, n]⟩ : Shape).size 2)) : h.lift (ix2 p l) k = ix3 p l (⟨k.val, k.isLt⟩ : Fin n) := by
  funext c; apply Fin.ext
  fin_cases c <;> rfl

/-- Reducing the second axis of an `[a, n]` array: the reduced index `p` with `k` put back is `(p, k)`. -/
theorem lift_row {a n : ℕ} (h : (⟨2, ![a, n]⟩ : Shape).Reduces [1] ⟨1, ![a]⟩) (p : Fin a)
    (k : Fin ((⟨2, ![a, n]⟩ : Shape).size 1)) : h.lift (ix1 p) k = ix2 p (⟨k.val, k.isLt⟩ : Fin n) := by
  funext c; apply Fin.ext
  fin_cases c <;> rfl

/-- Reducing the middle axis of an `[a, n, c]` array: the reduced index `(p, d)` with `k` put back is `(p, k, d)`. -/
theorem lift_mid {a n c : ℕ} (h : (⟨3, ![a, n, c]⟩ : Shape).Reduces [1] ⟨2, ![a, c]⟩) (p : Fin a) (d : Fin c)
    (k : Fin ((⟨3, ![a, n, c]⟩ : Shape).size 1)) : h.lift (ix2 p d) k = ix3 p (⟨k.val, k.isLt⟩ : Fin n) d := by
  funext e; apply Fin.ext
  fin_cases e <;> rfl

/-! ## Sums and a maximum over one axis -/

/-- The word of `-∞` is the bottom of the extended reals. -/
theorem ofBits_neg_inf : Ideal.ofBits .f32 0xFF800000#32 = (⊥ : EReal) := by simp [Ideal.ofBits, Ideal.ieee]

/-- A sum over the last axis of a rank-3 array, at `(p, l)`. -/
theorem sum_last {a b n : ℕ} (src : FVec Ideal ⟨3, ![a, b, n]⟩ .f32)
    (h : (⟨3, ![a, b, n]⟩ : Shape).Reduces [2] ⟨2, ![a, b]⟩) (hφ : FKind.Formats .f32)
    (hacc : (0x00000000#32 : BitVec 32) = FKind.add.neutral .f32 hφ) (p : Fin a) (l : Fin b) :
    multiReduction .add [2] ⟨2, ![a, b]⟩ src 0x00000000#32 h hφ hacc (ix2 p l) = ∑ k : Fin n, src (ix3 p l k) := by
  refine (Ideal.multiReduction_add_single src 0x00000000#32 h hφ hacc (ix2 p l)).trans ?_
  exact Finset.sum_congr rfl fun k _ => congrArg src (lift_last h p l k)

/-- A sum over the second axis of a rank-2 array, at `p`. -/
theorem sum_row {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ r : Fin n, src (ix2 p r) := by
  refine (Ideal.multiReduction_add_single src 0x00000000#32 h hφ hacc (ix1 p)).trans ?_
  exact Finset.sum_congr rfl fun k _ => congrArg src (lift_row h p k)

/-- A sum over the middle axis of a rank-3 array, at `(p, d)`. -/
theorem sum_mid {a n c : ℕ} (src : FVec Ideal ⟨3, ![a, n, c]⟩ .f32)
    (h : (⟨3, ![a, n, c]⟩ : Shape).Reduces [1] ⟨2, ![a, c]⟩) (hφ : FKind.Formats .f32)
    (hacc : (0x00000000#32 : BitVec 32) = FKind.add.neutral .f32 hφ) (p : Fin a) (d : Fin c) :
    multiReduction .add [1] ⟨2, ![a, c]⟩ src 0x00000000#32 h hφ hacc (ix2 p d) = ∑ r : Fin n, src (ix3 p r d) := by
  refine (Ideal.multiReduction_add_single src 0x00000000#32 h hφ hacc (ix2 p d)).trans ?_
  exact Finset.sum_congr rfl fun k _ => congrArg src (lift_mid h p d k)

/-- A maximum over the second axis of a rank-2 array, at `p`: the fold of `max` from `-∞` over the row. -/
theorem max_row {a n : ℕ} (src : FVec Ideal ⟨2, ![a, n]⟩ .f32)
    (h : (⟨2, ![a, n]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin n)).fold max ⊥ (fun r => src (ix2 p r)) := by
  refine (Ideal.multiReduction_maximumf_single src 0xFF800000#32 h hφ hacc (ix1 p)).trans ?_
  have e : (src ∘ h.lift (ix1 p)) = fun r : Fin n => src (ix2 p r) :=
    funext fun r => congrArg src (lift_row h p r)
  rw [e, Ideal.ofBits_def, ofBits_neg_inf]
  rfl

end Cert.LibAxisReduce

end
-- ==== Proof.KernelIdeal.Payload.lean ====
import proofs.«145193_j71416716198105_1_alg».proof.Proof.Gen.KernelIdeal.Skeleton
import proofs.«145193_j71416716198105_1_alg».proof.Proof.LibDot
import proofs.«145193_j71416716198105_1_alg».proof.Proof.LibColumn
import proofs.«145193_j71416716198105_1_alg».proof.Proof.LibAxisReduce
import Idealize.ShloMosaic.PureOps.Ideal.Laws
import Idealize.ShloMosaic.Lib.ValueIdx
import Idealize.ShloMosaic.Lib.Pipeline.Value

/-!
# The body's arithmetic at an entry

From a block `xb : [512, 8192]` of rows and the padded weights `wb : [8192, 128]` the body stores
`(xb · wb) * rsqrt (Σ_k xb² · 2⁻¹³ + ε)`, the scale spread along each row.  At the exact instance the rounding of both
operands to bf16 is the identity, the matrix unit's product into a zero accumulator is the plain sum over the
contraction index, and the lane reduction is the plain sum over the row; so entry `(r, q)` of what is stored is

  `(Σ_k xb (r, k) · wb (k, q)) · rsqrt ((Σ_k xb (r, k)²) · 2⁻¹³ + ε)`.
-/

noncomputable section

open scoped BigOperators

namespace Cert.KernelIdeal.RowValue

open Cert.KernelIdeal Cert.KernelIdeal.Gen
open Idealize.ShloMosaic Idealize.ShloMosaic.ValueIdx

/-- Entry `(r, q)` of the stored block. -/
theorem pay_apply (xb : Vec Ideal S512x8192 .f32) (wb : Vec Ideal S8192x128 .bf16) (r : Fin 512) (q : Fin 128) :
    k0_pay1 (F := Ideal) xb wb (ix2 r q)
      = (∑ k : Fin 8192, xb (ix2 r k) * wb (ix2 k q))
        * Ideal.rsqrt ((∑ k : Fin 8192, xb (ix2 r k) * xb (ix2 r k)) * Ideal.ofBits .f32 0x39000000#32
            + Ideal.ofBits .f32 0x358637BD#32) := by
  unfold k0_pay1
  dsimp only
  refine (mulf_apply _ _ _).trans ?_
  refine congrArg₂ (· * ·) ?_ ?_
  · -- the product: the sum over the contraction index, then the two operands read through their identity casts
    refine (Ideal.matmul_constant_zero_apply _ none _ _ (ix2 r q)).trans ?_
    refine (PlainDot.sum_eq dot_S512x8192_S8192x128_S512x128_1_0_0_1_n_n rfl rfl rfl rfl rfl rfl _ _ r q).trans ?_
    refine Finset.sum_congr rfl fun k _ => ?_
    rw [shapeCast_self, shapeCast_self]
    rfl
  · -- the scale: the column spread along the row, then the row's sum of squares
    refine (Cert.LibColumn.broadcastTo_a1_ab_apply _ broadcasts_S512x1_S512x128 r q).trans ?_
    refine congrArg Ideal.rsqrt ?_
    refine congrArg₂ (· + ·) (congrArg₂ (· * ·) ?_ rfl) rfl
    refine (Cert.LibColumn.shapeCast_a_a1_apply _ shapeCasts_S512_S512x1 r 0).trans ?_
    refine (Cert.LibAxisReduce.sum_row _ _ _ _ r).trans ?_
    refine Finset.sum_congr rfl fun k _ => ?_
    rw [shapeCast_self]
    rfl

end Cert.KernelIdeal.RowValue

end
-- ==== Proof.KernelIdeal.Product.lean ====
import proofs.«145193_j71416716198105_1_alg».proof.Proof.KernelIdeal.Region
import proofs.«145193_j71416716198105_1_alg».proof.Proof.KernelIdeal.Payload

/-!
# The padded product as one function of the flattened rows and the padded weights

At point `t` the region writes back rows `512 t .. 512 t + 511` of the `[16384, 128]` result, computed from rows
`512 t .. 512 t + 511` of the flattened `x` and from the whole padded `φ`.  Entry `(r, q)` of that block depends only on
row `512 t + r` of `x` and column `q` of the weights, so every block is a block of ONE function of the two arrays,

  `P (n, q) = (Σ_k X (n, k) · W (k, q)) · rsqrt ((Σ_k X (n, k)²) · 2⁻¹³ + ε)`,

and the 32 blocks tile the result: after the region the result array is `P`.
-/

noncomputable section

open scoped BigOperators

namespace Cert.KernelIdeal.RowValue

open Cert.KernelIdeal Cert.KernelIdeal.Gen Cert.KernelIdeal.Region
open Idealize.ShloMosaic Idealize.ShloMosaic.TcCoe Idealize.ShloMosaic.ValueIdx
open Idealize.SL Idealize.SL.Sem
open Idealize.ShloMosaic.Pipeline (Dat Cfg Window)

/-- Entry `(n, q)` of the padded product of the rows `X` and the padded weights `W`. -/
def paddedAt (X : S16384x8192.Idx → EReal) (W : S8192x128.Idx → EReal) (n : Fin 16384) (q : Fin 128) : EReal :=
  (∑ k : Fin 8192, X (ix2 n k) * W (ix2 k q))
    * Ideal.rsqrt ((∑ k : Fin 8192, X (ix2 n k) * X (ix2 n k)) * Ideal.ofBits .f32 0x39000000#32
        + Ideal.ofBits .f32 0x358637BD#32)

/-- The padded product as an array. -/
def padded (X : S16384x8192.Idx → EReal) (W : S8192x128.Idx → EReal) : S16384x128.Idx → EReal :=
  fun i => paddedAt X W (i 0) (i 1)

theorem padded_apply (X : S16384x8192.Idx → EReal) (W : S8192x128.Idx → EReal) (n : Fin 16384) (q : Fin 128) :
    padded X W (ix2 n q) = paddedAt X W n q := rfl

/-- An entry of the product from any row `a` and column `b` that agree with row `n` of `X` and column `q` of `W`. -/
theorem paddedAt_of_eq (X : S16384x8192.Idx → EReal) (W : S8192x128.Idx → EReal) (n : Fin 16384) (q : Fin 128)
    (a b : Fin 8192 → EReal) (ha : ∀ k, a k = X (ix2 n k)) (hb : ∀ k, b k = W (ix2 k q)) :
    (∑ k : Fin 8192, a k * b k)
      * Ideal.rsqrt ((∑ k : Fin 8192, a k * a k) * Ideal.ofBits .f32 0x39000000#32 + Ideal.ofBits .f32 0x358637BD#32)
      = paddedAt X W n q := by
  have ea : a = fun k => X (ix2 n k) := funext ha
  have eb : b = fun k => W (ix2 k q) := funext hb
  subst ea eb
  rfl

variable (m : (ℓ : Loc nD τ sig) → Buf (Elt Ideal) ℓ)

theorem zeros : (![0, 0] : Fin 2 → Nat) = fun _ => 0 := funext fun a => by fin_cases a <;> rfl

/-- The printed index maps over the grid: the rows' window and the result's window move one block of rows per point,
    the weights' window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the padded product of the two arrays as the region finds them. -/
theorem flushed_eq (c : Dev nD) (t : Fin cfg0.N) :
    (dats m 0 c).flushed 2 t
      = ((cfg0.win 2).blk t).view.read (Elt Ideal) (padded (V m c main_v0) (V m c main_v4)) := by
  show (cfg0.win 2).cut (grid0.coords t) ((dats m 0 c).after 2 t) = _
  rw [after_o]
  unfold outBlock
  rw [View.canon_unit_zero zeros]
  simp only [View.ld_unit_zero (S := S512x8192) zeros, View.ld_unit_zero (S := S8192x128) zeros]
  obtain ⟨e00, e01, e10, e11, e20, e21⟩ := idx_facts t
  funext j
  obtain ⟨r, q, rfl⟩ : ∃ (r : Fin 512) (q : Fin 128), j = ix2 r q := ⟨j 0, j 1, eq_ix2 j⟩
  show k0_pay1 (F := Ideal) (iblk m c 0 t) (iblk m c 1 t) (ix2 r q)
    = padded (V m c main_v0) (V m c main_v4) (((cfg0.win 2).blk t).view.emb (ix2 r q))
  refine (pay_apply (iblk m c 0 t) (iblk m c 1 t) r q).trans ?_
  refine paddedAt_of_eq (V m c main_v0) (V m c main_v4) _ _ _ _ (fun k => ?_) (fun k => ?_)
  · show V m c main_v0 (((cfg0.win 0).blk t).view.emb (ix2 r k)) = V m c main_v0 _
    refine congrArg (V m c main_v0) ?_
    funext a; apply Fin.ext
    match a with
    | ⟨0, _⟩ =>
      show win0_0.index t (0 : Fin 2) * 512 + 1 * r.val = win0_2.index t (0 : Fin 2) * 512 + 1 * r.val
      omega
    | ⟨1, _⟩ =>
      show win0_0.index t (1 : Fin 2) * 8192 + 1 * k.val = k.val
      omega
  · show V m c main_v4 (((cfg0.win 1).blk t).view.emb (ix2 k q)) = V m c main_v4 _
    refine congrArg (V m c main_v4) ?_
    funext a; apply Fin.ext
    match a with
    | ⟨0, _⟩ =>
      show win0_1.index t (0 : Fin 2) * 8192 + 1 * k.val = k.val
      omega
    | ⟨1, _⟩ =>
      show win0_1.index t (1 : Fin 2) * 128 + 1 * q.val = win0_2.index t (1 : Fin 2) * 128 + 1 * q.val
      omega

/-- An index of the result is in point `t`'s block iff each coordinate is in the block's range on its axis. -/
theorem mem_blk (t : Fin cfg0.N) (i : S16384x128.Idx) :
    i ∈ ((cfg0.win 2).blk t).view.set ↔ ∀ a : Fin 2, win0_2.index t a * S512x128.size a ≤ (i a).val
      ∧ (i a).val < win0_2.index t a * S512x128.size a + S512x128.size a := by
  show i ∈ ((View.whole main_v5).slice (win0_2.rect t)).set ↔ _
  rw [View.set_slice_whole, Rect.mem_set_unit]
  exact Iff.rfl

/-- Every index of the result is in the block of the point its row falls in: `t = row / 512`. -/
theorem cover (i : S16384x128.Idx) :
    ∃ t : Fin cfg0.N, (cfg0.win 2).flush t = true ∧ i ∈ ((cfg0.win 2).blk t).view.set := by
  have hi0 : (i 0).val < 16384 := (i 0).isLt
  have hi1 : (i 1).val < 128 := (i 1).isLt
  have hN : cfg0.N = 32 := N_0
  refine ⟨⟨(i 0).val / 512, by rw [hN]; omega⟩, flush0_2 _, ?_⟩
  rw [mem_blk]
  obtain ⟨-, -, -, -, e20, e21⟩ := idx_facts ⟨(i 0).val / 512, by rw [hN]; omega⟩
  intro a
  match a with
  | ⟨0, _⟩ =>
    show win0_2.index _ (0 : Fin 2) * 512 ≤ (i 0).val ∧ (i 0).val < win0_2.index _ (0 : Fin 2) * 512 + 512
    rw [e20]
    show (i 0).val / 512 * 512 ≤ (i 0).val ∧ (i 0).val < (i 0).val / 512 * 512 + 512
    omega
  | ⟨1, _⟩ =>
    show win0_2.index _ (1 : Fin 2) * 128 ≤ (i 1).val ∧ (i 1).val < win0_2.index _ (1 : Fin 2) * 128 + 128
    rw [e21]
    omega

/-- THE RESULT ARRAY after the region is the padded product of the two arrays as the region finds them. -/
theorem product_final (c : Dev nD) :
    (dats m 0 c).arrAt 2 cfg0.N = padded (V m c main_v0) (V m c main_v4) :=
  (dats m 0 c).arrAt_eq_of_cover 2 _ (fun t _ => flushed_eq m c t) cover

end Cert.KernelIdeal.RowValue

end
-- ==== Proof.KernelIdeal.Results.lean ====
import proofs.«145193_j71416716198105_1_alg».proof.Proof.KernelIdeal.Frame
import proofs.«145193_j71416716198105_1_alg».proof.Proof.KernelIdeal.TailRun
import proofs.«145193_j71416716198105_1_alg».proof.Proof.KernelIdeal.Product

/-!
# The kernel program's three results

After the region every array of the pipeline holds what the region left and every other buffer what it held when the
region was entered; the 189 host operations that follow are run from there.  Read back, the three result buffers are
the two gates and the mixing matrix of the first 24 columns of the padded product, with the scales and the bias as
launched (no host operation writes an argument).
-/

noncomputable section

namespace Cert.KernelIdeal.Results

open Cert.KernelIdeal Cert.KernelIdeal.Gen Cert.KernelIdeal.Region Cert.KernelIdeal.Gates Cert.KernelIdeal.RowValue
open Idealize.ShloMosaic Idealize.ShloMosaic.TcCoe Idealize.SL.Sem

variable (m : (ℓ : Loc nD τ sig) → Buf (Elt Ideal) ℓ)

/-- What the host operations after the region start from on core `c`. -/
abbrev start (c : Dev nD) : Valuation τ sig (Elt Ideal) :=
  Pipeline.withArrays (cfgs 0).spec c (V0 m c) fun w => (dats m 0 c).arrAt w (cfgs 0).N

/-- A buffer after the whole program is that buffer after the 189 operations run from `start`. -/
theorem after_tail (c : Dev nD) (b : Ref sig .tc) :
    Pipeline.afterTail₀ cfgs (dats m) 0 (V0 m) [hostOps1] c b = StableHlo.after hostOps1 (start m c) (Proc.devRef .tc b) := by
  unfold Pipeline.afterTail₀
  rw [suffix_flat]

/-- They start from the padded product in the region's result array, -/
theorem start_product (c : Dev nD) :
    start m c (Proc.devRef .tc main_v5) = padded (V m c main_v0) (V m c main_v4) :=
  (Pipeline.withArrays_arr spec0 launch0.win.arr_inj c _ _ 2).trans (product_final m c)

/-- and from the arguments as launched. -/
theorem start_arg2 (c : Dev nD) : start m c (Proc.devRef .tc main_arg2) = m ((c : Thread nD τ).loc main_arg2) :=
  (Pipeline.withArrays_of_ne _ c (V0 m c) _ main_arg2 (by decide)).trans (V_main_arg2 m c)
theorem start_arg3 (c : Dev nD) : start m c (Proc.devRef .tc main_arg3) = m ((c : Thread nD τ).loc main_arg3) :=
  (Pipeline.withArrays_of_ne _ c (V0 m c) _ main_arg3 (by decide)).trans (V_main_arg3 m c)
theorem start_arg4 (c : Dev nD) : start m c (Proc.devRef .tc main_arg4) = m ((c : Thread nD τ).loc main_arg4) :=
  (Pipeline.withArrays_of_ne _ c (V0 m c) _ main_arg4 (by decide)).trans (V_main_arg4 m c)
theorem start_arg5 (c : Dev nD) : start m c (Proc.devRef .tc main_arg5) = m ((c : Thread nD τ).loc main_arg5) :=
  (Pipeline.withArrays_of_ne _ c (V0 m c) _ main_arg5 (by decide)).trans (V_main_arg5 m c)

/-- The first gate. -/
theorem result_pre (c : Dev nD) :
    Pipeline.afterTail₀ cfgs (dats m) 0 (V0 m) [hostOps1] c main_v152
      = gatePre (F := Ideal) (mixOf (padded (V m c main_v0) (V m c main_v4))) (m ((c : Thread nD τ).loc main_arg3)) (m ((c : Thread nD τ).loc main_arg2)) := by
  rw [after_tail, Cert.KernelIdeal.TailRun.tail_pre, start_product, start_arg3, start_arg2]

/-- The second gate. -/
theorem result_post (c : Dev nD) :
    Pipeline.afterTail₀ cfgs (dats m) 0 (V0 m) [hostOps1] c main_v153
      = gatePost (F := Ideal) (mixOf (padded (V m c main_v0) (V m c main_v4))) (m ((c : Thread nD τ).loc main_arg4)) (m ((c : Thread nD τ).loc main_arg2)) := by
  rw [after_tail, Cert.KernelIdeal.TailRun.tail_post, start_product, start_arg4, start_arg2]

/-- The mixing matrix. -/
theorem result_mixing (c : Dev nD) :
    Pipeline.afterTail₀ cfgs (dats m) 0 (V0 m) [hostOps1] c main_v154
      = mixingOut (F := Ideal) (logits (mixOf (padded (V m c main_v0) (V m c main_v4))) (m ((c : Thread nD τ).loc main_arg5)) (m ((c : Thread nD τ).loc main_arg2))) := by
  rw [after_tail, Cert.KernelIdeal.TailRun.tail_mixing, start_product, start_arg5, start_arg2]

end Cert.KernelIdeal.Results

end
-- ==== Proof.Scale.lean ====
import Idealize.ShloMosaic.PureOps.Ideal

/-!
# The two scales of the mean square

The kernel multiplies a row's sum of squares by the float `2⁻¹³`; the reference divides it by the float `8192 = 2¹³`.
Both words are exact powers of two, so they denote `1 / 8192` and `8192` exactly, and on the extended reals dividing
by a nonzero real is multiplying by its reciprocal, at the infinities too.  Hence the two scalings are one function of
the sum, with no assumption on it.
-/

noncomputable section

namespace Cert.Scale

open Idealize.ShloMosaic

/-- The reference's divisor, the word of `8192.0`, denotes the real `8192`. -/
theorem ofBits_8192 : Ideal.ofBits .f32 0x46000000#32 = ((8192 : ℝ) : EReal) := by
  simp [Ideal.ofBits, Ideal.ieee, -EReal.coe_mul]; norm_num

/-- The kernel's factor, the word of `2⁻¹³`, denotes the real `1 / 8192`. -/
theorem ofBits_inv_8192 : Ideal.ofBits .f32 0x39000000#32 = ((1 / 8192 : ℝ) : EReal) := by
  simp [Ideal.ofBits, Ideal.ieee, -EReal.coe_mul]; norm_num

/-- Dividing by the one word is multiplying by the other, for every extended real. -/
theorem div_eq_mul (s : EReal) :
    Ideal.div s (Ideal.ofBits .f32 0x46000000#32) = s * Ideal.ofBits .f32 0x39000000#32 := by
  rw [ofBits_8192, ofBits_inv_8192]
  exact Ideal.div_coe (by norm_num) s

end Cert.Scale

end
-- ==== Proof.MixSpec.lean ====
import proofs.«145193_j71416716198105_1_alg».proof.Proof.Scale
import Idealize.ShloMosaic.Lib.ValueIdx

/-!
# The mixed rows

Both programs compute, for every row `n` of the flattened `x : [16384, 8192]` and every column `j` of `φ : [8192, 24]`,

  `mix (n, j) = (Σ_k x (n, k) · φ (k, j)) · rsqrt (mean_k x (n, k)² + ε)`.

It is stated here once, over the extended reals, with the mean written as the sum times the float `2⁻¹³` (the kernel's
spelling; the reference's quotient by `8192` is the same function of the sum, `Cert.Scale.div_eq_mul`).
-/

noncomputable section

open scoped BigOperators

namespace Cert.Mix

open Idealize.ShloMosaic Idealize.ShloMosaic.ValueIdx

/-- Entry `(n, j)` of the mixed rows of `X` and `Φ`. -/
def mixAt (X : (⟨2, ![16384, 8192]⟩ : Shape).Idx → EReal) (Φ : (⟨2, ![8192, 24]⟩ : Shape).Idx → EReal)
    (n : Fin 16384) (j : Fin 24) : EReal :=
  (∑ k : Fin 8192, X (ix2 n k) * Φ (ix2 k j))
    * Ideal.rsqrt ((∑ k : Fin 8192, X (ix2 n k) * X (ix2 n k)) * Ideal.ofBits .f32 0x39000000#32
        + Ideal.ofBits .f32 0x358637BD#32)

end Cert.Mix

end
-- ==== Proof.KernelIdeal.Mix.lean ====
import proofs.«145193_j71416716198105_1_alg».proof.Proof.KernelIdeal.Product
import proofs.«145193_j71416716198105_1_alg».proof.Proof.Gates
import proofs.«145193_j71416716198105_1_alg».proof.Proof.MixSpec

/-!
# The kernel's mixed rows at an entry

The kernel's mixed rows are columns `0..23` of the padded product.  Column `j < 24` of the padded weights is column `j`
of `φ`, so entry `(n, j)` of the mixed rows is `Cert.Mix.mixAt` of the flattened `x` and `φ`: the padding never enters.
-/

noncomputable section

open scoped BigOperators

namespace Cert.KernelIdeal.RowValue

open Cert.KernelIdeal Cert.KernelIdeal.Gen Cert.KernelIdeal.Gates
open Idealize.ShloMosaic Idealize.ShloMosaic.ValueIdx

/-- Entry `(n, j)` of the first 24 columns of the padded product, when the first 24 columns of the weights are `Φ`. -/
theorem mix_apply (X : S16384x8192.Idx → EReal) (W : S8192x128.Idx → EReal) (Φ : S8192x24.Idx → EReal)
    (hW : ∀ (k : Fin 8192) (j : Fin 24), W (ix2 k (⟨j.val, by omega⟩ : Fin 128)) = Φ (ix2 k j))
    (n : Fin 16384) (j : Fin 24) :
    mixOf (F := Ideal) (padded X W) (ix2 n j) = Cert.Mix.mixAt X Φ n j := by
  unfold mixOf
  refine (extractStridedSlice_apply ![0, 0] (padded X W) slices_S16384x128_S16384x24_0_0 (ix2 n j)
    (ix2 n (⟨j.val, by omega⟩ : Fin 128)) (fun a => ?_)).trans ?_
  · match a with
    | ⟨0, _⟩ => show n.val = 0 + n.val; omega
    | ⟨1, _⟩ => show j.val = 0 + j.val; omega
  · rw [padded_apply]
    unfold paddedAt Cert.Mix.mixAt
    simp only [hW]

end Cert.KernelIdeal.RowValue

end
-- ==== Proof.LibScatterWindow.lean ====
/-
  A scatter of ONE whole-rows window, read inside the window.

  The scatter of an update of `R` rows and `C'` columns into an operand of `R` rows and `C ≥ C'` columns, with the
  update's two axes both window axes, no inserted axis and a single scalar scatter index, is a left fold over the
  update's indices in row-major order: each update index `j` overwrites the operand's entry at start + `j` by the
  body's value, when that entry exists. With the start read as zero and a body that returns the update, entry
  `(k, q)` with `q < C'` is met by exactly the update index `(k, q)`, so the result there is the update's entry.

  Three parts, each generic in the extents:
  * `foldl_read`: a left fold of overwriting steps, read at one entry, when every step that meets the entry
    writes the same value there — a fact about folds that mentions no scatter;
  * `start_eq`, `window_eq`, `resultIdx?_window`: for this record the start is zero on both axes, the window
    coordinate on each axis is the update index's own, so update index `(k', q')` lands at entry `(k', q')`;
  * `scatter_window_apply`: the two together.
-/
import Idealize.ShloMosaic.PureOps.ShapeOps
import Idealize.ShloMosaic.Lib.ValueIdx

namespace Cert.LibScatterWindow
open Idealize.ShloMosaic Idealize.ShloMosaic.ValueIdx
variable {α : Type}

/-! ## A left fold of overwriting steps, read at one entry -/

/-- Let `step` update a table `r : σ → α` by one item `n`, where `ρ n` names the entry the item meets (if any):
    an item that meets entry `i'` leaves `val n` there (`hhit`), any other item leaves entry `i'` as it was
    (`hmiss`). If every item of `L` that meets `i'` carries the value `v`, and either the table holds `v` at `i'`
    to begin with or some item of `L` meets `i'`, then the fold of `step` over `L` holds `v` at `i'`.
    By induction on `L` with the table general: the head either meets `i'`, and then the table after it holds
    `v` there, or it does not, and then the entry and the remaining items are as before. -/
theorem foldl_read {ι σ : Type} (step : (σ → α) → ι → (σ → α)) (ρ : ι → Option σ) (val : ι → α) (i' : σ) (v : α)
    (hhit : ∀ r n, ρ n = some i' → step r n i' = val n)
    (hmiss : ∀ r n, ρ n ≠ some i' → step r n i' = r i') :
    ∀ (L : List ι) (r : σ → α), (∀ n ∈ L, ρ n = some i' → val n = v) →
      (r i' = v ∨ ∃ n ∈ L, ρ n = some i') → L.foldl step r i' = v := by
  intro L
  induction L with
  | nil =>
    intro r _ h
    rcases h with h | ⟨n, hn, _⟩
    · exact h
    · cases hn
  | cons a L ih =>
    intro r hall h
    rw [List.foldl_cons]
    refine ih (step r a) (fun n hn => hall n (List.mem_cons_of_mem a hn)) ?_
    by_cases ha : ρ a = some i'
    · exact Or.inl ((hhit r a ha).trans (hall a List.mem_cons_self ha))
    · rcases h with h | ⟨n, hn, hρ⟩
      · exact Or.inl ((hmiss r a ha).trans h)
      · rcases List.mem_cons.1 hn with rfl | hn
        · exact absurd hρ ha
        · exact Or.inr ⟨n, hn, hρ⟩

/-! ## Where an update index lands -/

/-- A shape of one axis of extent one has one index. -/
theorem si_eq (i : (⟨1, ![1]⟩ : Shape).Idx) : i = ix1 (0 : Fin 1) :=
  (eq_ix1 i).trans (congrArg (ix1 (n := 1)) (Fin.ext (show (i 0).val = 0 from Nat.lt_one_iff.1 (i 0).isLt)))

/-- With a single scalar scatter index whose value is the zero word, the window starts at zero on every
    operand axis: on an axis the index vector names, the start is that one word read signed, which is zero;
    on any other axis it is zero by definition. (Any dimension numbers, any operand and update shapes.) -/
theorem start_eq {s u : Shape} (d : ScatterDims s ⟨1, ![1]⟩ u) (idx : IVec ⟨1, ![1]⟩ 32)
    (hidx : idx (ix1 (0 : Fin 1)) = 0#32) (j : u.Idx) (a : Fin s.rank) : d.start j idx a = 0 := by
  unfold ScatterDims.start
  split
  · rw [si_eq (ScatterDims.siIdx _ _ _), hidx]; rfl
  · rfl

/-- With both update axes window axes, in order, and no operand axis inserted, the window coordinate on each
    operand axis is the update index's coordinate on the same axis: the operand's kept axes are `[0, 1]`, and
    the window axis in the position of axis `a` among them is `a` itself. -/
theorem window_eq {R C C' : ℕ} (d : ScatterDims ⟨2, ![R, C]⟩ ⟨1, ![1]⟩ ⟨2, ![R, C']⟩)
    (h1 : d.updateWindowDims = [0, 1]) (h2 : d.insertedWindowDims = [])
    (j : (⟨2, ![R, C']⟩ : Shape).Idx) (a : Fin 2) : d.window j a = (j a).val := by
  obtain ⟨uw, iw, sd, iv, wf⟩ := d
  dsimp only at h1 h2
  subst h1 h2
  match a with
  | ⟨0, _⟩ => rfl
  | ⟨1, _⟩ => rfl

/-- If start plus window coordinate is, on every axis, the coordinate of an operand index `i`, then the update
    index lands at `i`: the sum is nonnegative and inside the operand because `i`'s coordinate is, and the
    landing index has that sum as its coordinate. (Any dimension numbers and shapes.) -/
theorem resultIdx?_eq_of {s si u : Shape} {w : ℕ} (d : ScatterDims s si u) (j : u.Idx) (idx : IVec si w) (i : s.Idx)
    (H : ∀ a, d.start j idx a + d.window j a = ((i a).val : ℤ)) : d.resultIdx? j idx = some i := by
  unfold ScatterDims.resultIdx?
  have h : ∀ a, 0 ≤ d.start j idx a + d.window j a ∧ d.start j idx a + d.window j a < s.size a := fun a => by
    rw [H a]; exact ⟨Int.natCast_nonneg _, by exact_mod_cast (i a).isLt⟩
  rw [dif_pos h]
  refine congrArg some (funext fun a => Fin.ext ?_)
  show (d.start j idx a + d.window j a).toNat = (i a).val
  rw [H a]; exact Int.toNat_natCast _

/-- For the whole-rows window at start column zero, update index `(k', q')` lands at operand entry `(k', q')`,
    the column read along `C' ≤ C`: zero start plus the update's own coordinate, on both axes. -/
theorem resultIdx?_window {R C C' : ℕ} (d : ScatterDims ⟨2, ![R, C]⟩ ⟨1, ![1]⟩ ⟨2, ![R, C']⟩)
    (h1 : d.updateWindowDims = [0, 1]) (h2 : d.insertedWindowDims = []) (hC : C' ≤ C)
    (idx : IVec ⟨1, ![1]⟩ 32) (hidx : idx (ix1 (0 : Fin 1)) = 0#32) (k' : Fin R) (q' : Fin C') :
    d.resultIdx? (ix2 k' q') idx = some (ix2 k' (⟨q'.val, lt_of_lt_of_le q'.isLt hC⟩ : Fin C)) := by
  apply resultIdx?_eq_of
  intro a
  rw [start_eq d idx hidx, window_eq d h1 h2, zero_add]
  match a with
  | ⟨0, _⟩ => rfl
  | ⟨1, _⟩ => rfl

/-! ## The scatter, read inside the window -/

/-- A scatter of one whole-rows window of `C'` columns at start column zero, with a body that returns the update,
    read inside the window, is the update: into an operand of `R` rows and `C ≥ C'` columns, an update of `R` rows
    and `C'` columns is written as one window (both update axes are window axes, no operand axis is inserted) at
    the start index `(0, idx)` with the one scatter index `idx` the zero word; the result's entry `(k, q)` with
    `q < C'` is the update's entry `(k, q)`. The scatter is the left fold of overwriting steps over the update's
    indices (`foldl_read`); update index `(k', q')` lands at entry `(k', q')` (`resultIdx?_window`), so the only
    update index that lands at `(k, q)` is `(k, q)` itself — equal landing entries have equal coordinates —, it is
    among the indices folded over, and the body leaves the update's entry there. -/
theorem scatter_window_apply {R C C' : ℕ} (d : ScatterDims ⟨2, ![R, C]⟩ ⟨1, ![1]⟩ ⟨2, ![R, C']⟩)
    (h1 : d.updateWindowDims = [0, 1]) (h2 : d.insertedWindowDims = []) (h3 : d.scatterDimsToOperandDims = [1])
    (h4 : d.indexVectorDim = 0) (hC : C' ≤ C)
    (x : (⟨2, ![R, C]⟩ : Shape).Idx → α) (idx : IVec ⟨1, ![1]⟩ 32) (hidx : idx (ix1 (0 : Fin 1)) = 0#32)
    (upd : (⟨2, ![R, C']⟩ : Shape).Idx → α) (k : Fin R) (q : Fin C') :
    Host.scatter d (fun _ b => b) x idx upd (ix2 k (⟨q.val, lt_of_lt_of_le q.isLt hC⟩ : Fin C)) = upd (ix2 k q) := by
  unfold Host.scatter
  refine foldl_read _ (fun n => d.resultIdx? ((Shape.rowMajor ⟨2, ![R, C']⟩).symm n) idx)
    (fun n => upd ((Shape.rowMajor ⟨2, ![R, C']⟩).symm n)) _ _ ?hit ?miss _ _ ?all (Or.inr ?ex)
  case hit =>
    -- a step whose update index lands at the entry leaves the update's value there
    intro r n h
    dsimp only at h ⊢
    rw [h]
    exact if_pos rfl
  case miss =>
    -- a step whose update index lands elsewhere, or nowhere, leaves the entry as it was
    intro r n h
    dsimp only at h ⊢
    generalize d.resultIdx? ((Shape.rowMajor ⟨2, ![R, C']⟩).symm n) idx = o at h ⊢
    cases o with
    | none => rfl
    | some i => exact if_neg fun e => h (congrArg some e.symm)
  case all =>
    -- an update index that lands at entry (k, q) has the coordinates (k, q)
    intro n _ h
    obtain ⟨k', q', hj⟩ : ∃ (k' : Fin R) (q' : Fin C'), (Shape.rowMajor ⟨2, ![R, C']⟩).symm n = ix2 k' q' :=
      ⟨_, _, eq_ix2 _⟩
    rw [hj] at h ⊢
    rw [resultIdx?_window d h1 h2 hC idx hidx k' q'] at h
    have e := Option.some.inj h
    have e0 : k' = k := congrFun e 0
    have e1 : (⟨q'.val, lt_of_lt_of_le q'.isLt hC⟩ : Fin C) = ⟨q.val, lt_of_lt_of_le q.isLt hC⟩ := congrFun e 1
    have e1' : q' = q := Fin.ext (Fin.mk.inj e1)
    rw [e0, e1']
  case ex =>
    -- the update index (k, q) is among the indices folded over, and lands at entry (k, q)
    refine ⟨(Shape.rowMajor ⟨2, ![R, C']⟩) (ix2 k q), List.mem_finRange _, ?_⟩
    rw [Equiv.symm_apply_apply]
    exact resultIdx?_window d h1 h2 hC idx hidx k q

end Cert.LibScatterWindow
-- ==== Proof.KernelIdeal.Prefix.lean ====
import proofs.«145193_j71416716198105_1_alg».proof.Proof.KernelIdeal.Region
import proofs.«145193_j71416716198105_1_alg».proof.Proof.LibScatterWindow
import proofs.«145193_j71416716198105_1_alg».proof.Proof.LibColumn
import Idealize.ShloMosaic.Lib.StableHlo.Run
import Idealize.ShloMosaic.Lib.ValueIdx

/-!
# What the region finds in its two input arrays

Seven host operations run before the region.  The rows' array is `x` flattened to `[16384, 8192]`.  The weights'
array is a zero `[8192, 128]` array into which `φ`, rounded to bf16, is written as one window at column `0`: its
column `j < 24` is column `j` of `φ` (the rounding is the identity at the exact instance).
-/

noncomputable section

namespace Cert.KernelIdeal.RowValue

open Cert.KernelIdeal Cert.KernelIdeal.Gen Cert.KernelIdeal.Region
open Idealize.ShloMosaic Idealize.ShloMosaic.TcCoe Idealize.ShloMosaic.ValueIdx Idealize.SL.Sem

variable (m : (ℓ : Loc nD τ sig) → Buf (Elt Ideal) ℓ)

/-- The rows' array as the region finds it: `x` flattened. -/
theorem entry_rows (c : Dev nD) :
    (V m c main_v0 : S16384x8192.Idx → EReal)
      = shapeCast _ (m ((c : Thread nD τ).loc main_arg0)) shapeCasts_S4x4096x4x2048_S16384x8192 := by
  show StableHlo.after hostOps0 (fun b => m (c, b)) (Proc.devRef .tc main_v0) = _
  after_results
  rfl

/-- The weights' array as the region finds it: the rounded `φ` written into a zero array at column `0`. -/
theorem entry_weights (c : Dev nD) :
    (V m c main_v4 : S8192x128.Idx → EReal)
      = Host.scatter scatter_S8192x128_S1_S8192x24_01_n_1_0 (fun _ b => b)
          (broadcastInDim S8192x128 ![] bcast_S_S8192x128 (constant (F := Ideal) S_ .bf16 0x0000#16))
          (broadcastInDim S1 ![] bcast_S_S1 (constantI S_ 32 0#32))
          (truncf .bf16 (m ((c : Thread nD τ).loc main_arg1)) bitsLt_bf16_f32) := by
  show StableHlo.after hostOps0 (fun b => m (c, b)) (Proc.devRef .tc main_v4) = _
  after_results

/-- Column `j < 24` of the weights' array is column `j` of `φ`. -/
theorem weights_apply (c : Dev nD) (k : Fin 8192) (j : Fin 24) :
    V m c main_v4 (ix2 k (⟨j.val, by omega⟩ : Fin 128)) = m ((c : Thread nD τ).loc main_arg1) (ix2 k j) := by
  rw [entry_weights]
  refine (Cert.LibScatterWindow.scatter_window_apply scatter_S8192x128_S1_S8192x24_01_n_1_0 rfl rfl rfl rfl
    (by decide) _ _ ?_ _ k j).trans rfl
  exact (Cert.LibColumn.broadcastInDim_scalar_apply _ bcast_S_S1 _).trans rfl

end Cert.KernelIdeal.RowValue

end
-- ==== Proof.RefGates.lean ====
import proofs.«145193_j71416716198105_1_alg».proof.Proof.Gates
import proofs.«145193_j71416716198105_1_alg».proof.Proof.Gen.ReferenceIdeal.Run

/-!
# The reference's results as gates of its mixed rows

The reference computes its mixed rows `mix = (x · φ) * rsqrt (mean (x²) + ε)` directly at `[16384, 24]` and then applies
the same gate operations as the kernel's program.  Its run names every array that is used twice; here each of those
names is identified with one stage function applied to the name before it, so that the three results read
`gatePre mix a b`, `gatePost mix a b` and `mixingOut (logits mix a b)`.  Every step compares one stage's operations
with themselves: no stage is ever written out inside another.
-/

noncomputable section

namespace Cert.ReferenceIdeal.RefGates

open Cert.ReferenceIdeal Cert.ReferenceIdeal.Gen Cert.ReferenceIdeal.Value Cert.KernelIdeal.Gates
open Idealize.ShloMosaic Idealize.ShloMosaic.TcCoe Idealize.SL.Sem Idealize.ShloMosaic.StableHlo

variable {F : FTy → Type} [FloatOps F]

section Stages

variable (V0 : Valuation τ sig (Elt F))

/-- The logits are the stage function of the mixed rows, the scale `alpha_res` and the bias. -/
theorem logits_eq : res_main_v53 V0
    = logits (res_main_v11 V0) (V0 (Proc.devRef .tc main_arg5)) (V0 (Proc.devRef .tc main_arg2)) := rfl
/-- The shifted exponentials, and the softmax plus `ε`. -/
theorem exp_eq : res_main_v60 V0 = expShift (res_main_v53 V0) := rfl
theorem soft_eq : res_main_v66 V0 = softEps (res_main_v60 V0) := rfl
/-- The first column normalisation, then seven rounds, one step at a time. -/
theorem col0_eq : res_main_v72 V0 = colStep (res_main_v66 V0) := rfl
theorem row1_eq : res_main_v78 V0 = rowStep (res_main_v72 V0) := rfl
theorem col1_eq : res_main_v84 V0 = colStep (res_main_v78 V0) := rfl
theorem row2_eq : res_main_v90 V0 = rowStep (res_main_v84 V0) := rfl
theorem col2_eq : res_main_v96 V0 = colStep (res_main_v90 V0) := rfl
theorem row3_eq : res_main_v102 V0 = rowStep (res_main_v96 V0) := rfl
theorem col3_eq : res_main_v108 V0 = colStep (res_main_v102 V0) := rfl
theorem row4_eq : res_main_v114 V0 = rowStep (res_main_v108 V0) := rfl
theorem col4_eq : res_main_v120 V0 = colStep (res_main_v114 V0) := rfl
theorem row5_eq : res_main_v126 V0 = rowStep (res_main_v120 V0) := rfl
theorem col5_eq : res_main_v132 V0 = colStep (res_main_v126 V0) := rfl
theorem row6_eq : res_main_v138 V0 = rowStep (res_main_v132 V0) := rfl
theorem col6_eq : res_main_v144 V0 = colStep (res_main_v138 V0) := rfl
theorem row7_eq : res_main_v150 V0 = rowStep (res_main_v144 V0) := rfl

/-- The last column normalisation of the last round's rows is the whole mixing matrix of the logits. -/
theorem mixing_eq : colStep (res_main_v150 V0)
    = mixing (logits (res_main_v11 V0) (V0 (Proc.devRef .tc main_arg5)) (V0 (Proc.devRef .tc main_arg2))) := by
  rw [row7_eq, col6_eq, row6_eq, col5_eq, row5_eq, col4_eq, row4_eq, col3_eq, row3_eq, col2_eq, row2_eq, col1_eq, row1_eq, col0_eq, soft_eq, exp_eq, logits_eq]
  rfl

end Stages

/-- The reference's run with its three results stated as gates of its mixed rows `res_main_v11`. -/
theorem run_gates (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v157) = gatePre (res_main_v11 (launchContents m c)) ((launchContents m c) (Proc.devRef .tc main_arg3)) ((launchContents m c) (Proc.devRef .tc main_arg2))
      ∧ r.2.mem ((c.tc : Thread nD τ).loc main_v158) = gatePost (res_main_v11 (launchContents m c)) ((launchContents m c) (Proc.devRef .tc main_arg4)) ((launchContents m c) (Proc.devRef .tc main_arg2))
      ∧ r.2.mem ((c.tc : Thread nD τ).loc main_v159) = mixingOut (logits (res_main_v11 (launchContents m c)) ((launchContents m c) (Proc.devRef .tc main_arg5)) ((launchContents m c) (Proc.devRef .tc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (run (F := F) m ρ)
  obtain ⟨h1, h2, h3, hargs⟩ := h c
  refine ⟨h1, h2, h3.trans ?_, hargs⟩
  show shapeCast _ (colStep (res_main_v150 (launchContents m c))) _ = _
  rw [mixing_eq]
  rfl

end Cert.ReferenceIdeal.RefGates

end
-- ==== Proof.RefMix.lean ====
import proofs.«145193_j71416716198105_1_alg».proof.Proof.Gen.ReferenceIdeal.Run
import proofs.«145193_j71416716198105_1_alg».proof.Proof.MixSpec
import proofs.«145193_j71416716198105_1_alg».proof.Proof.LibDot
import proofs.«145193_j71416716198105_1_alg».proof.Proof.LibColumn
import proofs.«145193_j71416716198105_1_alg».proof.Proof.LibAxisReduce
import Idealize.ShloMosaic.PureOps.Ideal.Laws
import Idealize.ShloMosaic.Lib.Pipeline.Value

/-!
# The reference's mixed rows at an entry

The reference forms `x · φ` with one `dot_general`, the mean of squares as a row sum divided by `8192`, adds `ε`, takes
the reciprocal square root and spreads it along the row.  At the exact instance the product is the plain sum over the
contraction index, the row sum is `0 +` the plain sum, and the quotient by `8192` is the product with `2⁻¹³`: entry
`(n, j)` is `Cert.Mix.mixAt` of the flattened `x` and `φ`.
-/

noncomputable section

open scoped BigOperators

namespace Cert.ReferenceIdeal.RefMix

open Cert.ReferenceIdeal Cert.ReferenceIdeal.Gen Cert.ReferenceIdeal.Value
open Idealize.ShloMosaic Idealize.ShloMosaic.TcCoe Idealize.ShloMosaic.ValueIdx Idealize.SL.Sem Idealize.ShloMosaic.StableHlo

/-- A row's sum of squares as the host computes it: the initial value `0` plus the plain sum. -/
theorem row_sumsq (X : FVec Ideal S16384x8192 .f32) (n : Fin 16384) :
    Host.reduceAdd (F := Ideal) (mulf X X) (constant S_ .f32 0x00000000#32) reducesTo_S16384x8192_S16384_d1 h_S_ (ix1 n)
      = ∑ k : Fin 8192, X (ix2 n k) * X (ix2 n k) := by
  have hR : S16384x8192.Reduces [1] S16384 := by decide
  refine (Ideal.hostReduceAdd_single reducesTo_S16384x8192_S16384_d1 hR _ _ (ix1 n)).trans ?_
  refine (congrArg₂ (· + ·) Ideal.ofBits_zero_f32 rfl).trans ?_
  rw [zero_add]
  exact Finset.sum_congr rfl fun k _ => congrArg (mulf X X) (Cert.LibAxisReduce.lift_row hR n k)

/-- Entry `(n, j)` of the reference's mixed rows. -/
theorem mix_apply (V0 : Valuation τ sig (Elt Ideal)) (n : Fin 16384) (j : Fin 24) :
    res_main_v11 V0 (ix2 n j) = Cert.Mix.mixAt (res_main_v0 V0) (V0 (Proc.devRef .tc main_arg1)) n j := by
  unfold res_main_v11 Cert.Mix.mixAt
  refine (mulf_apply _ _ _).trans ?_
  refine congrArg₂ (· * ·) ?_ ?_
  · refine (Ideal.dotGeneral_apply _ none .single _ _ (ix2 n j)).trans ?_
    exact PlainDot.sum_eq dot_S16384x8192_S8192x24_S16384x24_1_0_0_1_n_n rfl rfl rfl rfl rfl rfl _ _ n j
  · refine (Cert.LibColumn.broadcastInDim_a1_ab_apply _ bcast_S16384x1_S16384x24_0_1 n j).trans ?_
    refine congrArg Ideal.rsqrt ?_
    refine congrArg₂ (· + ·) ?_ ?_
    · refine Eq.trans ?_ (Cert.Scale.div_eq_mul _)
      refine congrArg₂ Ideal.div ?_ ?_
      · refine (Cert.LibColumn.broadcastInDim_a_a1_apply _ bcast_S16384_S16384x1_0 n 0).trans ?_
        exact row_sumsq (res_main_v0 V0) n
      · exact Cert.LibColumn.broadcastInDim_scalar_apply _ bcast_S_S16384x1 _
    · exact Cert.LibColumn.broadcastInDim_scalar_apply _ bcast_S_S16384x1 _

end Cert.ReferenceIdeal.RefMix

end
-- ==== Proof.lean ====
import proofs.«145193_j71416716198105_1_alg».proof.Defs
import proofs.«145193_j71416716198105_1_alg».proof.Proof.Kernel.Frame
import proofs.«145193_j71416716198105_1_alg».proof.Proof.KernelIdeal.Results
import proofs.«145193_j71416716198105_1_alg».proof.Proof.KernelIdeal.Mix
import proofs.«145193_j71416716198105_1_alg».proof.Proof.KernelIdeal.Prefix
import proofs.«145193_j71416716198105_1_alg».proof.Proof.RefGates
import proofs.«145193_j71416716198105_1_alg».proof.Proof.RefMix
import proofs.«145193_j71416716198105_1_alg».proof.Proof.Gen.Pre_finite_inputs

/-!
# The certificate

The kernel flattens `x` to `X : [16384, 8192]`, pads `φ` with zero columns, and in one region over 32 blocks of 512
rows computes the padded product `(X · W) * rsqrt (Σ X² · 2⁻¹³ + ε)`; its first 24 columns are the mixed rows, and 189
host operations turn them into two logistic gates and a Sinkhorn-normalised mixing matrix.  The reference computes the
mixed rows `(X · φ) * rsqrt (mean X² + ε)` directly and applies the same gate operations.

* The three frames: the two kernel programs run to the end through the library's launch theorem for one region with
  host operations before and after it; the reference's run is generated.
* The idealization rewrote no operation, so `preserves` has nothing to state.
* At the exact instance the two programs' mixed rows are one function of `X` and `φ`, entry by entry
  (`Cert.Mix.mixAt`): the padded columns never enter, the product into zeros is the plain sum, rounding to bf16 is the
  identity, and multiplying a sum by `2⁻¹³` is dividing it by `8192` on every extended real.  The gates are the same
  functions of the mixed rows on both sides, so the three results are equal.  No step uses that the inputs are finite.
-/

noncomputable section

namespace Cert.Proof

open Idealize.ShloMosaic Idealize.ShloMosaic.TcCoe Idealize.ShloMosaic.ValueIdx Idealize.SL.Sem
open Cert.KernelIdeal.Gates

/-- The two programs' mixed rows agree, from memories that agree on `x` and `φ`. -/
theorem mix_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
        = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1)) :
    mixOf (F := Ideal) (Cert.KernelIdeal.RowValue.padded (Cert.KernelIdeal.Region.V m c Cert.KernelIdeal.main_v0)
        (Cert.KernelIdeal.Region.V m c Cert.KernelIdeal.main_v4))
      = Cert.ReferenceIdeal.Value.res_main_v11 (StableHlo.launchContents m' c) := by
  funext i
  obtain ⟨n, j, rfl⟩ : ∃ (n : Fin 16384) (j : Fin 24), i = ix2 n j := ⟨i 0, i 1, eq_ix2 i⟩
  refine (Cert.KernelIdeal.RowValue.mix_apply _ _ (m ((c.tc : Thread Cert.KernelIdeal.nD Cert.KernelIdeal.τ).loc Cert.KernelIdeal.main_arg1))
    (Cert.KernelIdeal.RowValue.weights_apply m c) n j).trans ?_
  refine Eq.trans ?_ (Cert.ReferenceIdeal.RefMix.mix_apply (StableHlo.launchContents m' c) n j).symm
  rw [Cert.KernelIdeal.RowValue.entry_rows]
  unfold Cert.ReferenceIdeal.Value.res_main_v0
  show Cert.Mix.mixAt (shapeCast _ (m ((c.tc : Thread Cert.KernelIdeal.nD Cert.KernelIdeal.τ).loc Cert.KernelIdeal.main_arg0)) _) _ n j
    = Cert.Mix.mixAt (shapeCast _ (m' ((c.tc : Thread Cert.ReferenceIdeal.nD Cert.ReferenceIdeal.τ).loc Cert.ReferenceIdeal.main_arg0)) _)
        (m' ((c.tc : Thread Cert.ReferenceIdeal.nD Cert.ReferenceIdeal.τ).loc Cert.ReferenceIdeal.main_arg1)) n j
  rw [h0, h1]

theorem frame_k : Cert.frame_Kernel := fun m ρ _ => Cert.Kernel.Region.frame m ρ
theorem frame_ki : Cert.frame_KernelIdeal := fun m ρ _ => Cert.KernelIdeal.Region.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- The idealization is the program's own text read at the exact instance. -/
theorem preserves : Cert.preserves_Kernel_KernelIdeal := trivial

/-- Both programs end with the gates of one and the same array of mixed rows. -/
theorem algebraic : Cert.algebraic_KernelIdeal_ReferenceIdeal := by
  intro m ρ m' ρ' _ hagree
  refine ⟨fun c => gatePre (F := Ideal) (mixOf (Cert.KernelIdeal.RowValue.padded (Cert.KernelIdeal.Region.V m c Cert.KernelIdeal.main_v0) (Cert.KernelIdeal.Region.V m c Cert.KernelIdeal.main_v4))) (m ((c.tc : Thread Cert.KernelIdeal.nD Cert.KernelIdeal.τ).loc Cert.KernelIdeal.main_arg3)) (m ((c.tc : Thread Cert.KernelIdeal.nD Cert.KernelIdeal.τ).loc Cert.KernelIdeal.main_arg2)),
    fun c => gatePost (F := Ideal) (mixOf (Cert.KernelIdeal.RowValue.padded (Cert.KernelIdeal.Region.V m c Cert.KernelIdeal.main_v0) (Cert.KernelIdeal.Region.V m c Cert.KernelIdeal.main_v4))) (m ((c.tc : Thread Cert.KernelIdeal.nD Cert.KernelIdeal.τ).loc Cert.KernelIdeal.main_arg4)) (m ((c.tc : Thread Cert.KernelIdeal.nD Cert.KernelIdeal.τ).loc Cert.KernelIdeal.main_arg2)),
    fun c => mixingOut (F := Ideal) (logits (mixOf (Cert.KernelIdeal.RowValue.padded (Cert.KernelIdeal.Region.V m c Cert.KernelIdeal.main_v0) (Cert.KernelIdeal.Region.V m c Cert.KernelIdeal.main_v4))) (m ((c.tc : Thread Cert.KernelIdeal.nD Cert.KernelIdeal.τ).loc Cert.KernelIdeal.main_arg5)) (m ((c.tc : Thread Cert.KernelIdeal.nD Cert.KernelIdeal.τ).loc Cert.KernelIdeal.main_arg2))), ?_, ?_⟩
  · -- the kernel's run: its results read through the host operations after the region
    refine (θ_run Cert.KernelIdeal.defs _ _).mono (fun r h c => ?_) (Cert.KernelIdeal.Region.run_main m ρ)
    have hr := (h c).2
    exact ⟨(hr Cert.KernelIdeal.main_v152 (Pipeline.mem_restRefs_of _ (by decide) (by decide))).trans (Cert.KernelIdeal.Results.result_pre m c),
      (hr Cert.KernelIdeal.main_v153 (Pipeline.mem_restRefs_of _ (by decide) (by decide))).trans (Cert.KernelIdeal.Results.result_post m c),
      (hr Cert.KernelIdeal.main_v154 (Pipeline.mem_restRefs_of _ (by decide) (by decide))).trans (Cert.KernelIdeal.Results.result_mixing m c),
      (hr Cert.KernelIdeal.main_arg0 (Pipeline.mem_restRefs_of _ (by decide) (by decide))).trans (Cert.KernelIdeal.Region.tail_arg0 m c),
      (hr Cert.KernelIdeal.main_arg1 (Pipeline.mem_restRefs_of _ (by decide) (by decide))).trans (Cert.KernelIdeal.Region.tail_arg1 m c),
      (hr Cert.KernelIdeal.main_arg2 (Pipeline.mem_restRefs_of _ (by decide) (by decide))).trans (Cert.KernelIdeal.Region.tail_arg2 m c),
      (hr Cert.KernelIdeal.main_arg3 (Pipeline.mem_restRefs_of _ (by decide) (by decide))).trans (Cert.KernelIdeal.Region.tail_arg3 m c),
      (hr Cert.KernelIdeal.main_arg4 (Pipeline.mem_restRefs_of _ (by decide) (by decide))).trans (Cert.KernelIdeal.Region.tail_arg4 m c),
      (hr Cert.KernelIdeal.main_arg5 (Pipeline.mem_restRefs_of _ (by decide) (by decide))).trans (Cert.KernelIdeal.Region.tail_arg5 m c)⟩
  · -- the reference's run: the same gates of its own mixed rows, which are the kernel's
    refine (θ_run Cert.ReferenceIdeal.defs _ _).mono (fun r h c => ?_) (Cert.ReferenceIdeal.RefGates.run_gates (F := Ideal) m' ρ')
    obtain ⟨a0, a1, a2, a3, a4, a5⟩ := hagree c
    obtain ⟨h1, h2, h3, hargs⟩ := h c
    have hmix := mix_agree m m' c a0 a1
    refine ⟨h1.trans ?_, h2.trans ?_, h3.trans ?_, hargs⟩
    · show gatePre (F := Ideal) (Cert.ReferenceIdeal.Value.res_main_v11 (StableHlo.launchContents m' c))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg2)) = _
      rw [← hmix, a3, a2]
    · show gatePost (F := Ideal) (Cert.ReferenceIdeal.Value.res_main_v11 (StableHlo.launchContents m' c))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg2)) = _
      rw [← hmix, a4, a2]
    · show mixingOut (F := Ideal) (logits (Cert.ReferenceIdeal.Value.res_main_v11 (StableHlo.launchContents m' c))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg2))) = _
      rw [← hmix, a5, a2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
